-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S_ : Shape := ⟨0, ![]⟩

class Facts : Prop where
  bcast_S_S262144x440 : S_.BroadcastsInDim S262144x440 (![] : Fin 0 → Fin S262144x440.rank)
  reducesTo_S262144x440_S_d0_1 : S262144x440.ReducesTo [0, 1] S_
  h_S_ : 0 < S_.numel
  bcast_S_S40x40 : S_.BroadcastsInDim S40x40 (![] : Fin 0 → Fin S40x40.rank)
  reducesTo_S40x40_S_d0_1 : S40x40.ReducesTo [0, 1] S_
  bcast_S_S40 : S_.BroadcastsInDim S40 (![] : Fin 0 → Fin S40.rank)
  reducesTo_S40_S_d0 : S40.ReducesTo [0] S_
  bcast_S_S10x40 : S_.BroadcastsInDim S10x40 (![] : Fin 0 → Fin S10x40.rank)
  reducesTo_S10x40_S_d0_1 : S10x40.ReducesTo [0, 1] S_
  bcast_S_S10 : S_.BroadcastsInDim S10 (![] : Fin 0 → Fin S10.rank)
  reducesTo_S10_S_d0 : S10.ReducesTo [0] S_
  bcast_S_S41x41 : S_.BroadcastsInDim S41x41 (![] : Fin 0 → Fin S41x41.rank)
  reducesTo_S41x41_S_d0_1 : S41x41.ReducesTo [0, 1] S_
  bcast_S_S41 : S_.BroadcastsInDim S41 (![] : Fin 0 → Fin S41.rank)
  reducesTo_S41_S_d0 : S41.ReducesTo [0] S_
  bcast_S_S22x41 : S_.BroadcastsInDim S22x41 (![] : Fin 0 → Fin S22x41.rank)
  reducesTo_S22x41_S_d0_1 : S22x41.ReducesTo [0, 1] S_
  bcast_S_S22 : S_.BroadcastsInDim S22 (![] : Fin 0 → Fin S22.rank)
  reducesTo_S22_S_d0 : S22.ReducesTo [0] S_

variable [Facts]

def fn_part3 {F : FTy → Type} [FloatOps F] (main_arg11 : FVec F S22x41 .f32) (main_arg12 : FVec F S22 .f32) (main_v48 : IVec S_ 1) (main_v49 : FVec F S41 .f32) (main_v50 : FVec F S41 .f32) : IVec S_ 1 :=
  let main_v51 : IVec S41 1 := cmpf .olt main_v49 main_v50
  let main_c_19 : IVec S_ 1 := constantI S_ 1 1#1
  let main_v52 : IVec S_ 1 := (fun x v => Host.reduce IntOp.andi x v reducesTo_S41_S_d0 h_S_) main_v51 main_c_19
  let main_v53 : IVec S_ 1 := andi main_v48 main_v52
  let main_v54 : FVec F S22x41 .f32 := Host.absf main_arg11
  let main_cst_20 : FVec F S_ .f32 := constant S_ .f32 0x7F800000#32
  let main_v55 : FVec F S22x41 .f32 := broadcastInDim S22x41 ![] bcast_S_S22x41 main_cst_20
  let main_v56 : IVec S22x41 1 := cmpf .olt main_v54 main_v55
  let main_c_21 : IVec S_ 1 := constantI S_ 1 1#1
  let main_v57 : IVec S_ 1 := (fun x v => Host.reduce IntOp.andi x v reducesTo_S22x41_S_d0_1 h_S_) main_v56 main_c_21
  let main_v58 : IVec S_ 1 := andi main_v53 main_v57
  let main_v59 : FVec F S22 .f32 := Host.absf main_arg12
  let main_cst_22 : FVec F S_ .f32 := constant S_ .f32 0x7F800000#32
  let main_v60 : FVec F S22 .f32 := broadcastInDim S22 ![] bcast_S_S22 main_cst_22
  let main_v61 : IVec S22 1 := cmpf .olt main_v59 main_v60
  let main_c_23 : IVec S_ 1 := constantI S_ 1 1#1
  let main_v62 : IVec S_ 1 := (fun x v => Host.reduce IntOp.andi x v reducesTo_S22_S_d0 h_S_) main_v61 main_c_23
  let main_v63 : IVec S_ 1 := andi main_v58 main_v62
  main_v63

def fn_part2 {F : FTy → Type} [FloatOps F] (main_arg7 : FVec F S41x41 .f32) (main_arg8 : FVec F S41 .f32) (main_arg9 : FVec F S41x41 .f32) (main_arg10 : FVec F S41 .f32) (main_arg11 : FVec F S22x41 .f32) (main_arg12 : FVec F S22 .f32) (main_v33 : IVec S_ 1) : IVec S_ 1 :=
  let main_v34 : FVec F S41x41 .f32 := Host.absf main_arg7
  let main_cst_12 : FVec F S_ .f32 := constant S_ .f32 0x7F800000#32
  let main_v35 : FVec F S41x41 .f32 := broadcastInDim S41x41 ![] bcast_S_S41x41 main_cst_12
  let main_v36 : IVec S41x41 1 := cmpf .olt main_v34 main_v35
  let main_c_13 : IVec S_ 1 := constantI S_ 1 1#1
  let main_v37 : IVec S_ 1 := (fun x v => Host.reduce IntOp.andi x v reducesTo_S41x41_S_d0_1 h_S_) main_v36 main_c_13
  let main_v38 : IVec S_ 1 := andi main_v33 main_v37
  let main_v39 : FVec F S41 .f32 := Host.absf main_arg8
  let main_cst_14 : FVec F S_ .f32 := constant S_ .f32 0x7F800000#32
  let main_v40 : FVec F S41 .f32 := broadcastInDim S41 ![] bcast_S_S41 main_cst_14
  let main_v41 : IVec S41 1 := cmpf .olt main_v39 main_v40
  let main_c_15 : IVec S_ 1 := constantI S_ 1 1#1
  let main_v42 : IVec S_ 1 := (fun x v => Host.reduce IntOp.andi x v reducesTo_S41_S_d0 h_S_) main_v41 main_c_15
  let main_v43 : IVec S_ 1 := andi main_v38 main_v42
  let main_v44 : FVec F S41x41 .f32 := Host.absf main_arg9
  let main_cst_16 : FVec F S_ .f32 := constant S_ .f32 0x7F800000#32
  let main_v45 : FVec F S41x41 .f32 := broadcastInDim S41x41 ![] bcast_S_S41x41 main_cst_16
  let main_v46 : IVec S41x41 1 := cmpf .olt main_v44 main_v45
  let main_c_17 : IVec S_ 1 := constantI S_ 1 1#1
  let main_v47 : IVec S_ 1 := (fun x v => Host.reduce IntOp.andi x v reducesTo_S41x41_S_d0_1 h_S_) main_v46 main_c_17
  let main_v48 : IVec S_ 1 := andi main_v43 main_v47
  let main_v49 : FVec F S41 .f32 := Host.absf main_arg10
  let main_cst_18 : FVec F S_ .f32 := constant S_ .f32 0x7F800000#32
  let main_v50 : FVec F S41 .f32 := broadcastInDim S41 ![] bcast_S_S41 main_cst_18
  fn_part3 (F := F) main_arg11 main_arg12 main_v48 main_v49 main_v50

def fn_part1 {F : FTy → Type} [FloatOps F] (main_arg4 : FVec F S40 .f32) (main_arg5 : FVec F S10x40 .f32) (main_arg6 : FVec F S10 .f32) (main_arg7 : FVec F S41x41 .f32) (main_arg8 : FVec F S41 .f32) (main_arg9 : FVec F S41x41 .f32) (main_arg10 : FVec F S41 .f32) (main_arg11 : FVec F S22x41 .f32) (main_arg12 : FVec F S22 .f32) (main_v13 : IVec S_ 1) (main_v16 : IVec S40x40 1) : IVec S_ 1 :=
  let main_c_5 : IVec S_ 1 := constantI S_ 1 1#1
  let main_v17 : IVec S_ 1 := (fun x v => Host.reduce IntOp.andi x v reducesTo_S40x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S10x40 .f32 := Host.absf main_arg5
  let main_cst_8 : FVec F S_ .f32 := constant S_ .f32 0x7F800000#32
  let main_v25 : FVec F S10x40 .f32 := broadcastInDim S10x40 ![] bcast_S_S10x40 main_cst_8
  let main_v26 : IVec S10x40 1 := cmpf .olt main_v24 main_v25
  let main_c_9 : IVec S_ 1 := constantI S_ 1 1#1
  let main_v27 : IVec S_ 1 := (fun x v => Host.reduce IntOp.andi x v reducesTo_S10x40_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x440 .f32) (main_arg1 : FVec F S40x40 .f32) (main_arg2 : FVec F S40 .f32) (main_arg3 : FVec F S40x40 .f32) (main_arg4 : FVec F S40 .f32) (main_arg5 : FVec F S10x40 .f32) (main_arg6 : FVec F S10 .f32) (main_arg7 : FVec F S41x41 .f32) (main_arg8 : FVec F S41 .f32) (main_arg9 : FVec F S41x41 .f32) (main_arg10 : FVec F S41 .f32) (main_arg11 : FVec F S22x41 .f32) (main_arg12 : FVec F S22 .f32) : IVec S_ 1 :=
  let main_v0 : FVec F S262144x440 .f32 := Host.absf main_arg0
  let main_cst : FVec F S_ .f32 := constant S_ .f32 0x7F800000#32
  let main_v1 : FVec F S262144x440 .f32 := broadcastInDim S262144x440 ![] bcast_S_S262144x440 main_cst
  let main_v2 : IVec S262144x440 1 := cmpf .olt main_v0 main_v1
  let main_c : IVec S_ 1 := constantI S_ 1 1#1
  let main_v3 : IVec S_ 1 := (fun x v => Host.reduce IntOp.andi x v reducesTo_S262144x440_S_d0_1 h_S_) main_v2 main_c
  let main_v4 : FVec F S40x40 .f32 := Host.absf main_arg1
  let main_cst_0 : FVec F S_ .f32 := constant S_ .f32 0x7F800000#32
  let main_v5 : FVec F S40x40 .f32 := broadcastInDim S40x40 ![] bcast_S_S40x40 main_cst_0
  let main_v6 : IVec S40x40 1 := cmpf .olt main_v4 main_v5
  let main_c_1 : IVec S_ 1 := constantI S_ 1 1#1
  let main_v7 : IVec S_ 1 := (fun x v => Host.reduce IntOp.andi x v reducesTo_S40x40_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x40 .f32 := Host.absf main_arg3
  let main_cst_4 : FVec F S_ .f32 := constant S_ .f32 0x7F800000#32
  let main_v15 : FVec F S40x40 .f32 := broadcastInDim S40x40 ![] bcast_S_S40x40 main_cst_4
  let main_v16 : IVec S40x40 1 := cmpf .olt main_v14 main_v15
  fn_part1 (F := F) main_arg4 main_arg5 main_arg6 main_arg7 main_arg8 main_arg9 main_arg10 main_arg11 main_arg12 main_v13 main_v16
-- ==== Kernel.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S10x10 : Shape := ⟨2, ![10, 10]⟩
abbrev S_ : Shape := ⟨0, ![]⟩
abbrev S41x40 : Shape := ⟨2, ![41, 40]⟩
abbrev S41x1 : Shape := ⟨2, ![41, 1]⟩
abbrev S10x1x10x1 : Shape := ⟨4, ![10, 1, 10, 1]⟩
abbrev S1x41x1x40 : Shape := ⟨4, ![1, 41, 1, 40]⟩
abbrev S10x41x10x40 : Shape := ⟨4, ![10, 41, 10, 40]⟩
abbrev S410x400 : Shape := ⟨2, ![410, 400]⟩
abbrev S1x41x1x1 : Shape := ⟨4, ![1, 41, 1, 1]⟩
abbrev S10x41x10x1 : Shape := ⟨4, ![10, 41, 10, 1]⟩
abbrev S410x10 : Shape := ⟨2, ![410, 10]⟩
abbrev S410x410 : Shape := ⟨2, ![410, 410]⟩
abbrev S1x41x1x41 : Shape := ⟨4, ![1, 41, 1, 41]⟩
abbrev S10x41x10x41 : Shape := ⟨4, ![10, 41, 10, 41]⟩
abbrev S1x22x1x41 : Shape := ⟨4, ![1, 22, 1, 41]⟩
abbrev S10x22x10x41 : Shape := ⟨4, ![10, 22, 10, 41]⟩
abbrev S220x410 : Shape := ⟨2, ![220, 410]⟩
abbrev S1x41 : Shape := ⟨2, ![1, 41]⟩
abbrev S10x41 : Shape := ⟨2, ![10, 41]⟩
abbrev S410 : Shape := ⟨1, ![410]⟩
abbrev S1x22 : Shape := ⟨2, ![1, 22]⟩
abbrev S10x22 : Shape := ⟨2, ![10, 22]⟩
abbrev S220 : Shape := ⟨1, ![220]⟩
abbrev S262144x220 : Shape := ⟨2, ![262144, 220]⟩
abbrev S1024x440 : Shape := ⟨2, ![1024, 440]⟩
abbrev S1024x220 : Shape := ⟨2, ![1024, 220]⟩
abbrev S1024x40 : Shape := ⟨2, ![1024, 40]⟩
abbrev S1x40 : Shape := ⟨2, ![1, 40]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩
abbrev S1024x400 : Shape := ⟨2, ![1024, 400]⟩
abbrev S1024x410 : Shape := ⟨2, ![1024, 410]⟩
abbrev S1x410 : Shape := ⟨2, ![1, 410]⟩
abbrev S1x220 : Shape := ⟨2, ![1, 220]⟩
abbrev S1024x22 : Shape := ⟨2, ![1024, 22]⟩
abbrev S262144x10x22 : Shape := ⟨3, ![262144, 10, 22]⟩

abbrev nBuf : Space → Nat
  | .hbm => 64
  | .vmem => 16
  | .smem => 0
  | _ => 0

abbrev bufTy : (tb : Table) → Fin (tcTables nBuf tb) → BufTy
  | .hbm, ⟨0, _⟩ => ⟨S262144x440, .f32⟩
  | .hbm, ⟨1, _⟩ => ⟨S40x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S10x40, .f32⟩
  | .hbm, ⟨6, _⟩ => ⟨S10, .f32⟩
  | .hbm, ⟨7, _⟩ => ⟨S41x41, .f32⟩
  | .hbm, ⟨8, _⟩ => ⟨S41, .f32⟩
  | .hbm, ⟨9, _⟩ => ⟨S41x41, .f32⟩
  | .hbm, ⟨10, _⟩ => ⟨S41, .f32⟩
  | .hbm, ⟨11, _⟩ => ⟨S22x41, .f32⟩
  | .hbm, ⟨12, _⟩ => ⟨S22, .f32⟩
  | .hbm, ⟨13, _⟩ => ⟨S10x10, .i32⟩
  | .hbm, ⟨14, _⟩ => ⟨S10x10, .i32⟩
  | .hbm, ⟨15, _⟩ => ⟨S_, .i32⟩
  | .hbm, ⟨16, _⟩ => ⟨S10x10, .i32⟩
  | .hbm, ⟨17, _⟩ => ⟨S10x10, .i32⟩
  | .hbm, ⟨18, _⟩ => ⟨S10x10, .i1⟩
  | .hbm, ⟨19, _⟩ => ⟨S10x10, .f32⟩
  | .hbm, ⟨20, _⟩ => ⟨S41x40, .f32⟩
  | .hbm, ⟨21, _⟩ => ⟨S41x1, .f32⟩
  | .hbm, ⟨22, _⟩ => ⟨S10x1x10x1, .f32⟩
  | .hbm, ⟨23, _⟩ => ⟨S1x41x1x40, .f32⟩
  | .hbm, ⟨24, _⟩ => ⟨S10x41x10x40, .f32⟩
  | .hbm, ⟨25, _⟩ => ⟨S10x41x10x40, .f32⟩
  | .hbm, ⟨26, _⟩ => ⟨S10x41x10x40, .f32⟩
  | .hbm, ⟨27, _⟩ => ⟨S410x400, .f32⟩
  | .hbm, ⟨28, _⟩ => ⟨S10x1x10x1, .f32⟩
  | .hbm, ⟨29, _⟩ => ⟨S1x41x1x1, .f32⟩
  | .hbm, ⟨30, _⟩ => ⟨S10x41x10x1, .f32⟩
  | .hbm, ⟨31, _⟩ => ⟨S10x41x10x1, .f32⟩
  | .hbm, ⟨32, _⟩ => ⟨S10x41x10x1, .f32⟩
  | .hbm, ⟨33, _⟩ => ⟨S410x10, .f32⟩
  | .hbm, ⟨34, _⟩ => ⟨S410x410, .f32⟩
  | .hbm, ⟨35, _⟩ => ⟨S10x1x10x1, .f32⟩
  | .hbm, ⟨36, _⟩ => ⟨S1x41x1x41, .f32⟩
  | .hbm, ⟨37, _⟩ => ⟨S10x41x10x41, .f32⟩
  | .hbm, ⟨38, _⟩ => ⟨S10x41x10x41, .f32⟩
  | .hbm, ⟨39, _⟩ => ⟨S10x41x10x41, .f32⟩
  | .hbm, ⟨40, _⟩ => ⟨S410x410, .f32⟩
  | .hbm, ⟨41, _⟩ => ⟨S10x1x10x1, .f32⟩
  | .hbm, ⟨42, _⟩ => ⟨S1x22x1x41, .f32⟩
  | .hbm, ⟨43, _⟩ => ⟨S10x22x10x41, .f32⟩
  | .hbm, ⟨44, _⟩ => ⟨S10x22x10x41, .f32⟩
  | .hbm, ⟨45, _⟩ => ⟨S10x22x10x41, .f32⟩
  | .hbm, ⟨46, _⟩ => ⟨S220x410, .f32⟩
  | .hbm, ⟨47, _⟩ => ⟨S1x41, .f32⟩
  | .hbm, ⟨48, _⟩ => ⟨S10x41, .f32⟩
  | .hbm, ⟨49, _⟩ => ⟨S410, .f32⟩
  | .hbm, ⟨50, _⟩ => ⟨S1x41, .f32⟩
  | .hbm, ⟨51, _⟩ => ⟨S10x41, .f32⟩
  | .hbm, ⟨52, _⟩ => ⟨S410, .f32⟩
  | .hbm, ⟨53, _⟩ => ⟨S1x22, .f32⟩
  | .hbm, ⟨54, _⟩ => ⟨S10x22, .f32⟩
  | .hbm, ⟨55, _⟩ => ⟨S220, .f32⟩
  | .hbm, ⟨56, _⟩ => ⟨S40x40, .bf16⟩
  | .hbm, ⟨57, _⟩ => ⟨S40x40, .bf16⟩
  | .hbm, ⟨58, _⟩ => ⟨S10x40, .bf16⟩
  | .hbm, ⟨59, _⟩ => ⟨S410x410, .bf16⟩
  | .hbm, ⟨60, _⟩ => ⟨S410x410, .bf16⟩
  | .hbm, ⟨61, _⟩ => ⟨S220x410, .bf16⟩
  | .hbm, ⟨62, _⟩ => ⟨S262144x220, .f32⟩
  | .hbm, ⟨63, _⟩ => ⟨S262144x10x22, .f32⟩
  | .local _ .vmem, ⟨0, _⟩ => ⟨S1024x440, .f32⟩
  | .local _ .vmem, ⟨1, _⟩ => ⟨S1024x440, .f32⟩
  | .local _ .vmem, ⟨2, _⟩ => ⟨S40x40, .bf16⟩
  | .local _ .vmem, ⟨3, _⟩ => ⟨S40, .f32⟩
  | .local _ .vmem, ⟨4, _⟩ => ⟨S40x40, .bf16⟩
  | .local _ .vmem, ⟨5, _⟩ => ⟨S40, .f32⟩
  | .local _ .vmem, ⟨6, _⟩ => ⟨S10x40, .bf16⟩
  | .local _ .vmem, ⟨7, _⟩ => ⟨S10, .f32⟩
  | .local _ .vmem, ⟨8, _⟩ => ⟨S410x410, .bf16⟩
  | .local _ .vmem, ⟨9, _⟩ => ⟨S410, .f32⟩
  | .local _ .vmem, ⟨10, _⟩ => ⟨S410x410, .bf16⟩
  | .local _ .vmem, ⟨11, _⟩ => ⟨S410, .f32⟩
  | .local _ .vmem, ⟨12, _⟩ => ⟨S220x410, .bf16⟩
  | .local _ .vmem, ⟨13, _⟩ => ⟨S220, .f32⟩
  | .local _ .vmem, ⟨14, _⟩ => ⟨S1024x220, .f32⟩
  | .local _ .vmem, ⟨15, _⟩ => ⟨S1024x220, .f32⟩
  | _, _ => ⟨S262144x440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v11 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x40 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S410x410 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S410 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S410x410 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S410 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S220x410 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S220 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x220 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S10x10 : S_.BroadcastsInDim S10x10 (![] : Fin 0 → Fin S10x10.rank)
  slices_S41x41_S41x40_0_0 : S41x41.Slices ![0, 0] S41x40
  slices_S41x41_S41x1_0_40 : S41x41.Slices ![0, 40] S41x1
  bcast_S10x10_S10x1x10x1_0_2 : S10x10.BroadcastsInDim S10x1x10x1 (![0, 2] : Fin 2 → Fin S10x1x10x1.rank)
  bcast_S41x40_S1x41x1x40_1_3 : S41x40.BroadcastsInDim S1x41x1x40 (![1, 3] : Fin 2 → Fin S1x41x1x40.rank)
  bcast_S10x1x10x1_S10x41x10x40_0_1_2_3 : S10x1x10x1.BroadcastsInDim S10x41x10x40 (![0, 1, 2, 3] : Fin 4 → Fin S10x41x10x40.rank)
  bcast_S1x41x1x40_S10x41x10x40_0_1_2_3 : S1x41x1x40.BroadcastsInDim S10x41x10x40 (![0, 1, 2, 3] : Fin 4 → Fin S10x41x10x40.rank)
  shapeCasts_S10x41x10x40_S410x400 : S10x41x10x40.ShapeCasts S410x400
  bcast_S41x1_S1x41x1x1_1_3 : S41x1.BroadcastsInDim S1x41x1x1 (![1, 3] : Fin 2 → Fin S1x41x1x1.rank)
  bcast_S10x1x10x1_S10x41x10x1_0_1_2_3 : S10x1x10x1.BroadcastsInDim S10x41x10x1 (![0, 1, 2, 3] : Fin 4 → Fin S10x41x10x1.rank)
  bcast_S1x41x1x1_S10x41x10x1_0_1_2_3 : S1x41x1x1.BroadcastsInDim S10x41x10x1 (![0, 1, 2, 3] : Fin 4 → Fin S10x41x10x1.rank)
  shapeCasts_S10x41x10x1_S410x10 : S10x41x10x1.ShapeCasts S410x10
  concatenates_S410x400_S410x10_S410x410_d1 : Shape.Concatenates [S410x400, S410x10] S410x410 1
  bcast_S41x41_S1x41x1x41_1_3 : S41x41.BroadcastsInDim S1x41x1x41 (![1, 3] : Fin 2 → Fin S1x41x1x41.rank)
  bcast_S10x1x10x1_S10x41x10x41_0_1_2_3 : S10x1x10x1.BroadcastsInDim S10x41x10x41 (![0, 1, 2, 3] : Fin 4 → Fin S10x41x10x41.rank)
  bcast_S1x41x1x41_S10x41x10x41_0_1_2_3 : S1x41x1x41.BroadcastsInDim S10x41x10x41 (![0, 1, 2, 3] : Fin 4 → Fin S10x41x10x41.rank)
  shapeCasts_S10x41x10x41_S410x410 : S10x41x10x41.ShapeCasts S410x410
  bcast_S22x41_S1x22x1x41_1_3 : S22x41.BroadcastsInDim S1x22x1x41 (![1, 3] : Fin 2 → Fin S1x22x1x41.rank)
  bcast_S10x1x10x1_S10x22x10x41_0_1_2_3 : S10x1x10x1.BroadcastsInDim S10x22x10x41 (![0, 1, 2, 3] : Fin 4 → Fin S10x22x10x41.rank)
  bcast_S1x22x1x41_S10x22x10x41_0_1_2_3 : S1x22x1x41.BroadcastsInDim S10x22x10x41 (![0, 1, 2, 3] : Fin 4 → Fin S10x22x10x41.rank)
  shapeCasts_S10x22x10x41_S220x410 : S10x22x10x41.ShapeCasts S220x410
  shapeCasts_S41_S1x41 : S41.ShapeCasts S1x41
  bcast_S1x41_S10x41_0_1 : S1x41.BroadcastsInDim S10x41 (![0, 1] : Fin 2 → Fin S10x41.rank)
  shapeCasts_S10x41_S410 : S10x41.ShapeCasts S410
  shapeCasts_S22_S1x22 : S22.ShapeCasts S1x22
  bcast_S1x22_S10x22_0_1 : S1x22.BroadcastsInDim S10x22 (![0, 1] : Fin 2 → Fin S10x22.rank)
  shapeCasts_S10x22_S220 : S10x22.ShapeCasts S220
  bitsLt_bf16_f32 : FTy.bits .bf16 < FTy.bits .f32
  inb_S1024x440_S1024x440_0_0 : ∀ a, (![0, 0] : Fin 2 → Nat) a + S1024x440.size a ≤ S1024x440.size a
  h_S1024x440 : 0 < S1024x440.numel
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S40_S40_0 : ∀ a, (![0] : Fin 1 → Nat) a + S40.size a ≤ S40.size a
  h_S40 : 0 < S40.numel
  inb_S10x40_S10x40_0_0 : ∀ a, (![0, 0] : Fin 2 → Nat) a + S10x40.size a ≤ S10x40.size a
  h_S10x40 : 0 < S10x40.numel
  shapeCasts_S10x40_S10x40 : S10x40.ShapeCasts S10x40
  inb_S10_S10_0 : ∀ a, (![0] : Fin 1 → Nat) a + S10.size a ≤ S10.size a
  h_S10 : 0 < S10.numel
  slices_S1024x440_o0_0_S1024x40 : S1024x440.Slices ![0, 0] S1024x40
  shapeCasts_S40_S1x40 : S40.ShapeCasts S1x40
  broadcasts_S1x40_S1024x40 : S1x40.Broadcasts S1024x40
  shapeCasts_S10_S1x10 : S10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  slices_S1024x440_o0_40_S1024x400 : S1024x440.Slices ![0, 40] S1024x400
  concatenates_S1024x400_S1024x10_S1024x410_d1 : Shape.Concatenates [S1024x400, S1024x10] S1024x410 1
  inb_S410x410_S410x410_0_0 : ∀ a, (![0, 0] : Fin 2 → Nat) a + S410x410.size a ≤ S410x410.size a
  h_S410x410 : 0 < S410x410.numel
  shapeCasts_S410x410_S410x410 : S410x410.ShapeCasts S410x410
  inb_S410_S410_0 : ∀ a, (![0] : Fin 1 → Nat) a + S410.size a ≤ S410.size a
  h_S410 : 0 < S410.numel
  inb_S220x410_S220x410_0_0 : ∀ a, (![0, 0] : Fin 2 → Nat) a + S220x410.size a ≤ S220x410.size a
  h_S220x410 : 0 < S220x410.numel
  shapeCasts_S220x410_S220x410 : S220x410.ShapeCasts S220x410
  inb_S220_S220_0 : ∀ a, (![0] : Fin 1 → Nat) a + S220.size a ≤ S220.size a
  h_S220 : 0 < S220.numel
  shapeCasts_S410_S1x410 : S410.ShapeCasts S1x410
  broadcasts_S1x410_S1024x410 : S1x410.Broadcasts S1024x410
  shapeCasts_S220_S1x220 : S220.ShapeCasts S1x220
  broadcasts_S1x220_S1024x220 : S1x220.Broadcasts S1024x220
  slices_S1024x220_o0_0_S1024x22 : S1024x220.Slices ![0, 0] S1024x22
  reduces_S1024x22_S1024 : S1024x22.Reduces [1] S1024
  broadcasts_S1024x1_S1024x22 : S1024x1.Broadcasts S1024x22
  slices_S1024x10_o0_0_S1024x1 : S1024x10.Slices ![0, 0] S1024x1
  slices_S1024x220_o0_22_S1024x22 : S1024x220.Slices ![0, 22] S1024x22
  slices_S1024x10_o0_1_S1024x1 : S1024x10.Slices ![0, 1] S1024x1
  slices_S1024x220_o0_44_S1024x22 : S1024x220.Slices ![0, 44] S1024x22
  slices_S1024x10_o0_2_S1024x1 : S1024x10.Slices ![0, 2] S1024x1
  slices_S1024x220_o0_66_S1024x22 : S1024x220.Slices ![0, 66] S1024x22
  slices_S1024x10_o0_3_S1024x1 : S1024x10.Slices ![0, 3] S1024x1
  slices_S1024x220_o0_88_S1024x22 : S1024x220.Slices ![0, 88] S1024x22
  slices_S1024x10_o0_4_S1024x1 : S1024x10.Slices ![0, 4] S1024x1
  slices_S1024x220_o0_110_S1024x22 : S1024x220.Slices ![0, 110] S1024x22
  slices_S1024x10_o0_5_S1024x1 : S1024x10.Slices ![0, 5] S1024x1
  slices_S1024x220_o0_132_S1024x22 : S1024x220.Slices ![0, 132] S1024x22
  slices_S1024x10_o0_6_S1024x1 : S1024x10.Slices ![0, 6] S1024x1
  slices_S1024x220_o0_154_S1024x22 : S1024x220.Slices ![0, 154] S1024x22
  slices_S1024x10_o0_7_S1024x1 : S1024x10.Slices ![0, 7] S1024x1
  slices_S1024x220_o0_176_S1024x22 : S1024x220.Slices ![0, 176] S1024x22
  slices_S1024x10_o0_8_S1024x1 : S1024x10.Slices ![0, 8] S1024x1
  slices_S1024x220_o0_198_S1024x22 : S1024x220.Slices ![0, 198] S1024x22
  slices_S1024x10_o0_9_S1024x1 : S1024x10.Slices ![0, 9] S1024x1
  concatenates_S1024x22_S1024x22_S1024x22_S1024x22_S1024x22_S1024x22_S1024x22_S1024x22_S1024x22_S1024x22_S1024x220_d1 : Shape.Concatenates [S1024x22, S1024x22, S1024x22, S1024x22, S1024x22, S1024x22, S1024x22, S1024x22, S1024x22, S1024x22] S1024x220 1
  inb_S1024x220_S1024x220_0_0 : ∀ a, (![0, 0] : Fin 2 → Nat) a + S1024x220.size a ≤ S1024x220.size a
  h_S1024x220 : 0 < S1024x220.numel
  shapeCasts_S262144x220_S262144x10x22 : S262144x220.ShapeCasts S262144x10x22
  dot_S1024x40_S40x40_S1024x40_1_1_0_0_n_n_wf : DotDims.WF S1024x40 S40x40 S1024x40 [1] [1] [0] [0] [] []
  dot_S1024x40_S10x40_S1024x10_1_1_0_0_n_n_wf : DotDims.WF S1024x40 S10x40 S1024x10 [1] [1] [0] [0] [] []
  dot_S1024x410_S410x410_S1024x410_1_1_0_0_n_n_wf : DotDims.WF S1024x410 S410x410 S1024x410 [1] [1] [0] [0] [] []
  dot_S1024x410_S220x410_S1024x220_1_1_0_0_n_n_wf : DotDims.WF S1024x410 S220x410 S1024x220 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x440.size a ≤ S262144x440.size a
  hwx0_0 : ∀ i : grid0.Coords, EltTy.bits .f32 = 32 ∨ (Rect.block (s := S262144x440) S1024x440.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x40.size a ≤ S40x40.size a
  hwx0_1 : ∀ i : grid0.Coords, EltTy.bits .bf16 = 32 ∨ (Rect.block (s := S40x40) S40x40.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x40.size a ≤ S40x40.size a
  hwx0_3 : ∀ i : grid0.Coords, EltTy.bits .bf16 = 32 ∨ (Rect.block (s := S40x40) S40x40.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40.size a ≤ S40.size a
  hwx0_4 : ∀ i : grid0.Coords, EltTy.bits .f32 = 32 ∨ (Rect.block (s := S40) S40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x40.size a ≤ S10x40.size a
  hwx0_5 : ∀ i : grid0.Coords, EltTy.bits .bf16 = 32 ∨ (Rect.block (s := S10x40) S10x40.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S410x410.size a ≤ S410x410.size a
  hwx0_7 : ∀ i : grid0.Coords, EltTy.bits .bf16 = 32 ∨ (Rect.block (s := S410x410) S410x410.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S410.size a ≤ S410.size a
  hwx0_8 : ∀ i : grid0.Coords, EltTy.bits .f32 = 32 ∨ (Rect.block (s := S410) S410.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S410x410.size a ≤ S410x410.size a
  hwx0_9 : ∀ i : grid0.Coords, EltTy.bits .bf16 = 32 ∨ (Rect.block (s := S410x410) S410x410.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S410.size a ≤ S410.size a
  hwx0_10 : ∀ i : grid0.Coords, EltTy.bits .f32 = 32 ∨ (Rect.block (s := S410) S410.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S220x410.size a ≤ S220x410.size a
  hwx0_11 : ∀ i : grid0.Coords, EltTy.bits .bf16 = 32 ∨ (Rect.block (s := S220x410) S220x410.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S220.size a ≤ S220.size a
  hwx0_12 : ∀ i : grid0.Coords, EltTy.bits .f32 = 32 ∨ (Rect.block (s := S220) S220.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x220.size a ≤ S262144x220.size a
  hwx0_13 : ∀ i : grid0.Coords, EltTy.bits .f32 = 32 ∨ (Rect.block (s := S262144x220) S1024x220.size (cc0_transform_13 i) (hinb0_13 i)).WholeWords (EltTy.packing .f32)

variable [Facts₀]

def dot_S1024x40_S40x40_S1024x40_1_1_0_0_n_n : DotDims S1024x40 S40x40 S1024x40 where
  lhsContracting := [1]
  rhsContracting := [1]
  lhsNonContracting := [0]
  rhsNonContracting := [0]
  lhsBatch := []
  rhsBatch := []
  wf := dot_S1024x40_S40x40_S1024x40_1_1_0_0_n_n_wf
def dot_S1024x40_S10x40_S1024x10_1_1_0_0_n_n : DotDims S1024x40 S10x40 S1024x10 where
  lhsContracting := [1]
  rhsContracting := [1]
  lhsNonContracting := [0]
  rhsNonContracting := [0]
  lhsBatch := []
  rhsBatch := []
  wf := dot_S1024x40_S10x40_S1024x10_1_1_0_0_n_n_wf
def dot_S1024x410_S410x410_S1024x410_1_1_0_0_n_n : DotDims S1024x410 S410x410 S1024x410 where
  lhsContracting := [1]
  rhsContracting := [1]
  lhsNonContracting := [0]
  rhsNonContracting := [0]
  lhsBatch := []
  rhsBatch := []
  wf := dot_S1024x410_S410x410_S1024x410_1_1_0_0_n_n_wf
def dot_S1024x410_S220x410_S1024x220_1_1_0_0_n_n : DotDims S1024x410 S220x410 S1024x220 where
  lhsContracting := [1]
  rhsContracting := [1]
  lhsNonContracting := [0]
  rhsNonContracting := [0]
  lhsBatch := []
  rhsBatch := []
  wf := dot_S1024x410_S220x410_S1024x220_1_1_0_0_n_n_wf

abbrev win0_0 : Pipeline.Window sig grid0 :=
  Pipeline.Window.ofSpec (Memref.whole main_arg0) S1024x440.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S40x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S40x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S410x410.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S410.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S410x410.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S410.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S220x410.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S220.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S1024x220.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S262144x40 : Shape := ⟨2, ![262144, 40]⟩
abbrev S262144x400 : Shape := ⟨2, ![262144, 400]⟩
abbrev S262144x10x40 : Shape := ⟨3, ![262144, 10, 40]⟩
abbrev S1x40 : Shape := ⟨2, ![1, 40]⟩
abbrev S_ : Shape := ⟨0, ![]⟩
abbrev S40x10 : Shape := ⟨2, ![40, 10]⟩
abbrev S262144x10 : Shape := ⟨2, ![262144, 10]⟩
abbrev S1x10 : Shape := ⟨2, ![1, 10]⟩
abbrev S262144 : Shape := ⟨1, ![262144]⟩
abbrev S262144x1 : Shape := ⟨2, ![262144, 1]⟩
abbrev S262144x10x1 : Shape := ⟨3, ![262144, 10, 1]⟩
abbrev S262144x10x41 : Shape := ⟨3, ![262144, 10, 41]⟩
abbrev S1x1x41 : Shape := ⟨3, ![1, 1, 41]⟩
abbrev S262144x10x22 : Shape := ⟨3, ![262144, 10, 22]⟩
abbrev S1x1x22 : Shape := ⟨3, ![1, 1, 22]⟩

abbrev nBuf : Space → Nat
  | .hbm => 88
  | .vmem => 0
  | .smem => 0
  | _ => 0

abbrev bufTy : (tb : Table) → Fin (tcTables nBuf tb) → BufTy
  | .hbm, ⟨0, _⟩ => ⟨S262144x440, .f32⟩
  | .hbm, ⟨1, _⟩ => ⟨S40x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S10x40, .f32⟩
  | .hbm, ⟨6, _⟩ => ⟨S10, .f32⟩
  | .hbm, ⟨7, _⟩ => ⟨S41x41, .f32⟩
  | .hbm, ⟨8, _⟩ => ⟨S41, .f32⟩
  | .hbm, ⟨9, _⟩ => ⟨S41x41, .f32⟩
  | .hbm, ⟨10, _⟩ => ⟨S41, .f32⟩
  | .hbm, ⟨11, _⟩ => ⟨S22x41, .f32⟩
  | .hbm, ⟨12, _⟩ => ⟨S22, .f32⟩
  | .hbm, ⟨13, _⟩ => ⟨S262144x40, .f32⟩
  | .hbm, ⟨14, _⟩ => ⟨S262144x400, .f32⟩
  | .hbm, ⟨15, _⟩ => ⟨S262144x10x40, .f32⟩
  | .hbm, ⟨16, _⟩ => ⟨S40x40, .f32⟩
  | .hbm, ⟨17, _⟩ => ⟨S262144x40, .f32⟩
  | .hbm, ⟨18, _⟩ => ⟨S1x40, .f32⟩
  | .hbm, ⟨19, _⟩ => ⟨S262144x40, .f32⟩
  | .hbm, ⟨20, _⟩ => ⟨S262144x40, .f32⟩
  | .hbm, ⟨21, _⟩ => ⟨S_, .f32⟩
  | .hbm, ⟨22, _⟩ => ⟨S262144x40, .f32⟩
  | .hbm, ⟨23, _⟩ => ⟨S262144x40, .f32⟩
  | .hbm, ⟨24, _⟩ => ⟨S40x40, .f32⟩
  | .hbm, ⟨25, _⟩ => ⟨S262144x40, .f32⟩
  | .hbm, ⟨26, _⟩ => ⟨S1x40, .f32⟩
  | .hbm, ⟨27, _⟩ => ⟨S262144x40, .f32⟩
  | .hbm, ⟨28, _⟩ => ⟨S262144x40, .f32⟩
  | .hbm, ⟨29, _⟩ => ⟨S_, .f32⟩
  | .hbm, ⟨30, _⟩ => ⟨S262144x40, .f32⟩
  | .hbm, ⟨31, _⟩ => ⟨S262144x40, .f32⟩
  | .hbm, ⟨32, _⟩ => ⟨S40x10, .f32⟩
  | .hbm, ⟨33, _⟩ => ⟨S262144x10, .f32⟩
  | .hbm, ⟨34, _⟩ => ⟨S1x10, .f32⟩
  | .hbm, ⟨35, _⟩ => ⟨S262144x10, .f32⟩
  | .hbm, ⟨36, _⟩ => ⟨S262144x10, .f32⟩
  | .hbm, ⟨37, _⟩ => ⟨S_, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144x1, .f32⟩
  | .hbm, ⟨43, _⟩ => ⟨S262144x10, .f32⟩
  | .hbm, ⟨44, _⟩ => ⟨S262144x10, .f32⟩
  | .hbm, ⟨45, _⟩ => ⟨S262144x10, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S262144x10, .f32⟩
  | .hbm, ⟨50, _⟩ => ⟨S262144x10, .f32⟩
  | .hbm, ⟨51, _⟩ => ⟨S262144x10x1, .f32⟩
  | .hbm, ⟨52, _⟩ => ⟨S262144x10x41, .f32⟩
  | .hbm, ⟨53, _⟩ => ⟨S262144x10x41, .f32⟩
  | .hbm, ⟨54, _⟩ => ⟨S1x1x41, .f32⟩
  | .hbm, ⟨55, _⟩ => ⟨S262144x10x41, .f32⟩
  | .hbm, ⟨56, _⟩ => ⟨S262144x10x41, .f32⟩
  | .hbm, ⟨57, _⟩ => ⟨S_, .f32⟩
  | .hbm, ⟨58, _⟩ => ⟨S262144x10x41, .f32⟩
  | .hbm, ⟨59, _⟩ => ⟨S262144x10x41, .f32⟩
  | .hbm, ⟨60, _⟩ => ⟨S262144x10x41, .f32⟩
  | .hbm, ⟨61, _⟩ => ⟨S1x1x41, .f32⟩
  | .hbm, ⟨62, _⟩ => ⟨S262144x10x41, .f32⟩
  | .hbm, ⟨63, _⟩ => ⟨S262144x10x41, .f32⟩
  | .hbm, ⟨64, _⟩ => ⟨S_, .f32⟩
  | .hbm, ⟨65, _⟩ => ⟨S262144x10x41, .f32⟩
  | .hbm, ⟨66, _⟩ => ⟨S262144x10x41, .f32⟩
  | .hbm, ⟨67, _⟩ => ⟨S262144x10x22, .f32⟩
  | .hbm, ⟨68, _⟩ => ⟨S1x1x22, .f32⟩
  | .hbm, ⟨69, _⟩ => ⟨S262144x10x22, .f32⟩
  | .hbm, ⟨70, _⟩ => ⟨S262144x10x22, .f32⟩
  | .hbm, ⟨71, _⟩ => ⟨S_, .f32⟩
  | .hbm, ⟨72, _⟩ => ⟨S262144x10, .f32⟩
  | .hbm, ⟨73, _⟩ => ⟨S_, .f32⟩
  | .hbm, ⟨74, _⟩ => ⟨S262144x10, .f32⟩
  | .hbm, ⟨75, _⟩ => ⟨S262144x10, .f32⟩
  | .hbm, ⟨76, _⟩ => ⟨S262144x10x1, .f32⟩
  | .hbm, ⟨77, _⟩ => ⟨S262144x10x22, .f32⟩
  | .hbm, ⟨78, _⟩ => ⟨S262144x10x22, .f32⟩
  | .hbm, ⟨79, _⟩ => ⟨S262144x10x22, .f32⟩
  | .hbm, ⟨80, _⟩ => ⟨S_, .f32⟩
  | .hbm, ⟨81, _⟩ => ⟨S262144x10, .f32⟩
  | .hbm, ⟨82, _⟩ => ⟨S262144x10x1, .f32⟩
  | .hbm, ⟨83, _⟩ => ⟨S262144x10x22, .f32⟩
  | .hbm, ⟨84, _⟩ => ⟨S262144x10x22, .f32⟩
  | .hbm, ⟨85, _⟩ => ⟨S262144x10x1, .f32⟩
  | .hbm, ⟨86, _⟩ => ⟨S262144x10x22, .f32⟩
  | .hbm, ⟨87, _⟩ => ⟨S262144x10x22, .f32⟩
  | _, _ => ⟨S262144x440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call3_cst : Ref sig .tc := ⟨.hbm, 64, rfl⟩
abbrev main_call3_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S262144x440_S262144x40_0_0 : S262144x440.Slices ![0, 0] S262144x40
  slices_S262144x440_S262144x400_0_40 : S262144x440.Slices ![0, 40] S262144x400
  shapeCasts_S262144x400_S262144x10x40 : S262144x400.ShapeCasts S262144x10x40
  transposes_S40x40_S40x40_1_0 : S40x40.Transposes [1, 0] S40x40
  bcast_S40_S1x40_1 : S40.BroadcastsInDim S1x40 (![1] : Fin 1 → Fin S1x40.rank)
  bcast_S1x40_S262144x40_0_1 : S1x40.BroadcastsInDim S262144x40 (![0, 1] : Fin 2 → Fin S262144x40.rank)
  bcast_S_S262144x40 : S_.BroadcastsInDim S262144x40 (![] : Fin 0 → Fin S262144x40.rank)
  transposes_S10x40_S40x10_1_0 : S10x40.Transposes [1, 0] S40x10
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  reducesTo_S262144x10_S262144_d1 : S262144x10.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x10_0_1 : S262144x1.BroadcastsInDim S262144x10 (![0, 1] : Fin 2 → Fin S262144x10.rank)
  bcast_S262144x10_S262144x10x1_0_1 : S262144x10.BroadcastsInDim S262144x10x1 (![0, 1] : Fin 2 → Fin S262144x10x1.rank)
  concatenates_S262144x10x40_S262144x10x1_S262144x10x41_d2 : Shape.Concatenates [S262144x10x40, S262144x10x1] S262144x10x41 2
  bcast_S41_S1x1x41_2 : S41.BroadcastsInDim S1x1x41 (![2] : Fin 1 → Fin S1x1x41.rank)
  bcast_S1x1x41_S262144x10x41_0_1_2 : S1x1x41.BroadcastsInDim S262144x10x41 (![0, 1, 2] : Fin 3 → Fin S262144x10x41.rank)
  bcast_S_S262144x10x41 : S_.BroadcastsInDim S262144x10x41 (![] : Fin 0 → Fin S262144x10x41.rank)
  bcast_S22_S1x1x22_2 : S22.BroadcastsInDim S1x1x22 (![2] : Fin 1 → Fin S1x1x22.rank)
  bcast_S1x1x22_S262144x10x22_0_1_2 : S1x1x22.BroadcastsInDim S262144x10x22 (![0, 1, 2] : Fin 3 → Fin S262144x10x22.rank)
  reducesTo_S262144x10x22_S262144x10_d2 : S262144x10x22.ReducesTo [2] S262144x10
  bcast_S_S262144x10 : S_.BroadcastsInDim S262144x10 (![] : Fin 0 → Fin S262144x10.rank)
  bcast_S262144x10x1_S262144x10x22_0_1_2 : S262144x10x1.BroadcastsInDim S262144x10x22 (![0, 1, 2] : Fin 3 → Fin S262144x10x22.rank)
  dot_S262144x40_S40x40_S262144x40_1_0_0_1_n_n_wf : DotDims.WF S262144x40 S40x40 S262144x40 [1] [0] [0] [1] [] []
  dot_S262144x40_S40x10_S262144x10_1_0_0_1_n_n_wf : DotDims.WF S262144x40 S40x10 S262144x10 [1] [0] [0] [1] [] []
  dot_S262144x10x41_S41x41_S262144x10x41_2_1_01_0_n_n_wf : DotDims.WF S262144x10x41 S41x41 S262144x10x41 [2] [1] [0, 1] [0] [] []
  dot_S262144x10x41_S22x41_S262144x10x22_2_1_01_0_n_n_wf : DotDims.WF S262144x10x41 S22x41 S262144x10x22 [2] [1] [0, 1] [0] [] []

variable [Facts₀]

def dot_S262144x40_S40x40_S262144x40_1_0_0_1_n_n : DotDims S262144x40 S40x40 S262144x40 where
  lhsContracting := [1]
  rhsContracting := [0]
  lhsNonContracting := [0]
  rhsNonContracting := [1]
  lhsBatch := []
  rhsBatch := []
  wf := dot_S262144x40_S40x40_S262144x40_1_0_0_1_n_n_wf
def dot_S262144x40_S40x10_S262144x10_1_0_0_1_n_n : DotDims S262144x40 S40x10 S262144x10 where
  lhsContracting := [1]
  rhsContracting := [0]
  lhsNonContracting := [0]
  rhsNonContracting := [1]
  lhsBatch := []
  rhsBatch := []
  wf := dot_S262144x40_S40x10_S262144x10_1_0_0_1_n_n_wf
def dot_S262144x10x41_S41x41_S262144x10x41_2_1_01_0_n_n : DotDims S262144x10x41 S41x41 S262144x10x41 where
  lhsContracting := [2]
  rhsContracting := [1]
  lhsNonContracting := [0, 1]
  rhsNonContracting := [0]
  lhsBatch := []
  rhsBatch := []
  wf := dot_S262144x10x41_S41x41_S262144x10x41_2_1_01_0_n_n_wf
def dot_S262144x10x41_S22x41_S262144x10x22_2_1_01_0_n_n : DotDims S262144x10x41 S22x41 S262144x10x22 where
  lhsContracting := [2]
  rhsContracting := [1]
  lhsNonContracting := [0, 1]
  rhsNonContracting := [0]
  lhsBatch := []
  rhsBatch := []
  wf := dot_S262144x10x41_S22x41_S262144x10x22_2_1_01_0_n_n_wf

class Facts : Prop extends Facts₀ where

variable [Facts]
-- ==== Proof.Spec.lean ====
/-
  Two small multilayer perceptrons over the extended reals, row by row.

  A row of 440 features splits into 40 leading features and ten groups of 40. The leading features go through
  dense - relu - dense - relu - dense - softmax and give ten gate weights, one per group. Each group, with its gate weight
  appended as a 41st feature, goes through a second dense - relu - dense - relu - dense - softmax (the same weights for
  every group) and gives 22 numbers, which are scaled by the group's gate weight. The result is indexed by
  (row, group, output).

  A dense layer is y o = (sum over i of x i * W o i) + b o; relu is the maximum with the zero word; the softmax is the one
  computed with a shift by the row maximum: exp (l j - M) / sum over k of exp (l k - M), M the maximum of minus infinity
  and the fold of max over the entries started at minus infinity. The float words are kept as words.
-/
import Idealize.ShloMosaic.PureOps.Ideal
import Idealize.ShloMosaic.Lib.ValueIdx

noncomputable section

namespace Towers

open Idealize.ShloMosaic Idealize.ShloMosaic.ValueIdx

/-- The word of +0.0 and the word of minus infinity, read on the extended reals. -/
abbrev zeroW : EReal := Ideal.ofBits .f32 0x00000000#32
abbrev negInfW : EReal := Ideal.ofBits .f32 0xFF800000#32

/-- A dense layer: output o is the sum over the inputs i of x i * W o i, plus the bias b o. -/
def dense {k n : ℕ} (x : Fin k → EReal) (W : Fin n → Fin k → EReal) (b : Fin n → EReal) (o : Fin n) : EReal :=
  (∑ i, x i * W o i) + b o

/-- The rectifier: the maximum with the zero word. -/
def relu (y : EReal) : EReal := max y zeroW

/-- The shift of a softmax: the maximum of minus infinity and the largest entry. -/
def shift {n : ℕ} (l : Fin n → EReal) : EReal := max negInfW ((Finset.univ : Finset (Fin n)).fold max negInfW l)

/-- The shifted softmax of a row of logits. -/
def softmax {n : ℕ} (l : Fin n → EReal) (j : Fin n) : EReal :=
  Ideal.div (Ideal.exp (l j - shift l)) (∑ k, Ideal.exp (l k - shift l))

/-- Three dense layers with a rectifier after the first two. -/
def mlp {k a b n : ℕ} (x : Fin k → EReal) (W1 : Fin a → Fin k → EReal) (b1 : Fin a → EReal)
    (W2 : Fin b → Fin a → EReal) (b2 : Fin b → EReal) (W3 : Fin n → Fin b → EReal) (b3 : Fin n → EReal) (o : Fin n) : EReal :=
  dense (fun p => relu (dense (fun q => relu (dense x W1 b1 q)) W2 b2 p)) W3 b3 o

/-- A group's 40 features with its gate weight appended as feature 40. -/
def withGate (u : Fin 40 → EReal) (g : EReal) (i : Fin 41) : EReal :=
  if h : i.val < 40 then u ⟨i.val, h⟩ else g

/-- A matrix given as an array, as a function of (row, column). -/
abbrev mat {a b : ℕ} (W : (⟨2, ![a, b]⟩ : Shape).Idx → EReal) : Fin a → Fin b → EReal := fun o i => W (ix2 o i)
/-- A vector given as an array, as a function of its index. -/
abbrev vec {a : ℕ} (v : (⟨1, ![a]⟩ : Shape).Idx → EReal) : Fin a → EReal := fun o => v (ix1 o)

/-- The leading 40 features of row r, and the 40 features of group s of row r. -/
def lead (x : (⟨2, ![262144, 440]⟩ : Shape).Idx → EReal) (r : Fin 262144) (i : Fin 40) : EReal :=
  x (ix2 r (⟨i.val, by omega⟩ : Fin 440))
def group (x : (⟨2, ![262144, 440]⟩ : Shape).Idx → EReal) (r : Fin 262144) (s : Fin 10) (i : Fin 40) : EReal :=
  x (ix2 r (⟨40 + (s.val * 40 + i.val), by omega⟩ : Fin 440))

/-- The ten gate weights of row r. -/
def gate (x : (⟨2, ![262144, 440]⟩ : Shape).Idx → EReal)
    (bW1 : (⟨2, ![40, 40]⟩ : Shape).Idx → EReal) (bb1 : (⟨1, ![40]⟩ : Shape).Idx → EReal)
    (bW2 : (⟨2, ![40, 40]⟩ : Shape).Idx → EReal) (bb2 : (⟨1, ![40]⟩ : Shape).Idx → EReal)
    (bW3 : (⟨2, ![10, 40]⟩ : Shape).Idx → EReal) (bb3 : (⟨1, ![10]⟩ : Shape).Idx → EReal)
    (r : Fin 262144) : Fin 10 → EReal :=
  softmax (mlp (lead x r) (mat bW1) (vec bb1) (mat bW2) (vec bb2) (mat bW3) (vec bb3))

/-- The result at (row r, group s, output j): the group's softmax output scaled by the group's gate weight. -/
def result (x : (⟨2, ![262144, 440]⟩ : Shape).Idx → EReal)
    (bW1 : (⟨2, ![40, 40]⟩ : Shape).Idx → EReal) (bb1 : (⟨1, ![40]⟩ : Shape).Idx → EReal)
    (bW2 : (⟨2, ![40, 40]⟩ : Shape).Idx → EReal) (bb2 : (⟨1, ![40]⟩ : Shape).Idx → EReal)
    (bW3 : (⟨2, ![10, 40]⟩ : Shape).Idx → EReal) (bb3 : (⟨1, ![10]⟩ : Shape).Idx → EReal)
    (sW1 : (⟨2, ![41, 41]⟩ : Shape).Idx → EReal) (sb1 : (⟨1, ![41]⟩ : Shape).Idx → EReal)
    (sW2 : (⟨2, ![41, 41]⟩ : Shape).Idx → EReal) (sb2 : (⟨1, ![41]⟩ : Shape).Idx → EReal)
    (sW3 : (⟨2, ![22, 41]⟩ : Shape).Idx → EReal) (sb3 : (⟨1, ![22]⟩ : Shape).Idx → EReal)
    (r : Fin 262144) (s : Fin 10) (j : Fin 22) : EReal :=
  softmax (mlp (withGate (group x r s) (gate x bW1 bb1 bW2 bb2 bW3 bb3 r s))
      (mat sW1) (vec sb1) (mat sW2) (vec sb2) (mat sW3) (vec sb3)) j
    * gate x bW1 bb1 bW2 bb2 bW3 bb3 r s

/-- The result as an array of shape [262144, 10, 22]. -/
def resultArr (x : (⟨2, ![262144, 440]⟩ : Shape).Idx → EReal)
    (bW1 : (⟨2, ![40, 40]⟩ : Shape).Idx → EReal) (bb1 : (⟨1, ![40]⟩ : Shape).Idx → EReal)
    (bW2 : (⟨2, ![40, 40]⟩ : Shape).Idx → EReal) (bb2 : (⟨1, ![40]⟩ : Shape).Idx → EReal)
    (bW3 : (⟨2, ![10, 40]⟩ : Shape).Idx → EReal) (bb3 : (⟨1, ![10]⟩ : Shape).Idx → EReal)
    (sW1 : (⟨2, ![41, 41]⟩ : Shape).Idx → EReal) (sb1 : (⟨1, ![41]⟩ : Shape).Idx → EReal)
    (sW2 : (⟨2, ![41, 41]⟩ : Shape).Idx → EReal) (sb2 : (⟨1, ![41]⟩ : Shape).Idx → EReal)
    (sW3 : (⟨2, ![22, 41]⟩ : Shape).Idx → EReal) (sb3 : (⟨1, ![22]⟩ : Shape).Idx → EReal) :
    (⟨3, ![262144, 10, 22]⟩ : Shape).Idx → EReal :=
  fun idx => result x bW1 bb1 bW2 bb2 bW3 bb3 sW1 sb1 sW2 sb2 sW3 sb3 (idx 0) (idx 1) (idx 2)

end Towers

end
-- ==== Proof.KernelProducts.lean ====
/-
  The kernel's matrix products read at an entry.

  Each product contracts the second axis of a block of rows with the second axis of a weight matrix stored as
  (output, input), into a zero accumulator. On the extended reals entry (r, o) is the plain sum over the input index k of
  l (r, k) * w (o, k); changes of float format are the identity there.
-/
import proofs.«147875_j429496729976_2_alg».proof.Proof.Gen.KernelIdeal
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx

theorem prod_40_40_l0 (j : S1024x40.Idx) (q : dot_S1024x40_S40x40_S1024x40_1_1_0_0_n_n.contr.Idx) : (dot_S1024x40_S40x40_S1024x40_1_1_0_0_n_n.lhsIdx j q 0).val = (j 0).val := by
  unfold DotDims.lhsIdx
  rw [dif_neg (show ¬(0 : Fin S1024x40.rank) ∈ dot_S1024x40_S40x40_S1024x40_1_1_0_0_n_n.lhsBatch by decide), dif_pos (show (0 : Fin S1024x40.rank) ∈ dot_S1024x40_S40x40_S1024x40_1_1_0_0_n_n.lhsNonContracting by decide)]
  rfl
theorem prod_40_40_r0 (j : S1024x40.Idx) (q : dot_S1024x40_S40x40_S1024x40_1_1_0_0_n_n.contr.Idx) : (dot_S1024x40_S40x40_S1024x40_1_1_0_0_n_n.rhsIdx j q 0).val = (j 1).val := by
  unfold DotDims.rhsIdx
  rw [dif_neg (show ¬(0 : Fin S40x40.rank) ∈ dot_S1024x40_S40x40_S1024x40_1_1_0_0_n_n.rhsBatch by decide), dif_pos (show (0 : Fin S40x40.rank) ∈ dot_S1024x40_S40x40_S1024x40_1_1_0_0_n_n.rhsNonContracting by decide)]
  rfl

/-- Entry (r, o) of the product of an [1024, 40] block of rows with an [40, 40] weight matrix contracted along both second axes,
    accumulated into zero: the sum over k of l (r, k) * w (o, k). -/
theorem prod_40_40 (l : FVec Ideal S1024x40 .bf16) (w : FVec Ideal S40x40 .bf16) (r : Fin 1024) (o : Fin 40) :
    matmul dot_S1024x40_S40x40_S1024x40_1_1_0_0_n_n none l w (constant S1024x40 .f32 0x00000000#32) (ix2 r o) = ∑ k : Fin 40, l (ix2 r k) * w (ix2 o k) := by
  simp only [matmul]
  rw [Ideal.matmul_constant_zero_apply, ← Equiv.sum_comp (contrEquiv1 dot_S1024x40_S40x40_S1024x40_1_1_0_0_n_n 40 rfl rfl).symm]
  refine Finset.sum_congr rfl fun k _ => ?_
  have hk := contrEquiv1_symm_val dot_S1024x40_S40x40_S1024x40_1_1_0_0_n_n 40 rfl rfl k
  have el : dot_S1024x40_S40x40_S1024x40_1_1_0_0_n_n.lhsIdx (ix2 r o) ((contrEquiv1 dot_S1024x40_S40x40_S1024x40_1_1_0_0_n_n 40 rfl rfl).symm k) = ix2 r k := funext fun a => Fin.ext (by
    match a with
    | ⟨0, _⟩ => exact prod_40_40_l0 _ _
    | ⟨1, _⟩ => exact (dot_S1024x40_S40x40_S1024x40_1_1_0_0_n_n.lhsIdx_val_of_single rfl _ _).trans hk)
  have er : dot_S1024x40_S40x40_S1024x40_1_1_0_0_n_n.rhsIdx (ix2 r o) ((contrEquiv1 dot_S1024x40_S40x40_S1024x40_1_1_0_0_n_n 40 rfl rfl).symm k) = ix2 o k := funext fun a => Fin.ext (by
    match a with
    | ⟨0, _⟩ => exact prod_40_40_r0 _ _
    | ⟨1, _⟩ => exact (dot_S1024x40_S40x40_S1024x40_1_1_0_0_n_n.rhsIdx_val_of_single rfl _ _).trans hk)
  rw [el, er]

theorem prod_40_10_l0 (j : S1024x10.Idx) (q : dot_S1024x40_S10x40_S1024x10_1_1_0_0_n_n.contr.Idx) : (dot_S1024x40_S10x40_S1024x10_1_1_0_0_n_n.lhsIdx j q 0).val = (j 0).val := by
  unfold DotDims.lhsIdx
  rw [dif_neg (show ¬(0 : Fin S1024x40.rank) ∈ dot_S1024x40_S10x40_S1024x10_1_1_0_0_n_n.lhsBatch by decide), dif_pos (show (0 : Fin S1024x40.rank) ∈ dot_S1024x40_S10x40_S1024x10_1_1_0_0_n_n.lhsNonContracting by decide)]
  rfl
theorem prod_40_10_r0 (j : S1024x10.Idx) (q : dot_S1024x40_S10x40_S1024x10_1_1_0_0_n_n.contr.Idx) : (dot_S1024x40_S10x40_S1024x10_1_1_0_0_n_n.rhsIdx j q 0).val = (j 1).val := by
  unfold DotDims.rhsIdx
  rw [dif_neg (show ¬(0 : Fin S10x40.rank) ∈ dot_S1024x40_S10x40_S1024x10_1_1_0_0_n_n.rhsBatch by decide), dif_pos (show (0 : Fin S10x40.rank) ∈ dot_S1024x40_S10x40_S1024x10_1_1_0_0_n_n.rhsNonContracting by decide)]
  rfl

/-- Entry (r, o) of the product of an [1024, 40] block of rows with an [10, 40] weight matrix contracted along both second axes,
    accumulated into zero: the sum over k of l (r, k) * w (o, k). -/
theorem prod_40_10 (l : FVec Ideal S1024x40 .bf16) (w : FVec Ideal S10x40 .bf16) (r : Fin 1024) (o : Fin 10) :
    matmul dot_S1024x40_S10x40_S1024x10_1_1_0_0_n_n none l w (constant S1024x10 .f32 0x00000000#32) (ix2 r o) = ∑ k : Fin 40, l (ix2 r k) * w (ix2 o k) := by
  simp only [matmul]
  rw [Ideal.matmul_constant_zero_apply, ← Equiv.sum_comp (contrEquiv1 dot_S1024x40_S10x40_S1024x10_1_1_0_0_n_n 40 rfl rfl).symm]
  refine Finset.sum_congr rfl fun k _ => ?_
  have hk := contrEquiv1_symm_val dot_S1024x40_S10x40_S1024x10_1_1_0_0_n_n 40 rfl rfl k
  have el : dot_S1024x40_S10x40_S1024x10_1_1_0_0_n_n.lhsIdx (ix2 r o) ((contrEquiv1 dot_S1024x40_S10x40_S1024x10_1_1_0_0_n_n 40 rfl rfl).symm k) = ix2 r k := funext fun a => Fin.ext (by
    match a with
    | ⟨0, _⟩ => exact prod_40_10_l0 _ _
    | ⟨1, _⟩ => exact (dot_S1024x40_S10x40_S1024x10_1_1_0_0_n_n.lhsIdx_val_of_single rfl _ _).trans hk)
  have er : dot_S1024x40_S10x40_S1024x10_1_1_0_0_n_n.rhsIdx (ix2 r o) ((contrEquiv1 dot_S1024x40_S10x40_S1024x10_1_1_0_0_n_n 40 rfl rfl).symm k) = ix2 o k := funext fun a => Fin.ext (by
    match a with
    | ⟨0, _⟩ => exact prod_40_10_r0 _ _
    | ⟨1, _⟩ => exact (dot_S1024x40_S10x40_S1024x10_1_1_0_0_n_n.rhsIdx_val_of_single rfl _ _).trans hk)
  rw [el, er]

theorem prod_410_410_l0 (j : S1024x410.Idx) (q : dot_S1024x410_S410x410_S1024x410_1_1_0_0_n_n.contr.Idx) : (dot_S1024x410_S410x410_S1024x410_1_1_0_0_n_n.lhsIdx j q 0).val = (j 0).val := by
  unfold DotDims.lhsIdx
  rw [dif_neg (show ¬(0 : Fin S1024x410.rank) ∈ dot_S1024x410_S410x410_S1024x410_1_1_0_0_n_n.lhsBatch by decide), dif_pos (show (0 : Fin S1024x410.rank) ∈ dot_S1024x410_S410x410_S1024x410_1_1_0_0_n_n.lhsNonContracting by decide)]
  rfl
theorem prod_410_410_r0 (j : S1024x410.Idx) (q : dot_S1024x410_S410x410_S1024x410_1_1_0_0_n_n.contr.Idx) : (dot_S1024x410_S410x410_S1024x410_1_1_0_0_n_n.rhsIdx j q 0).val = (j 1).val := by
  unfold DotDims.rhsIdx
  rw [dif_neg (show ¬(0 : Fin S410x410.rank) ∈ dot_S1024x410_S410x410_S1024x410_1_1_0_0_n_n.rhsBatch by decide), dif_pos (show (0 : Fin S410x410.rank) ∈ dot_S1024x410_S410x410_S1024x410_1_1_0_0_n_n.rhsNonContracting by decide)]
  rfl

/-- Entry (r, o) of the product of an [1024, 410] block of rows with an [410, 410] weight matrix contracted along both second axes,
    accumulated into zero: the sum over k of l (r, k) * w (o, k). -/
theorem prod_410_410 (l : FVec Ideal S1024x410 .bf16) (w : FVec Ideal S410x410 .bf16) (r : Fin 1024) (o : Fin 410) :
    matmul dot_S1024x410_S410x410_S1024x410_1_1_0_0_n_n none l w (constant S1024x410 .f32 0x00000000#32) (ix2 r o) = ∑ k : Fin 410, l (ix2 r k) * w (ix2 o k) := by
  simp only [matmul]
  rw [Ideal.matmul_constant_zero_apply, ← Equiv.sum_comp (contrEquiv1 dot_S1024x410_S410x410_S1024x410_1_1_0_0_n_n 410 rfl rfl).symm]
  refine Finset.sum_congr rfl fun k _ => ?_
  have hk := contrEquiv1_symm_val dot_S1024x410_S410x410_S1024x410_1_1_0_0_n_n 410 rfl rfl k
  have el : dot_S1024x410_S410x410_S1024x410_1_1_0_0_n_n.lhsIdx (ix2 r o) ((contrEquiv1 dot_S1024x410_S410x410_S1024x410_1_1_0_0_n_n 410 rfl rfl).symm k) = ix2 r k := funext fun a => Fin.ext (by
    match a with
    | ⟨0, _⟩ => exact prod_410_410_l0 _ _
    | ⟨1, _⟩ => exact (dot_S1024x410_S410x410_S1024x410_1_1_0_0_n_n.lhsIdx_val_of_single rfl _ _).trans hk)
  have er : dot_S1024x410_S410x410_S1024x410_1_1_0_0_n_n.rhsIdx (ix2 r o) ((contrEquiv1 dot_S1024x410_S410x410_S1024x410_1_1_0_0_n_n 410 rfl rfl).symm k) = ix2 o k := funext fun a => Fin.ext (by
    match a with
    | ⟨0, _⟩ => exact prod_410_410_r0 _ _
    | ⟨1, _⟩ => exact (dot_S1024x410_S410x410_S1024x410_1_1_0_0_n_n.rhsIdx_val_of_single rfl _ _).trans hk)
  rw [el, er]

theorem prod_410_220_l0 (j : S1024x220.Idx) (q : dot_S1024x410_S220x410_S1024x220_1_1_0_0_n_n.contr.Idx) : (dot_S1024x410_S220x410_S1024x220_1_1_0_0_n_n.lhsIdx j q 0).val = (j 0).val := by
  unfold DotDims.lhsIdx
  rw [dif_neg (show ¬(0 : Fin S1024x410.rank) ∈ dot_S1024x410_S220x410_S1024x220_1_1_0_0_n_n.lhsBatch by decide), dif_pos (show (0 : Fin S1024x410.rank) ∈ dot_S1024x410_S220x410_S1024x220_1_1_0_0_n_n.lhsNonContracting by decide)]
  rfl
theorem prod_410_220_r0 (j : S1024x220.Idx) (q : dot_S1024x410_S220x410_S1024x220_1_1_0_0_n_n.contr.Idx) : (dot_S1024x410_S220x410_S1024x220_1_1_0_0_n_n.rhsIdx j q 0).val = (j 1).val := by
  unfold DotDims.rhsIdx
  rw [dif_neg (show ¬(0 : Fin S220x410.rank) ∈ dot_S1024x410_S220x410_S1024x220_1_1_0_0_n_n.rhsBatch by decide), dif_pos (show (0 : Fin S220x410.rank) ∈ dot_S1024x410_S220x410_S1024x220_1_1_0_0_n_n.rhsNonContracting by decide)]
  rfl

/-- Entry (r, o) of the product of an [1024, 410] block of rows with an [220, 410] weight matrix contracted along both second axes,
    accumulated into zero: the sum over k of l (r, k) * w (o, k). -/
theorem prod_410_220 (l : FVec Ideal S1024x410 .bf16) (w : FVec Ideal S220x410 .bf16) (r : Fin 1024) (o : Fin 220) :
    matmul dot_S1024x410_S220x410_S1024x220_1_1_0_0_n_n none l w (constant S1024x220 .f32 0x00000000#32) (ix2 r o) = ∑ k : Fin 410, l (ix2 r k) * w (ix2 o k) := by
  simp only [matmul]
  rw [Ideal.matmul_constant_zero_apply, ← Equiv.sum_comp (contrEquiv1 dot_S1024x410_S220x410_S1024x220_1_1_0_0_n_n 410 rfl rfl).symm]
  refine Finset.sum_congr rfl fun k _ => ?_
  have hk := contrEquiv1_symm_val dot_S1024x410_S220x410_S1024x220_1_1_0_0_n_n 410 rfl rfl k
  have el : dot_S1024x410_S220x410_S1024x220_1_1_0_0_n_n.lhsIdx (ix2 r o) ((contrEquiv1 dot_S1024x410_S220x410_S1024x220_1_1_0_0_n_n 410 rfl rfl).symm k) = ix2 r k := funext fun a => Fin.ext (by
    match a with
    | ⟨0, _⟩ => exact prod_410_220_l0 _ _
    | ⟨1, _⟩ => exact (dot_S1024x410_S220x410_S1024x220_1_1_0_0_n_n.lhsIdx_val_of_single rfl _ _).trans hk)
  have er : dot_S1024x410_S220x410_S1024x220_1_1_0_0_n_n.rhsIdx (ix2 r o) ((contrEquiv1 dot_S1024x410_S220x410_S1024x220_1_1_0_0_n_n 410 rfl rfl).symm k) = ix2 o k := funext fun a => Fin.ext (by
    match a with
    | ⟨0, _⟩ => exact prod_410_220_r0 _ _
    | ⟨1, _⟩ => exact (dot_S1024x410_S220x410_S1024x220_1_1_0_0_n_n.rhsIdx_val_of_single rfl _ _).trans hk)
  rw [el, er]

end Cert.KernelIdeal.Rows

end
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelSoftmax.lean ====
/-
  The kernel's softmax along the rows of a block, read at an entry.

  The block [a, n] is shifted by the row maximum (the maximum of minus infinity and the fold of max over the row, kept as a
  column and spread back over the row), exponentiated, and divided by the row sum of the exponentials (kept as a column
  and spread back). On the extended reals entry (r, j) is the shifted softmax of row r at j. A slice of n consecutive
  columns of a wider block, treated this way and scaled by one column of another block, reads likewise.
-/
import proofs.«147875_j429496729976_2_alg».proof.Proof.Spec
import proofs.«147875_j429496729976_2_alg».proof.Proof.LibRowMax
import proofs.«147875_j429496729976_2_alg».proof.Proof.LibKeepdims
import Idealize.ShloMosaic.Lib.ValueLayout
import Idealize.ShloMosaic.PureOps.Ideal.Laws

noncomputable section

namespace Towers

open Idealize.ShloMosaic Idealize.ShloMosaic.ValueIdx

/-- The softmax along rows as the kernel spells it with vector operations. -/
def rowSoftmax {a n : ℕ} (v : FVec Ideal (⟨2, ![a, n]⟩ : Shape) .f32)
    (h : (⟨2, ![a, n]⟩ : Shape).Reduces [1] ⟨1, ![a]⟩) (hφ : FKind.Formats .f32)
    (hmax : (0xFF800000#32 : BitVec 32) = FKind.maximumf.neutral .f32 hφ) (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec Ideal (⟨2, ![a, n]⟩ : Shape) .f32 :=
  divf (exp (subf v (broadcastTo ⟨2, ![a, n]⟩ (shapeCast ⟨2, ![a, 1]⟩
        (maximumf (broadcast ⟨1, ![a]⟩ (Scalar.ofBits (F := Ideal) .f32 0xFF800000#32)) (multiReduction .maximumf [1] ⟨1, ![a]⟩ v 0xFF800000#32 h hφ hmax)) hc) hb)))
    (broadcastTo ⟨2, ![a, n]⟩ (shapeCast ⟨2, ![a, 1]⟩
      (multiReduction .add [1] ⟨1, ![a]⟩ (exp (subf v (broadcastTo ⟨2, ![a, n]⟩ (shapeCast ⟨2, ![a, 1]⟩
        (maximumf (broadcast ⟨1, ![a]⟩ (Scalar.ofBits (F := Ideal) .f32 0xFF800000#32)) (multiReduction .maximumf [1] ⟨1, ![a]⟩ v 0xFF800000#32 h hφ hmax)) hc) hb)))
        0x00000000#32 h hφ hadd) hc) hb)

/-- The shifted exponential of the block at (r, k). -/
theorem rowShiftExp_apply {a n : ℕ} (v : FVec Ideal (⟨2, ![a, n]⟩ : Shape) .f32)
    (h : (⟨2, ![a, n]⟩ : Shape).Reduces [1] ⟨1, ![a]⟩) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) (r : Fin a) (k : Fin n) :
    exp (subf v (broadcastTo ⟨2, ![a, n]⟩ (shapeCast ⟨2, ![a, 1]⟩
        (maximumf (broadcast ⟨1, ![a]⟩ (Scalar.ofBits (F := Ideal) .f32 0xFF800000#32)) (multiReduction .maximumf [1] ⟨1, ![a]⟩ v 0xFF800000#32 h hφ hmax)) hc) hb)) (ix2 r k)
      = Ideal.exp (v (ix2 r k) - shift fun k' => v (ix2 r k')) := by
  show Ideal.exp (v (ix2 r k) - broadcastTo ⟨2, ![a, n]⟩ _ hb (ix2 r k)) = _
  rw [Keepdims.broadcastTo_a1_ab_apply _ hb r k, Keepdims.shapeCast_a_a1_apply _ hc r 0]
  show Ideal.exp (v (ix2 r k) - max (Ideal.ofBits .f32 0xFF800000#32) (multiReduction .maximumf [1] ⟨1, ![a]⟩ v 0xFF800000#32 h hφ hmax (ix1 r))) = _
  rw [RowMax.rowMax_apply v 0xFF800000#32 h hφ hmax r]
  rfl

/-- The kernel's row softmax at (r, j) is the shifted softmax of row r at j. -/
theorem rowSoftmax_apply {a n : ℕ} (v : FVec Ideal (⟨2, ![a, n]⟩ : Shape) .f32)
    (h : (⟨2, ![a, n]⟩ : Shape).Reduces [1] ⟨1, ![a]⟩) (hφ : FKind.Formats .f32)
    (hmax : (0xFF800000#32 : BitVec 32) = FKind.maximumf.neutral .f32 hφ) (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) (r : Fin a) (j : Fin n) :
    rowSoftmax v h hφ hmax hadd hc hb (ix2 r j) = softmax (fun k => v (ix2 r k)) j := by
  unfold rowSoftmax
  show Ideal.div (exp (subf v _) (ix2 r j)) (broadcastTo ⟨2, ![a, n]⟩ _ hb (ix2 r j)) = _
  rw [rowShiftExp_apply v h hφ hmax hc hb r j, Keepdims.broadcastTo_a1_ab_apply _ hb r j,
    Keepdims.rowSumKeep_apply _ 0x00000000#32 h hφ hadd hc r 0]
  unfold softmax
  refine congrArg (Ideal.div _) (Finset.sum_congr rfl fun k _ => ?_)
  exact rowShiftExp_apply v h hφ hmax hc hb r k

/-- A band of n columns starting at column o of a wider block, put through the row softmax and scaled by column q of
    another block: entry (r, j) is the softmax of the band's row r at j times the other block's entry (r, q). -/
theorem bandSoftmaxScaled_apply {a n w g : ℕ} (o q : ℕ) (L : FVec Ideal (⟨2, ![a, w]⟩ : Shape) .f32) (G : FVec Ideal (⟨2, ![a, g]⟩ : Shape) .f32)
    (hs : (⟨2, ![a, w]⟩ : Shape).Slices ![0, o] ⟨2, ![a, n]⟩) (hq : (⟨2, ![a, g]⟩ : Shape).Slices ![0, q] ⟨2, ![a, 1]⟩)
    (h : (⟨2, ![a, n]⟩ : Shape).Reduces [1] ⟨1, ![a]⟩) (hφ : FKind.Formats .f32)
    (hmax : (0xFF800000#32 : BitVec 32) = FKind.maximumf.neutral .f32 hφ) (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) (r : Fin a) (j : Fin n)
    (col : Fin n → Fin w) (hcol : ∀ k, (col k).val = o + k.val) (qc : Fin g) (hqc : qc.val = q + 0) :
    mulf (rowSoftmax (extractStridedSlice ⟨2, ![a, n]⟩ ![0, o] L hs) h hφ hmax hadd hc hb)
        (broadcastTo ⟨2, ![a, n]⟩ (extractStridedSlice ⟨2, ![a, 1]⟩ ![0, q] G hq) hb) (ix2 r j)
      = softmax (fun k => L (ix2 r (col k))) j * G (ix2 r qc) := by
  show rowSoftmax _ h hφ hmax hadd hc hb (ix2 r j) * broadcastTo ⟨2, ![a, n]⟩ _ hb (ix2 r j) = _
  rw [rowSoftmax_apply, Keepdims.broadcastTo_a1_ab_apply _ hb r j, slice2_axis1_apply q G hq r 0 qc hqc]
  refine congrArg (· * G (ix2 r qc)) (congrArg (fun f => softmax f j) (funext fun k => ?_))
  exact slice2_axis1_apply o L hs r k (col k) (hcol k)

end Towers

end
-- ==== Proof.KernelLayers.lean ====
/-
  The kernel's layers on a block of 1024 rows, read at an entry.

  A layer is the product of the block with weights stored as (output, input), plus a bias row spread over the rows; the
  rectifier is the maximum with the zero word (the change of float format after it is the identity on the extended
  reals). Entry (r, o) of a layer is the dense layer of row r at o. The gate tower is three such layers with two
  rectifiers on the 40 leading columns of the block, followed by the row softmax: its entry (r, s) is gate weight s of row r.
-/
import proofs.«147875_j429496729976_2_alg».proof.Proof.Gen.KernelIdeal
import proofs.«147875_j429496729976_2_alg».proof.Proof.Gen.KernelIdeal.Skeleton
import proofs.«147875_j429496729976_2_alg».proof.Proof.Spec
import proofs.«147875_j429496729976_2_alg».proof.Proof.KernelProducts
import proofs.«147875_j429496729976_2_alg».proof.Proof.KernelSoftmax
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx Towers

/-- One dense layer of the kernel on a block of rows: the product with the (output, input) weights plus the bias row. -/
def layer40 (l : FVec Ideal S1024x40 .bf16) (w : FVec Ideal S40x40 .bf16) (b : FVec Ideal S40 .f32) : FVec Ideal S1024x40 .f32 :=
  addf (matmul dot_S1024x40_S40x40_S1024x40_1_1_0_0_n_n none l (shapeCast S40x40 w shapeCasts_S40x40_S40x40) (constant S1024x40 .f32 0x00000000#32))
    (broadcastTo S1024x40 (shapeCast S1x40 b shapeCasts_S40_S1x40) broadcasts_S1x40_S1024x40)

theorem layer40_apply (l : FVec Ideal S1024x40 .bf16) (w : FVec Ideal S40x40 .bf16) (b : FVec Ideal S40 .f32) (r : Fin 1024) (o : Fin 40) :
    layer40 l w b (ix2 r o) = dense (fun k : Fin 40 => l (ix2 r k)) (mat w) (vec b) o := by
  show matmul _ none l _ _ (ix2 r o) + broadcastTo S1024x40 _ _ (ix2 r o) = _
  rw [prod_40_40, broadcastTo_1b_ab_apply, shapeCast_a_1a_apply, shapeCast_self]
  rfl

/-- One dense layer of the kernel on a block of rows: the product with the (output, input) weights plus the bias row. -/
def layer10 (l : FVec Ideal S1024x40 .bf16) (w : FVec Ideal S10x40 .bf16) (b : FVec Ideal S10 .f32) : FVec Ideal S1024x10 .f32 :=
  addf (matmul dot_S1024x40_S10x40_S1024x10_1_1_0_0_n_n none l (shapeCast S10x40 w shapeCasts_S10x40_S10x40) (constant S1024x10 .f32 0x00000000#32))
    (broadcastTo S1024x10 (shapeCast S1x10 b shapeCasts_S10_S1x10) broadcasts_S1x10_S1024x10)

theorem layer10_apply (l : FVec Ideal S1024x40 .bf16) (w : FVec Ideal S10x40 .bf16) (b : FVec Ideal S10 .f32) (r : Fin 1024) (o : Fin 10) :
    layer10 l w b (ix2 r o) = dense (fun k : Fin 40 => l (ix2 r k)) (mat w) (vec b) o := by
  show matmul _ none l _ _ (ix2 r o) + broadcastTo S1024x10 _ _ (ix2 r o) = _
  rw [prod_40_10, broadcastTo_1b_ab_apply, shapeCast_a_1a_apply, shapeCast_self]
  rfl

/-- One dense layer of the kernel on a block of rows: the product with the (output, input) weights plus the bias row. -/
def layer410 (l : FVec Ideal S1024x410 .bf16) (w : FVec Ideal S410x410 .bf16) (b : FVec Ideal S410 .f32) : FVec Ideal S1024x410 .f32 :=
  addf (matmul dot_S1024x410_S410x410_S1024x410_1_1_0_0_n_n none l (shapeCast S410x410 w shapeCasts_S410x410_S410x410) (constant S1024x410 .f32 0x00000000#32))
    (broadcastTo S1024x410 (shapeCast S1x410 b shapeCasts_S410_S1x410) broadcasts_S1x410_S1024x410)

theorem layer410_apply (l : FVec Ideal S1024x410 .bf16) (w : FVec Ideal S410x410 .bf16) (b : FVec Ideal S410 .f32) (r : Fin 1024) (o : Fin 410) :
    layer410 l w b (ix2 r o) = dense (fun k : Fin 410 => l (ix2 r k)) (mat w) (vec b) o := by
  show matmul _ none l _ _ (ix2 r o) + broadcastTo S1024x410 _ _ (ix2 r o) = _
  rw [prod_410_410, broadcastTo_1b_ab_apply, shapeCast_a_1a_apply, shapeCast_self]
  rfl

/-- One dense layer of the kernel on a block of rows: the product with the (output, input) weights plus the bias row. -/
def layer220 (l : FVec Ideal S1024x410 .bf16) (w : FVec Ideal S220x410 .bf16) (b : FVec Ideal S220 .f32) : FVec Ideal S1024x220 .f32 :=
  addf (matmul dot_S1024x410_S220x410_S1024x220_1_1_0_0_n_n none l (shapeCast S220x410 w shapeCasts_S220x410_S220x410) (constant S1024x220 .f32 0x00000000#32))
    (broadcastTo S1024x220 (shapeCast S1x220 b shapeCasts_S220_S1x220) broadcasts_S1x220_S1024x220)

theorem layer220_apply (l : FVec Ideal S1024x410 .bf16) (w : FVec Ideal S220x410 .bf16) (b : FVec Ideal S220 .f32) (r : Fin 1024) (o : Fin 220) :
    layer220 l w b (ix2 r o) = dense (fun k : Fin 410 => l (ix2 r k)) (mat w) (vec b) o := by
  show matmul _ none l _ _ (ix2 r o) + broadcastTo S1024x220 _ _ (ix2 r o) = _
  rw [prod_410_220, broadcastTo_1b_ab_apply, shapeCast_a_1a_apply, shapeCast_self]
  rfl

/-- The kernel's rectifier followed by the change of float format. -/
def rect {S : Shape} (y : FVec Ideal S .f32) : FVec Ideal S .bf16 :=
  truncf .bf16 (maximumf y (broadcast S (Scalar.ofBits (F := Ideal) .f32 0x00000000#32))) bitsLt_bf16_f32

theorem rect_apply {S : Shape} (y : FVec Ideal S .f32) (i : S.Idx) : rect y i = relu (y i) := rfl

/-- The 40 leading columns of the block, in the narrow float format. -/
def leadCols (v0 : FVec Ideal S1024x440 .f32) : FVec Ideal S1024x40 .bf16 :=
  extractStridedSlice S1024x40 ![0, 0] (truncf .bf16 v0 bitsLt_bf16_f32) slices_S1024x440_o0_0_S1024x40

theorem leadCols_apply (v0 : FVec Ideal S1024x440 .f32) (r : Fin 1024) (k : Fin 40) :
    leadCols v0 (ix2 r k) = v0 (ix2 r (⟨k.val, by omega⟩ : Fin 440)) :=
  slice2_axis1_apply 0 _ slices_S1024x440_o0_0_S1024x40 r k _ (Nat.zero_add _).symm

/-- The gate tower's logits on the block. -/
def gateLogits (v0 : FVec Ideal S1024x440 .f32) (v2 : FVec Ideal S40x40 .bf16) (v4 : FVec Ideal S40 .f32) (v5 : FVec Ideal S40x40 .bf16)
    (v7 : FVec Ideal S40 .f32) (v8 : FVec Ideal S10x40 .bf16) (v10 : FVec Ideal S10 .f32) : FVec Ideal S1024x10 .f32 :=
  layer10 (rect (layer40 (rect (layer40 (leadCols v0) v2 v4)) v5 v7)) v8 v10

theorem gateLogits_apply (v0 : FVec Ideal S1024x440 .f32) (v2 : FVec Ideal S40x40 .bf16) (v4 : FVec Ideal S40 .f32) (v5 : FVec Ideal S40x40 .bf16)
    (v7 : FVec Ideal S40 .f32) (v8 : FVec Ideal S10x40 .bf16) (v10 : FVec Ideal S10 .f32) (r : Fin 1024) (o : Fin 10) :
    gateLogits v0 v2 v4 v5 v7 v8 v10 (ix2 r o)
      = mlp (fun k : Fin 40 => v0 (ix2 r (⟨k.val, by omega⟩ : Fin 440))) (mat v2) (vec v4) (mat v5) (vec v7) (mat v8) (vec v10) o := by
  unfold gateLogits mlp
  rw [layer10_apply]
  refine congrArg (fun x => dense x (mat v8) (vec v10) o) (funext fun p => ?_)
  rw [rect_apply, layer40_apply]
  refine congrArg (fun x => relu (dense x (mat v5) (vec v7) p)) (funext fun q => ?_)
  rw [rect_apply, layer40_apply]
  refine congrArg (fun x => relu (dense x (mat v2) (vec v4) q)) (funext fun k => ?_)
  exact leadCols_apply v0 r k

/-- The gate weights on the block: the row softmax of the gate logits. -/
def gateBlock (v0 : FVec Ideal S1024x440 .f32) (v2 : FVec Ideal S40x40 .bf16) (v4 : FVec Ideal S40 .f32) (v5 : FVec Ideal S40x40 .bf16)
    (v7 : FVec Ideal S40 .f32) (v8 : FVec Ideal S10x40 .bf16) (v10 : FVec Ideal S10 .f32) : FVec Ideal S1024x10 .f32 :=
  rowSoftmax (gateLogits v0 v2 v4 v5 v7 v8 v10) reduces_S1024x10_S1024 (.inl rfl) rfl rfl shapeCasts_S1024_S1024x1 broadcasts_S1024x1_S1024x10

theorem gateBlock_apply (v0 : FVec Ideal S1024x440 .f32) (v2 : FVec Ideal S40x40 .bf16) (v4 : FVec Ideal S40 .f32) (v5 : FVec Ideal S40x40 .bf16)
    (v7 : FVec Ideal S40 .f32) (v8 : FVec Ideal S10x40 .bf16) (v10 : FVec Ideal S10 .f32) (r : Fin 1024) (s : Fin 10) :
    gateBlock v0 v2 v4 v5 v7 v8 v10 (ix2 r s)
      = softmax (mlp (fun k : Fin 40 => v0 (ix2 r (⟨k.val, by omega⟩ : Fin 440))) (mat v2) (vec v4) (mat v5) (vec v7) (mat v8) (vec v10)) s := by
  unfold gateBlock
  refine (rowSoftmax_apply _ _ _ _ _ _ _ r s).trans ?_
  exact congrArg (fun f => softmax f s) (funext fun o => gateLogits_apply v0 v2 v4 v5 v7 v8 v10 r o)

/-- The body's own spelling of the gate weights is this block. -/
theorem pay5_eq (v0 : Vec Ideal S1024x440 .f32) (v2 : Vec Ideal S40x40 .bf16) (v4 : Vec Ideal S40 .f32) (v5 : Vec Ideal S40x40 .bf16)
    (v7 : Vec Ideal S40 .f32) (v8 : Vec Ideal S10x40 .bf16) (v10 : Vec Ideal S10 .f32) :
    k0_pay5 (k0_pay3 v0 v2 v4 v5 v7 v8 v10) (k0_pay4 v0 v2 v4 v5 v7 v8 v10) = gateBlock v0 v2 v4 v5 v7 v8 v10 := rfl

end Cert.KernelIdeal.Rows

end
-- ==== Proof.KernelPayload.lean ====
/-
  What the kernel's body stores for a block of 1024 rows, read at an entry.

  The second tower's input is the block's columns 40 to 439 followed by the ten gate weights; three layers with two
  rectifiers over the packed weights give 220 logits per row; band s (22 columns from column 22 s) goes through the row
  softmax and is scaled by gate weight s; the ten bands side by side are the stored block. Entry (r, 22 s + j) is the
  softmax of band s of row r at j, times gate weight s of row r.
-/
import proofs.«147875_j429496729976_2_alg».proof.Proof.KernelLayers

noncomputable section

namespace Cert.KernelIdeal.Rows

open Cert.KernelIdeal Cert.KernelIdeal.Gen Idealize.ShloMosaic Idealize.ShloMosaic.ValueIdx Towers

/-- The second tower's input block: columns 40 to 439 of the block, then the ten gate weights. -/
def packedIn (v1 : FVec Ideal S1024x440 .bf16) (G : FVec Ideal S1024x10 .f32) : FVec Ideal S1024x410 .bf16 :=
  concatenate S1024x410 1 [⟨S1024x400, extractStridedSlice S1024x400 ![0, 40] v1 slices_S1024x440_o0_40_S1024x400⟩,
    ⟨S1024x10, truncf .bf16 G bitsLt_bf16_f32⟩] concatenates_S1024x400_S1024x10_S1024x410_d1

/-- Column c < 400 of the input is column 40 + c of the block. -/
theorem packedIn_left (v1 : FVec Ideal S1024x440 .bf16) (G : FVec Ideal S1024x10 .f32) (r : Fin 1024) (c : Fin 410) (c' : Fin 440)
    (hc : c.val < 400) (hc' : c'.val = 40 + c.val) : packedIn v1 G (ix2 r c) = v1 (ix2 r c') := by
  unfold packedIn
  refine (concatenate_pair_apply_left (1 : Fin S1024x410.rank) _ _ concatenates_S1024x400_S1024x10_S1024x410_d1 (ix2 r c) rfl
    (ix2 r (⟨c.val, hc⟩ : Fin 400)) (fun b => by match b with | ⟨0, _⟩ => rfl | ⟨1, _⟩ => rfl)).trans ?_
  exact slice2_axis1_apply 40 v1 slices_S1024x440_o0_40_S1024x400 r ⟨c.val, hc⟩ c' hc'

/-- Column 400 + s of the input is gate weight s. -/
theorem packedIn_right (v1 : FVec Ideal S1024x440 .bf16) (G : FVec Ideal S1024x10 .f32) (r : Fin 1024) (c : Fin 410) (s : Fin 10)
    (hc : c.val = 400 + s.val) : packedIn v1 G (ix2 r c) = G (ix2 r s) := by
  unfold packedIn
  exact concatenate_pair_apply_right (1 : Fin S1024x410.rank) _ _ concatenates_S1024x400_S1024x10_S1024x410_d1 (ix2 r c) rfl rfl
    (ix2 r s) (fun b hb => by match b with | ⟨0, _⟩ => rfl | ⟨1, _⟩ => exact absurd rfl hb) (by show s.val + 400 = c.val; omega)

/-- The second tower's 220 logits per row, over the packed weights. -/
def packedLogits (cin : FVec Ideal S1024x410 .bf16) (v44 : FVec Ideal S410x410 .bf16) (v46 : FVec Ideal S410 .f32)
    (v47 : FVec Ideal S410x410 .bf16) (v49 : FVec Ideal S410 .f32) (v50 : FVec Ideal S220x410 .bf16) (v52 : FVec Ideal S220 .f32) :
    FVec Ideal S1024x220 .f32 :=
  layer220 (rect (layer410 (rect (layer410 cin v44 v46)) v47 v49)) v50 v52

theorem packedLogits_apply (cin : FVec Ideal S1024x410 .bf16) (v44 : FVec Ideal S410x410 .bf16) (v46 : FVec Ideal S410 .f32)
    (v47 : FVec Ideal S410x410 .bf16) (v49 : FVec Ideal S410 .f32) (v50 : FVec Ideal S220x410 .bf16) (v52 : FVec Ideal S220 .f32)
    (r : Fin 1024) (o : Fin 220) :
    packedLogits cin v44 v46 v47 v49 v50 v52 (ix2 r o)
      = mlp (fun k : Fin 410 => cin (ix2 r k)) (mat v44) (vec v46) (mat v47) (vec v49) (mat v50) (vec v52) o := by
  unfold packedLogits mlp
  rw [layer220_apply]
  refine congrArg (fun x => dense x (mat v50) (vec v52) o) (funext fun p => ?_)
  rw [rect_apply, layer410_apply]
  refine congrArg (fun x => relu (dense x (mat v47) (vec v49) p)) (funext fun q => ?_)
  rw [rect_apply, layer410_apply]

/-- Band o (22 columns) of the logits through the row softmax, scaled by column q of the gate weights. -/
def seg (o q : ℕ) (L : FVec Ideal S1024x220 .f32) (G : FVec Ideal S1024x10 .f32)
    (hs : S1024x220.Slices ![0, o] S1024x22) (hq : S1024x10.Slices ![0, q] S1024x1) : FVec Ideal S1024x22 .f32 :=
  mulf (rowSoftmax (extractStridedSlice S1024x22 ![0, o] L hs) reduces_S1024x22_S1024 (.inl rfl) rfl rfl shapeCasts_S1024_S1024x1 broadcasts_S1024x1_S1024x22)
    (broadcastTo S1024x22 (extractStridedSlice S1024x1 ![0, q] G hq) broadcasts_S1024x1_S1024x22)

/-- The ten scaled bands. -/
def segs (L : FVec Ideal S1024x220 .f32) (G : FVec Ideal S1024x10 .f32) : Fin 10 → (S1024x22.Idx → Ideal .f32) :=
  ![seg 0 0 L G slices_S1024x220_o0_0_S1024x22 slices_S1024x10_o0_0_S1024x1,
    seg 22 1 L G slices_S1024x220_o0_22_S1024x22 slices_S1024x10_o0_1_S1024x1,
    seg 44 2 L G slices_S1024x220_o0_44_S1024x22 slices_S1024x10_o0_2_S1024x1,
    seg 66 3 L G slices_S1024x220_o0_66_S1024x22 slices_S1024x10_o0_3_S1024x1,
    seg 88 4 L G slices_S1024x220_o0_88_S1024x22 slices_S1024x10_o0_4_S1024x1,
    seg 110 5 L G slices_S1024x220_o0_110_S1024x22 slices_S1024x10_o0_5_S1024x1,
    seg 132 6 L G slices_S1024x220_o0_132_S1024x22 slices_S1024x10_o0_6_S1024x1,
    seg 154 7 L G slices_S1024x220_o0_154_S1024x22 slices_S1024x10_o0_7_S1024x1,
    seg 176 8 L G slices_S1024x220_o0_176_S1024x22 slices_S1024x10_o0_8_S1024x1,
    seg 198 9 L G slices_S1024x220_o0_198_S1024x22 slices_S1024x10_o0_9_S1024x1]

/-- Band s at (r, j): the softmax of row r's logits 22 s .. 22 s + 21 at j, times gate weight s of row r. -/
theorem segs_apply (L : FVec Ideal S1024x220 .f32) (G : FVec Ideal S1024x10 .f32) (r : Fin 1024) (s : Fin 10) (j : Fin 22) :
    segs L G s (ix2 r j) = softmax (fun k : Fin 22 => L (ix2 r (⟨s.val * 22 + k.val, by omega⟩ : Fin 220))) j * G (ix2 r s) := by
  match s with
  | ⟨0, hs⟩ =>
    exact bandSoftmaxScaled_apply 0 0 L G slices_S1024x220_o0_0_S1024x22 slices_S1024x10_o0_0_S1024x1 reduces_S1024x22_S1024 (.inl rfl) rfl rfl
      shapeCasts_S1024_S1024x1 broadcasts_S1024x1_S1024x22 r j (fun k => ⟨(⟨0, hs⟩ : Fin 10).val * 22 + k.val, by show 0 * 22 + k.val < 220; omega⟩) (fun k => rfl) ⟨0, hs⟩ rfl
  | ⟨1, hs⟩ =>
    exact bandSoftmaxScaled_apply 22 1 L G slices_S1024x220_o0_22_S1024x22 slices_S1024x10_o0_1_S1024x1 reduces_S1024x22_S1024 (.inl rfl) rfl rfl
      shapeCasts_S1024_S1024x1 broadcasts_S1024x1_S1024x22 r j (fun k => ⟨(⟨1, hs⟩ : Fin 10).val * 22 + k.val, by show 1 * 22 + k.val < 220; omega⟩) (fun k => rfl) ⟨1, hs⟩ rfl
  | ⟨2, hs⟩ =>
    exact bandSoftmaxScaled_apply 44 2 L G slices_S1024x220_o0_44_S1024x22 slices_S1024x10_o0_2_S1024x1 reduces_S1024x22_S1024 (.inl rfl) rfl rfl
      shapeCasts_S1024_S1024x1 broadcasts_S1024x1_S1024x22 r j (fun k => ⟨(⟨2, hs⟩ : Fin 10).val * 22 + k.val, by show 2 * 22 + k.val < 220; omega⟩) (fun k => rfl) ⟨2, hs⟩ rfl
  | ⟨3, hs⟩ =>
    exact bandSoftmaxScaled_apply 66 3 L G slices_S1024x220_o0_66_S1024x22 slices_S1024x10_o0_3_S1024x1 reduces_S1024x22_S1024 (.inl rfl) rfl rfl
      shapeCasts_S1024_S1024x1 broadcasts_S1024x1_S1024x22 r j (fun k => ⟨(⟨3, hs⟩ : Fin 10).val * 22 + k.val, by show 3 * 22 + k.val < 220; omega⟩) (fun k => rfl) ⟨3, hs⟩ rfl
  | ⟨4, hs⟩ =>
    exact bandSoftmaxScaled_apply 88 4 L G slices_S1024x220_o0_88_S1024x22 slices_S1024x10_o0_4_S1024x1 reduces_S1024x22_S1024 (.inl rfl) rfl rfl
      shapeCasts_S1024_S1024x1 broadcasts_S1024x1_S1024x22 r j (fun k => ⟨(⟨4, hs⟩ : Fin 10).val * 22 + k.val, by show 4 * 22 + k.val < 220; omega⟩) (fun k => rfl) ⟨4, hs⟩ rfl
  | ⟨5, hs⟩ =>
    exact bandSoftmaxScaled_apply 110 5 L G slices_S1024x220_o0_110_S1024x22 slices_S1024x10_o0_5_S1024x1 reduces_S1024x22_S1024 (.inl rfl) rfl rfl
      shapeCasts_S1024_S1024x1 broadcasts_S1024x1_S1024x22 r j (fun k => ⟨(⟨5, hs⟩ : Fin 10).val * 22 + k.val, by show 5 * 22 + k.val < 220; omega⟩) (fun k => rfl) ⟨5, hs⟩ rfl
  | ⟨6, hs⟩ =>
    exact bandSoftmaxScaled_apply 132 6 L G slices_S1024x220_o0_132_S1024x22 slices_S1024x10_o0_6_S1024x1 reduces_S1024x22_S1024 (.inl rfl) rfl rfl
      shapeCasts_S1024_S1024x1 broadcasts_S1024x1_S1024x22 r j (fun k => ⟨(⟨6, hs⟩ : Fin 10).val * 22 + k.val, by show 6 * 22 + k.val < 220; omega⟩) (fun k => rfl) ⟨6, hs⟩ rfl
  | ⟨7, hs⟩ =>
    exact bandSoftmaxScaled_apply 154 7 L G slices_S1024x220_o0_154_S1024x22 slices_S1024x10_o0_7_S1024x1 reduces_S1024x22_S1024 (.inl rfl) rfl rfl
      shapeCasts_S1024_S1024x1 broadcasts_S1024x1_S1024x22 r j (fun k => ⟨(⟨7, hs⟩ : Fin 10).val * 22 + k.val, by show 7 * 22 + k.val < 220; omega⟩) (fun k => rfl) ⟨7, hs⟩ rfl
  | ⟨8, hs⟩ =>
    exact bandSoftmaxScaled_apply 176 8 L G slices_S1024x220_o0_176_S1024x22 slices_S1024x10_o0_8_S1024x1 reduces_S1024x22_S1024 (.inl rfl) rfl rfl
      shapeCasts_S1024_S1024x1 broadcasts_S1024x1_S1024x22 r j (fun k => ⟨(⟨8, hs⟩ : Fin 10).val * 22 + k.val, by show 8 * 22 + k.val < 220; omega⟩) (fun k => rfl) ⟨8, hs⟩ rfl
  | ⟨9, hs⟩ =>
    exact bandSoftmaxScaled_apply 198 9 L G slices_S1024x220_o0_198_S1024x22 slices_S1024x10_o0_9_S1024x1 reduces_S1024x22_S1024 (.inl rfl) rfl rfl
      shapeCasts_S1024_S1024x1 broadcasts_S1024x1_S1024x22 r j (fun k => ⟨(⟨9, hs⟩ : Fin 10).val * 22 + k.val, by show 9 * 22 + k.val < 220; omega⟩) (fun k => rfl) ⟨9, hs⟩ rfl

/-- The ten bands side by side. -/
def stored (L : FVec Ideal S1024x220 .f32) (G : FVec Ideal S1024x10 .f32) : FVec Ideal S1024x220 .f32 :=
  concatenate S1024x220 1 (List.ofFn fun n : Fin 10 => (⟨S1024x22, segs L G n⟩ : (s : Shape) × (s.Idx → Ideal .f32)))
    concatenates_S1024x22_S1024x22_S1024x22_S1024x22_S1024x22_S1024x22_S1024x22_S1024x22_S1024x22_S1024x22_S1024x220_d1

theorem stored_apply (L : FVec Ideal S1024x220 .f32) (G : FVec Ideal S1024x10 .f32) (r : Fin 1024) (s : Fin 10) (j : Fin 22) (c : Fin 220)
    (hc : c.val = s.val * 22 + j.val) :
    stored L G (ix2 r c) = softmax (fun k : Fin 22 => L (ix2 r (⟨s.val * 22 + k.val, by omega⟩ : Fin 220))) j * G (ix2 r s) := by
  unfold stored
  refine (concatenate_ofFn_apply (1 : Fin S1024x220.rank) (fun n : Fin 10 => segs L G n) _ rfl 22 rfl (ix2 r c) s
    (by show c.val / 22 = s.val; omega) (ix2 r j) (by show j.val = c.val % 22; omega)
    (fun b hb => by match b with | ⟨0, _⟩ => rfl | ⟨1, _⟩ => exact absurd rfl hb)).trans ?_
  exact segs_apply L G r s j

end Cert.KernelIdeal.Rows

end
-- ==== Proof.PackedTower.lean ====
/-
  Block-diagonal packing of a tower over the extended reals.

  Ten groups are pushed through one tower at once: the weight matrices of the packed tower are block diagonal (the same
  block for every group), the biases are repeated ten times. Each output of the packed tower at (group s, output j)
  is then the output j of the tower applied to group s alone. In the first layer the packed columns are laid out as
  400 group-major features followed by ten gate weights, one per group; the later layers are group-major throughout.

  All sums are finite sums over the extended reals; only commutativity, associativity and x * 0 = 0 * x = 0 are used.
-/
import proofs.«147875_j429496729976_2_alg».proof.Proof.Spec

noncomputable section

namespace Towers

/-- The bound of a group-major index: s * k + i < 10 * k for s < 10 and i < k. -/
theorem blk_lt {k : ℕ} (s : Fin 10) (i : Fin k) : s.val * k + i.val < 10 * k :=
  calc s.val * k + i.val < s.val * k + k := Nat.add_lt_add_left i.isLt _
    _ = (s.val + 1) * k := (Nat.succ_mul _ _).symm
    _ ≤ 10 * k := Nat.mul_le_mul_right _ s.isLt

/-- One row of a block-diagonal matrix against a packed vector: if the row, read at the group-major column
    (s', i), is w i for s' = s and zero otherwise, the sum over all 10 * k columns is the sum over group s alone. -/
theorem blockdiag_row {k : ℕ} (s : Fin 10) (g row : Fin (10 * k) → EReal) (w : Fin k → EReal)
    (hrow : ∀ (s' : Fin 10) (i : Fin k) (h : s'.val * k + i.val < 10 * k),
      row ⟨s'.val * k + i.val, h⟩ = (if s = s' then (1 : EReal) else 0) * w i) :
    ∑ col, g col * row col = ∑ i : Fin k, g ⟨s.val * k + i.val, blk_lt s i⟩ * w i := by
  rw [← Equiv.sum_comp (finProdFinEquiv : Fin 10 × Fin k ≃ Fin (10 * k)), Fintype.sum_prod_type]
  have hidx : ∀ (s' : Fin 10) (i : Fin k),
      (finProdFinEquiv (s', i) : Fin (10 * k)) = ⟨s'.val * k + i.val, blk_lt s' i⟩ := by
    intro s' i
    apply Fin.ext
    show i.val + k * s'.val = s'.val * k + i.val
    rw [Nat.mul_comm, Nat.add_comm]
  rw [Finset.sum_eq_single s]
  · refine Finset.sum_congr rfl (fun i _ => ?_)
    rw [hidx, hrow s i, if_pos rfl, one_mul]
  · intro s' _ hne
    refine Finset.sum_eq_zero (fun i _ => ?_)
    rw [hidx, hrow s' i, if_neg (Ne.symm hne), zero_mul, mul_zero]
  · intro h
    exact absurd (Finset.mem_univ s) h

/-- A block-diagonal row over ten groups of 41 columns. -/
theorem blockdiag_sum41 (s : Fin 10) (g row : Fin 410 → EReal) (w : Fin 41 → EReal)
    (hrow : ∀ (s' : Fin 10) (i : Fin 41) (h : s'.val * 41 + i.val < 410),
      row ⟨s'.val * 41 + i.val, h⟩ = (if s = s' then (1 : EReal) else 0) * w i) :
    ∑ col : Fin 410, g col * row col = ∑ i : Fin 41, g ⟨s.val * 41 + i.val, blk_lt s i⟩ * w i :=
  blockdiag_row (k := 41) s g row w hrow

/-- A block-diagonal 410 x 410 matrix (ten blocks W of 41 x 41) against a packed vector. -/
theorem blockdiag_sum (g : Fin 410 → EReal) (S : Fin 410 → Fin 410 → EReal) (W : Fin 41 → Fin 41 → EReal)
    (hS : ∀ (s s' : Fin 10) (o i : Fin 41) (h : s.val * 41 + o.val < 410) (h' : s'.val * 41 + i.val < 410),
      S ⟨s.val * 41 + o.val, h⟩ ⟨s'.val * 41 + i.val, h'⟩ = (if s = s' then (1 : EReal) else 0) * W o i)
    (s : Fin 10) (o : Fin 41) :
    ∑ col : Fin 410, g col * S ⟨s.val * 41 + o.val, blk_lt s o⟩ col
      = ∑ i : Fin 41, g ⟨s.val * 41 + i.val, blk_lt s i⟩ * W o i :=
  blockdiag_sum41 s g (S ⟨s.val * 41 + o.val, blk_lt s o⟩) (W o) (fun s' i h => hS s s' o i _ h)

/-- A block-diagonal 220 x 410 matrix (ten blocks W3 of 22 x 41) against a packed vector. -/
theorem blockdiag_sum3 (g : Fin 410 → EReal) (S3 : Fin 220 → Fin 410 → EReal) (W3 : Fin 22 → Fin 41 → EReal)
    (hS : ∀ (s s' : Fin 10) (o : Fin 22) (i : Fin 41) (h : s.val * 22 + o.val < 220) (h' : s'.val * 41 + i.val < 410),
      S3 ⟨s.val * 22 + o.val, h⟩ ⟨s'.val * 41 + i.val, h'⟩ = (if s = s' then (1 : EReal) else 0) * W3 o i)
    (s : Fin 10) (o : Fin 22) :
    ∑ col : Fin 410, g col * S3 ⟨s.val * 22 + o.val, blk_lt s o⟩ col
      = ∑ i : Fin 41, g ⟨s.val * 41 + i.val, blk_lt s i⟩ * W3 o i :=
  blockdiag_sum41 s g (S3 ⟨s.val * 22 + o.val, blk_lt s o⟩) (W3 o) (fun s' i h => hS s s' o i _ h)

theorem withGate_castSucc (u : Fin 40 → EReal) (g : EReal) (i : Fin 40) :
    withGate u g (Fin.castSucc i) = u i := by
  unfold withGate
  rw [dif_pos (show (Fin.castSucc i).val < 40 from i.isLt)]
  rfl

theorem withGate_last (u : Fin 40 → EReal) (g : EReal) : withGate u g (Fin.last 40) = g := by
  unfold withGate
  rw [dif_neg (show ¬ (Fin.last 40).val < 40 from Nat.lt_irrefl 40)]

/-- The first layer's row: the packed columns are 400 group-major features (ten groups of 40) followed by the ten gate
    weights. If the row is w on the columns of group s (features 0..39 on the group's 40 columns, feature 40 on the
    group's gate column) and zero elsewhere, the sum over all columns is the sum of the group's features with its gate
    weight appended. -/
theorem blockdiag_first (s : Fin 10) (c Srow : Fin 410 → EReal) (w : Fin 41 → EReal)
    (h1 : ∀ (s' : Fin 10) (i : Fin 40) (h : s'.val * 40 + i.val < 410) (hi : i.val < 41),
      Srow ⟨s'.val * 40 + i.val, h⟩ = (if s = s' then (1 : EReal) else 0) * w ⟨i.val, hi⟩)
    (h2 : ∀ (s' : Fin 10) (h : 400 + s'.val < 410),
      Srow ⟨400 + s'.val, h⟩ = (if s = s' then (1 : EReal) else 0) * w ⟨40, by omega⟩) :
    ∑ col : Fin 410, c col * Srow col
      = ∑ i : Fin 41, withGate (fun i : Fin 40 => c ⟨s.val * 40 + i.val, by omega⟩) (c ⟨400 + s.val, by omega⟩) i * w i := by
  have e : ∑ col : Fin 410, c col * Srow col = ∑ col : Fin (400 + 10), c col * Srow col := rfl
  rw [e, Fin.sum_univ_add]
  conv_rhs => rw [Fin.sum_univ_castSucc, withGate_last]
  congr 1
  · have hA := blockdiag_row (k := 40) s (fun col : Fin (10 * 40) => c (Fin.castAdd 10 (col : Fin 400)))
      (fun col : Fin (10 * 40) => Srow (Fin.castAdd 10 (col : Fin 400))) (fun i : Fin 40 => w ⟨i.val, by omega⟩)
      (fun s' i h => h1 s' i _ _)
    refine hA.trans (Finset.sum_congr rfl (fun i _ => ?_))
    rw [withGate_castSucc]
    rfl
  · rw [Finset.sum_eq_single s]
    · have := h2 s (by omega)
      rw [if_pos rfl, one_mul] at this
      exact congrArg (fun z => c ⟨400 + s.val, by omega⟩ * z) this
    · intro s' _ hne
      have := h2 s' (by omega)
      rw [if_neg (Ne.symm hne), zero_mul] at this
      show c ⟨400 + s'.val, _⟩ * Srow ⟨400 + s'.val, _⟩ = 0
      rw [this, mul_zero]
    · intro h
      exact absurd (Finset.mem_univ s) h

/-- Two dense outputs agree when their sums and their biases agree. -/
theorem dense_congr {k k' n n' : ℕ} (x : Fin k → EReal) (W : Fin n → Fin k → EReal) (b : Fin n → EReal) (o : Fin n)
    (x' : Fin k' → EReal) (W' : Fin n' → Fin k' → EReal) (b' : Fin n' → EReal) (o' : Fin n')
    (hsum : ∑ i, x i * W o i = ∑ i, x' i * W' o' i) (hb : b o = b' o') :
    dense x W b o = dense x' W' b' o' := by
  unfold dense
  rw [hsum, hb]

/-- The packed tower: with block-diagonal weights (the first layer's columns laid out as 400 group-major features then
    ten gate weights) and biases repeated per group, output (s, j) of the packed tower is output j of the tower
    applied to group s with its gate weight appended. -/
theorem packed_mlp (S1 S2 : Fin 410 → Fin 410 → EReal) (S3 : Fin 220 → Fin 410 → EReal)
    (t1 t2 : Fin 410 → EReal) (t3 : Fin 220 → EReal)
    (W1 W2 : Fin 41 → Fin 41 → EReal) (W3 : Fin 22 → Fin 41 → EReal)
    (b1 b2 : Fin 41 → EReal) (b3 : Fin 22 → EReal)
    (hS1a : ∀ (s s' : Fin 10) (o : Fin 41) (i : Fin 40) (h : s.val * 41 + o.val < 410) (h' : s'.val * 40 + i.val < 410)
      (hi : i.val < 41),
      S1 ⟨s.val * 41 + o.val, h⟩ ⟨s'.val * 40 + i.val, h'⟩ = (if s = s' then (1 : EReal) else 0) * W1 o ⟨i.val, hi⟩)
    (hS1b : ∀ (s s' : Fin 10) (o : Fin 41) (h : s.val * 41 + o.val < 410) (h' : 400 + s'.val < 410),
      S1 ⟨s.val * 41 + o.val, h⟩ ⟨400 + s'.val, h'⟩ = (if s = s' then (1 : EReal) else 0) * W1 o ⟨40, by omega⟩)
    (hS2 : ∀ (s s' : Fin 10) (o i : Fin 41) (h : s.val * 41 + o.val < 410) (h' : s'.val * 41 + i.val < 410),
      S2 ⟨s.val * 41 + o.val, h⟩ ⟨s'.val * 41 + i.val, h'⟩ = (if s = s' then (1 : EReal) else 0) * W2 o i)
    (hS3 : ∀ (s s' : Fin 10) (o : Fin 22) (i : Fin 41) (h : s.val * 22 + o.val < 220) (h' : s'.val * 41 + i.val < 410),
      S3 ⟨s.val * 22 + o.val, h⟩ ⟨s'.val * 41 + i.val, h'⟩ = (if s = s' then (1 : EReal) else 0) * W3 o i)
    (ht1 : ∀ (s : Fin 10) (o : Fin 41) (h : s.val * 41 + o.val < 410), t1 ⟨s.val * 41 + o.val, h⟩ = b1 o)
    (ht2 : ∀ (s : Fin 10) (o : Fin 41) (h : s.val * 41 + o.val < 410), t2 ⟨s.val * 41 + o.val, h⟩ = b2 o)
    (ht3 : ∀ (s : Fin 10) (o : Fin 22) (h : s.val * 22 + o.val < 220), t3 ⟨s.val * 22 + o.val, h⟩ = b3 o)
    (c : Fin 410 → EReal) (s : Fin 10) (j : Fin 22) :
    mlp c S1 t1 S2 t2 S3 t3 ⟨s.val * 22 + j.val, blk_lt s j⟩
      = mlp (withGate (fun i : Fin 40 => c ⟨s.val * 40 + i.val, by omega⟩) (c ⟨400 + s.val, by omega⟩))
          W1 b1 W2 b2 W3 b3 j := by
  -- the first layer at (s, i)
  have L1 : ∀ i : Fin 41, dense c S1 t1 ⟨s.val * 41 + i.val, blk_lt s i⟩
      = dense (withGate (fun i : Fin 40 => c ⟨s.val * 40 + i.val, by omega⟩) (c ⟨400 + s.val, by omega⟩)) W1 b1 i := by
    intro i
    refine dense_congr _ _ _ _ _ _ _ _ ?_ (ht1 s i _)
    exact blockdiag_first s c (S1 ⟨s.val * 41 + i.val, blk_lt s i⟩) (W1 i)
      (fun s' i' h hi => hS1a s s' i i' _ h hi) (fun s' h => hS1b s s' i _ h)
  -- the second layer at (s, o)
  have L2 : ∀ o : Fin 41, dense (fun q => relu (dense c S1 t1 q)) S2 t2 ⟨s.val * 41 + o.val, blk_lt s o⟩
      = dense (fun q => relu (dense (withGate (fun i : Fin 40 => c ⟨s.val * 40 + i.val, by omega⟩)
          (c ⟨400 + s.val, by omega⟩)) W1 b1 q)) W2 b2 o := by
    intro o
    refine dense_congr _ _ _ _ _ _ _ _ ?_ (ht2 s o _)
    rw [blockdiag_sum _ S2 W2 hS2 s o]
    refine Finset.sum_congr rfl (fun i _ => ?_)
    show relu (dense c S1 t1 ⟨s.val * 41 + i.val, blk_lt s i⟩) * W2 o i = _
    rw [L1 i]
  -- the third layer at (s, j)
  unfold mlp
  refine dense_congr _ _ _ _ _ _ _ _ ?_ (ht3 s j _)
  rw [blockdiag_sum3 _ S3 W3 hS3 s j]
  refine Finset.sum_congr rfl (fun i _ => ?_)
  show relu (dense (fun q => relu (dense c S1 t1 q)) S2 t2 ⟨s.val * 41 + i.val, blk_lt s i⟩) * W3 j i = _
  rw [L2 i]

end Towers

end
-- ==== Proof.RowResult.lean ====
/-
  A stored block entry is the specification's result.

  Take a block of 1024 rows that are rows T*1024 .. T*1024 + 1023 of the input, first-tower weights that are the given
  ones, and second-tower weights packed block-diagonally: row 41 s + o, column 40 s' + i of the first packed matrix is
  [s = s'] * W1 (o, i), its column 400 + s' is [s = s'] * W1 (o, 40), the other two packed matrices are
  [s = s'] * W (o, i) at (n s + o, 41 s' + i), and the packed biases repeat the biases ten times. Then entry
  (r, 22 s + j) of what the body stores is the result at (T*1024 + r, s, j): the packed layers act on each group
  separately, because the other groups meet a zero factor.
-/
import proofs.«147875_j429496729976_2_alg».proof.Proof.KernelPayload
import proofs.«147875_j429496729976_2_alg».proof.Proof.PackedTower

noncomputable section

namespace Cert.KernelIdeal.Rows

open Cert.KernelIdeal Cert.KernelIdeal.Gen Idealize.ShloMosaic Idealize.ShloMosaic.ValueIdx Towers

/-- The block the body stores, from the staged blocks. -/
def storedBlock (x0 : FVec Ideal S1024x440 .f32) (x1 : FVec Ideal S40x40 .bf16) (x2 : FVec Ideal S40 .f32) (x3 : FVec Ideal S40x40 .bf16)
    (x4 : FVec Ideal S40 .f32) (x5 : FVec Ideal S10x40 .bf16) (x6 : FVec Ideal S10 .f32) (x7 : FVec Ideal S410x410 .bf16) (x8 : FVec Ideal S410 .f32)
    (x9 : FVec Ideal S410x410 .bf16) (x10 : FVec Ideal S410 .f32) (x11 : FVec Ideal S220x410 .bf16) (x12 : FVec Ideal S220 .f32) :
    FVec Ideal S1024x220 .f32 :=
  stored (packedLogits (packedIn (truncf .bf16 x0 bitsLt_bf16_f32) (gateBlock x0 x1 x2 x3 x4 x5 x6)) x7 x8 x9 x10 x11 x12)
    (gateBlock x0 x1 x2 x3 x4 x5 x6)

variable (X : (⟨2, ![262144, 440]⟩ : Shape).Idx → EReal)
  (bW1 : (⟨2, ![40, 40]⟩ : Shape).Idx → EReal) (bb1 : (⟨1, ![40]⟩ : Shape).Idx → EReal)
  (bW2 : (⟨2, ![40, 40]⟩ : Shape).Idx → EReal) (bb2 : (⟨1, ![40]⟩ : Shape).Idx → EReal)
  (bW3 : (⟨2, ![10, 40]⟩ : Shape).Idx → EReal) (bb3 : (⟨1, ![10]⟩ : Shape).Idx → EReal)
  (sW1 : (⟨2, ![41, 41]⟩ : Shape).Idx → EReal) (sb1 : (⟨1, ![41]⟩ : Shape).Idx → EReal)
  (sW2 : (⟨2, ![41, 41]⟩ : Shape).Idx → EReal) (sb2 : (⟨1, ![41]⟩ : Shape).Idx → EReal)
  (sW3 : (⟨2, ![22, 41]⟩ : Shape).Idx → EReal) (sb3 : (⟨1, ![22]⟩ : Shape).Idx → EReal)

/-- The gate weights of the block are the gate weights of the rows it holds. -/
theorem gateBlock_rows (x0 : FVec Ideal S1024x440 .f32) (T : ℕ) (hT : T < 256)
    (hx : ∀ (r : Fin 1024) (k : Fin 440), x0 (ix2 r k) = X (ix2 (⟨T * 1024 + r.val, by omega⟩ : Fin 262144) k))
    (r : Fin 1024) (s : Fin 10) :
    gateBlock x0 bW1 bb1 bW2 bb2 bW3 bb3 (ix2 r s) = gate X bW1 bb1 bW2 bb2 bW3 bb3 (⟨T * 1024 + r.val, by omega⟩ : Fin 262144) s := by
  rw [gateBlock_apply]
  unfold gate
  refine congrArg (fun f => softmax (mlp f (mat bW1) (vec bb1) (mat bW2) (vec bb2) (mat bW3) (vec bb3)) s) (funext fun k => ?_)
  exact hx r _

theorem storedBlock_apply (x0 : FVec Ideal S1024x440 .f32) (x7 : FVec Ideal S410x410 .bf16) (x8 : FVec Ideal S410 .f32)
    (x9 : FVec Ideal S410x410 .bf16) (x10 : FVec Ideal S410 .f32) (x11 : FVec Ideal S220x410 .bf16) (x12 : FVec Ideal S220 .f32)
    (T : ℕ) (hT : T < 256)
    (hx : ∀ (r : Fin 1024) (k : Fin 440), x0 (ix2 r k) = X (ix2 (⟨T * 1024 + r.val, by omega⟩ : Fin 262144) k))
    (h7a : ∀ (s s' : Fin 10) (o : Fin 41) (i : Fin 40) (h : s.val * 41 + o.val < 410) (h' : s'.val * 40 + i.val < 410) (hi : i.val < 41),
      x7 (ix2 ⟨s.val * 41 + o.val, h⟩ ⟨s'.val * 40 + i.val, h'⟩) = (if s = s' then (1 : EReal) else 0) * sW1 (ix2 o ⟨i.val, hi⟩))
    (h7b : ∀ (s s' : Fin 10) (o : Fin 41) (h : s.val * 41 + o.val < 410) (h' : 400 + s'.val < 410),
      x7 (ix2 ⟨s.val * 41 + o.val, h⟩ ⟨400 + s'.val, h'⟩) = (if s = s' then (1 : EReal) else 0) * sW1 (ix2 o ⟨40, by omega⟩))
    (h9 : ∀ (s s' : Fin 10) (o i : Fin 41) (h : s.val * 41 + o.val < 410) (h' : s'.val * 41 + i.val < 410),
      x9 (ix2 ⟨s.val * 41 + o.val, h⟩ ⟨s'.val * 41 + i.val, h'⟩) = (if s = s' then (1 : EReal) else 0) * sW2 (ix2 o i))
    (h11 : ∀ (s s' : Fin 10) (o : Fin 22) (i : Fin 41) (h : s.val * 22 + o.val < 220) (h' : s'.val * 41 + i.val < 410),
      x11 (ix2 ⟨s.val * 22 + o.val, h⟩ ⟨s'.val * 41 + i.val, h'⟩) = (if s = s' then (1 : EReal) else 0) * sW3 (ix2 o i))
    (h8 : ∀ (s : Fin 10) (o : Fin 41) (h : s.val * 41 + o.val < 410), x8 (ix1 ⟨s.val * 41 + o.val, h⟩) = sb1 (ix1 o))
    (h10 : ∀ (s : Fin 10) (o : Fin 41) (h : s.val * 41 + o.val < 410), x10 (ix1 ⟨s.val * 41 + o.val, h⟩) = sb2 (ix1 o))
    (h12 : ∀ (s : Fin 10) (o : Fin 22) (h : s.val * 22 + o.val < 220), x12 (ix1 ⟨s.val * 22 + o.val, h⟩) = sb3 (ix1 o))
    (r : Fin 1024) (s : Fin 10) (j : Fin 22) (c : Fin 220) (hc : c.val = s.val * 22 + j.val) :
    storedBlock x0 bW1 bb1 bW2 bb2 bW3 bb3 x7 x8 x9 x10 x11 x12 (ix2 r c)
      = result X bW1 bb1 bW2 bb2 bW3 bb3 sW1 sb1 sW2 sb2 sW3 sb3 (⟨T * 1024 + r.val, by omega⟩ : Fin 262144) s j := by
  unfold storedBlock
  rw [stored_apply _ _ r s j c hc, gateBlock_rows X bW1 bb1 bW2 bb2 bW3 bb3 x0 T hT hx r s]
  unfold result
  refine congrArg (· * gate X bW1 bb1 bW2 bb2 bW3 bb3 (⟨T * 1024 + r.val, by omega⟩ : Fin 262144) s)
    (congrArg (fun f => softmax f j) (funext fun k => ?_))
  rw [packedLogits_apply]
  refine (packed_mlp (mat x7) (mat x9) (mat x11) (vec x8) (vec x10) (vec x12) (mat sW1) (mat sW2) (mat sW3) (vec sb1) (vec sb2) (vec sb3)
    h7a h7b h9 h11 h8 h10 h12 _ s k).trans ?_
  refine congrArg (fun f => mlp f (mat sW1) (vec sb1) (mat sW2) (vec sb2) (mat sW3) (vec sb3) k) ?_
  have hg : packedIn (truncf .bf16 x0 bitsLt_bf16_f32) (gateBlock x0 bW1 bb1 bW2 bb2 bW3 bb3) (ix2 r (⟨400 + s.val, by omega⟩ : Fin 410))
      = gate X bW1 bb1 bW2 bb2 bW3 bb3 (⟨T * 1024 + r.val, by omega⟩ : Fin 262144) s :=
    (packedIn_right _ _ r _ s rfl).trans (gateBlock_rows X bW1 bb1 bW2 bb2 bW3 bb3 x0 T hT hx r s)
  rw [hg]
  refine congrArg (fun u => withGate u (gate X bW1 bb1 bW2 bb2 bW3 bb3 (⟨T * 1024 + r.val, by omega⟩ : Fin 262144) s)) (funext fun i => ?_)
  refine (packedIn_left _ _ r _ (⟨40 + (s.val * 40 + i.val), by omega⟩ : Fin 440) (by show s.val * 40 + i.val < 400; omega) rfl).trans ?_
  exact hx r _

end Cert.KernelIdeal.Rows

end
-- ==== Proof.KernelBlocks.lean ====
/-
  The blocks the kernel's grid points read.

  The grid has 256 points. At point t the first window is rows 1024 t .. 1024 t + 1023 of the input, the output window is the
  same rows of the [262144, 220] result, and every other window is the whole of its (small) array. After the body the
  output's staging buffer holds the stored block of the staged blocks.
-/
import proofs.«147875_j429496729976_2_alg».proof.Proof.Gen.KernelIdeal.Frame
import proofs.«147875_j429496729976_2_alg».proof.Proof.RowResult

set_option maxRecDepth 16384

noncomputable section

namespace Cert.KernelIdeal.Blocks

open Cert.KernelIdeal Cert.KernelIdeal.Gen Cert.KernelIdeal.Rows Idealize.ShloMosaic Idealize.ShloMosaic.ValueIdx Towers
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- What the body leaves in the output's staging buffer is the stored block of the staged blocks. -/
theorem out_eq (x0 : Vec Ideal S1024x440 .f32) (x1 : Vec Ideal S40x40 .bf16) (x2 : Vec Ideal S40 .f32) (x3 : Vec Ideal S40x40 .bf16)
    (x4 : Vec Ideal S40 .f32) (x5 : Vec Ideal S10x40 .bf16) (x6 : Vec Ideal S10 .f32) (x7 : Vec Ideal S410x410 .bf16) (x8 : Vec Ideal S410 .f32)
    (x9 : Vec Ideal S410x410 .bf16) (x10 : Vec Ideal S410 .f32) (x11 : Vec Ideal S220x410 .bf16) (x12 : Vec Ideal S220 .f32) :
    out0_13 x0 x1 x2 x3 x4 x5 x6 x7 x8 x9 x10 x11 x12 = storedBlock x0 x1 x2 x3 x4 x5 x6 x7 x8 x9 x10 x11 x12 := by
  unfold out0_13
  rw [View.canon_unit_zero hz2]
  simp only [View.ld_unit_zero (S := S1024x440) hz2, View.ld_unit_zero (S := S40x40) hz2, View.ld_unit_zero (S := S40) hz1,
    View.ld_unit_zero (S := S10x40) hz2, View.ld_unit_zero (S := S10) hz1, View.ld_unit_zero (S := S410x410) hz2,
    View.ld_unit_zero (S := S410) hz1, View.ld_unit_zero (S := S220x410) hz2, View.ld_unit_zero (S := S220) hz1]
  rfl

/-- The printed index maps, decided over the grid. -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_7.index t (0 : Fin 2) = 0
    ∧ win0_7.index t (1 : Fin 2) = 0
    ∧ win0_9.index t (0 : Fin 2) = 0
    ∧ win0_9.index t (1 : Fin 2) = 0
    ∧ win0_11.index t (0 : Fin 2) = 0
    ∧ win0_11.index t (1 : Fin 2) = 0
    ∧ win0_2.index t (0 : Fin 1) = 0
    ∧ win0_4.index t (0 : Fin 1) = 0
    ∧ win0_6.index t (0 : Fin 1) = 0
    ∧ win0_8.index t (0 : Fin 1) = 0
    ∧ win0_10.index t (0 : Fin 1) = 0
    ∧ win0_12.index t (0 : Fin 1) = 0 :=
  (by decide +kernel : ∀ t : Fin grid0.N, _)

variable (m : (ℓ : Loc nD τ sig) → Buf (Elt Ideal) ℓ)

/-- The first window's block at point t is rows 1024 t .. of the input. -/
theorem iblk0_apply (c : Dev nD) (t : Fin cfg0.N) (r : Fin 1024) (k : Fin 440) (R : Fin 262144) (hR : R.val = t.val * 1024 + r.val) :
    iblk m c 0 t (ix2 r k) = V m c main_arg0 (ix2 R k) := by
  obtain ⟨e0a, e0b, e13a, e13b, e1a, e1b, e3a, e3b, e5a, e5b, e7a, e7b, e9a, e9b, e11a, e11b, e2, e4, e6, e8, e10, e12⟩ := idx_facts t
  show V m c main_arg0 (((cfg0.win 0).blk t).view.emb (ix2 r k)) = V m c main_arg0 (ix2 R k)
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 440 + 1 * k.val = k.val; omega

/-- Window 1's block at any point is the whole of its array. -/
theorem iblk1_apply (c : Dev nD) (t : Fin cfg0.N) (o : Fin 40) (i : Fin 40) :
    iblk m c 1 t (ix2 o i) = V m c main_v22 (ix2 o i) := by
  obtain ⟨e0a, e0b, e13a, e13b, e1a, e1b, e3a, e3b, e5a, e5b, e7a, e7b, e9a, e9b, e11a, e11b, e2, e4, e6, e8, e10, e12⟩ := idx_facts t
  show V m c main_v22 (((cfg0.win 1).blk t).view.emb (ix2 o i)) = V m c main_v22 (ix2 o i)
  refine congrArg (V m c main_v22) (funext fun a => Fin.ext ?_)
  match a with
  | ⟨0, _⟩ => show win0_1.index t (0 : Fin 2) * 40 + 1 * o.val = o.val; omega
  | ⟨1, _⟩ => show win0_1.index t (1 : Fin 2) * 40 + 1 * i.val = i.val; omega

/-- Window 3's block at any point is the whole of its array. -/
theorem iblk3_apply (c : Dev nD) (t : Fin cfg0.N) (o : Fin 40) (i : Fin 40) :
    iblk m c 3 t (ix2 o i) = V m c main_v23 (ix2 o i) := by
  obtain ⟨e0a, e0b, e13a, e13b, e1a, e1b, e3a, e3b, e5a, e5b, e7a, e7b, e9a, e9b, e11a, e11b, e2, e4, e6, e8, e10, e12⟩ := idx_facts t
  show V m c main_v23 (((cfg0.win 3).blk t).view.emb (ix2 o i)) = V m c main_v23 (ix2 o i)
  refine congrArg (V m c main_v23) (funext fun a => Fin.ext ?_)
  match a with
  | ⟨0, _⟩ => show win0_3.index t (0 : Fin 2) * 40 + 1 * o.val = o.val; omega
  | ⟨1, _⟩ => show win0_3.index t (1 : Fin 2) * 40 + 1 * i.val = i.val; omega

/-- Window 5's block at any point is the whole of its array. -/
theorem iblk5_apply (c : Dev nD) (t : Fin cfg0.N) (o : Fin 10) (i : Fin 40) :
    iblk m c 5 t (ix2 o i) = V m c main_v24 (ix2 o i) := by
  obtain ⟨e0a, e0b, e13a, e13b, e1a, e1b, e3a, e3b, e5a, e5b, e7a, e7b, e9a, e9b, e11a, e11b, e2, e4, e6, e8, e10, e12⟩ := idx_facts t
  show V m c main_v24 (((cfg0.win 5).blk t).view.emb (ix2 o i)) = V m c main_v24 (ix2 o i)
  refine congrArg (V m c main_v24) (funext fun a => Fin.ext ?_)
  match a with
  | ⟨0, _⟩ => show win0_5.index t (0 : Fin 2) * 10 + 1 * o.val = o.val; omega
  | ⟨1, _⟩ => show win0_5.index t (1 : Fin 2) * 40 + 1 * i.val = i.val; omega

/-- Window 7's block at any point is the whole of its array. -/
theorem iblk7_apply (c : Dev nD) (t : Fin cfg0.N) (o : Fin 410) (i : Fin 410) :
    iblk m c 7 t (ix2 o i) = V m c main_v25 (ix2 o i) := by
  obtain ⟨e0a, e0b, e13a, e13b, e1a, e1b, e3a, e3b, e5a, e5b, e7a, e7b, e9a, e9b, e11a, e11b, e2, e4, e6, e8, e10, e12⟩ := idx_facts t
  show V m c main_v25 (((cfg0.win 7).blk t).view.emb (ix2 o i)) = V m c main_v25 (ix2 o i)
  refine congrArg (V m c main_v25) (funext fun a => Fin.ext ?_)
  match a with
  | ⟨0, _⟩ => show win0_7.index t (0 : Fin 2) * 410 + 1 * o.val = o.val; omega
  | ⟨1, _⟩ => show win0_7.index t (1 : Fin 2) * 410 + 1 * i.val = i.val; omega

/-- Window 9's block at any point is the whole of its array. -/
theorem iblk9_apply (c : Dev nD) (t : Fin cfg0.N) (o : Fin 410) (i : Fin 410) :
    iblk m c 9 t (ix2 o i) = V m c main_v26 (ix2 o i) := by
  obtain ⟨e0a, e0b, e13a, e13b, e1a, e1b, e3a, e3b, e5a, e5b, e7a, e7b, e9a, e9b, e11a, e11b, e2, e4, e6, e8, e10, e12⟩ := idx_facts t
  show V m c main_v26 (((cfg0.win 9).blk t).view.emb (ix2 o i)) = V m c main_v26 (ix2 o i)
  refine congrArg (V m c main_v26) (funext fun a => Fin.ext ?_)
  match a with
  | ⟨0, _⟩ => show win0_9.index t (0 : Fin 2) * 410 + 1 * o.val = o.val; omega
  | ⟨1, _⟩ => show win0_9.index t (1 : Fin 2) * 410 + 1 * i.val = i.val; omega

/-- Window 11's block at any point is the whole of its array. -/
theorem iblk11_apply (c : Dev nD) (t : Fin cfg0.N) (o : Fin 220) (i : Fin 410) :
    iblk m c 11 t (ix2 o i) = V m c main_v27 (ix2 o i) := by
  obtain ⟨e0a, e0b, e13a, e13b, e1a, e1b, e3a, e3b, e5a, e5b, e7a, e7b, e9a, e9b, e11a, e11b, e2, e4, e6, e8, e10, e12⟩ := idx_facts t
  show V m c main_v27 (((cfg0.win 11).blk t).view.emb (ix2 o i)) = V m c main_v27 (ix2 o i)
  refine congrArg (V m c main_v27) (funext fun a => Fin.ext ?_)
  match a with
  | ⟨0, _⟩ => show win0_11.index t (0 : Fin 2) * 220 + 1 * o.val = o.val; omega
  | ⟨1, _⟩ => show win0_11.index t (1 : Fin 2) * 410 + 1 * i.val = i.val; omega

/-- Window 2's block at any point is the whole of its array. -/
theorem iblk2_apply (c : Dev nD) (t : Fin cfg0.N) (o : Fin 40) :
    iblk m c 2 t (ix1 o) = V m c main_arg2 (ix1 o) := by
  obtain ⟨e0a, e0b, e13a, e13b, e1a, e1b, e3a, e3b, e5a, e5b, e7a, e7b, e9a, e9b, e11a, e11b, e2, e4, e6, e8, e10, e12⟩ := idx_facts t
  show V m c main_arg2 (((cfg0.win 2).blk t).view.emb (ix1 o)) = V m c main_arg2 (ix1 o)
  refine congrArg (V m c main_arg2) (funext fun a => Fin.ext ?_)
  match a with
  | ⟨0, _⟩ => show win0_2.index t (0 : Fin 1) * 40 + 1 * o.val = o.val; omega

/-- Window 4's block at any point is the whole of its array. -/
theorem iblk4_apply (c : Dev nD) (t : Fin cfg0.N) (o : Fin 40) :
    iblk m c 4 t (ix1 o) = V m c main_arg4 (ix1 o) := by
  obtain ⟨e0a, e0b, e13a, e13b, e1a, e1b, e3a, e3b, e5a, e5b, e7a, e7b, e9a, e9b, e11a, e11b, e2, e4, e6, e8, e10, e12⟩ := idx_facts t
  show V m c main_arg4 (((cfg0.win 4).blk t).view.emb (ix1 o)) = V m c main_arg4 (ix1 o)
  refine congrArg (V m c main_arg4) (funext fun a => Fin.ext ?_)
  match a with
  | ⟨0, _⟩ => show win0_4.index t (0 : Fin 1) * 40 + 1 * o.val = o.val; omega

/-- Window 6's block at any point is the whole of its array. -/
theorem iblk6_apply (c : Dev nD) (t : Fin cfg0.N) (o : Fin 10) :
    iblk m c 6 t (ix1 o) = V m c main_arg6 (ix1 o) := by
  obtain ⟨e0a, e0b, e13a, e13b, e1a, e1b, e3a, e3b, e5a, e5b, e7a, e7b, e9a, e9b, e11a, e11b, e2, e4, e6, e8, e10, e12⟩ := idx_facts t
  show V m c main_arg6 (((cfg0.win 6).blk t).view.emb (ix1 o)) = V m c main_arg6 (ix1 o)
  refine congrArg (V m c main_arg6) (funext fun a => Fin.ext ?_)
  match a with
  | ⟨0, _⟩ => show win0_6.index t (0 : Fin 1) * 10 + 1 * o.val = o.val; omega

/-- Window 8's block at any point is the whole of its array. -/
theorem iblk8_apply (c : Dev nD) (t : Fin cfg0.N) (o : Fin 410) :
    iblk m c 8 t (ix1 o) = V m c main_v15 (ix1 o) := by
  obtain ⟨e0a, e0b, e13a, e13b, e1a, e1b, e3a, e3b, e5a, e5b, e7a, e7b, e9a, e9b, e11a, e11b, e2, e4, e6, e8, e10, e12⟩ := idx_facts t
  show V m c main_v15 (((cfg0.win 8).blk t).view.emb (ix1 o)) = V m c main_v15 (ix1 o)
  refine congrArg (V m c main_v15) (funext fun a => Fin.ext ?_)
  match a with
  | ⟨0, _⟩ => show win0_8.index t (0 : Fin 1) * 410 + 1 * o.val = o.val; omega

/-- Window 10's block at any point is the whole of its array. -/
theorem iblk10_apply (c : Dev nD) (t : Fin cfg0.N) (o : Fin 410) :
    iblk m c 10 t (ix1 o) = V m c main_v18 (ix1 o) := by
  obtain ⟨e0a, e0b, e13a, e13b, e1a, e1b, e3a, e3b, e5a, e5b, e7a, e7b, e9a, e9b, e11a, e11b, e2, e4, e6, e8, e10, e12⟩ := idx_facts t
  show V m c main_v18 (((cfg0.win 10).blk t).view.emb (ix1 o)) = V m c main_v18 (ix1 o)
  refine congrArg (V m c main_v18) (funext fun a => Fin.ext ?_)
  match a with
  | ⟨0, _⟩ => show win0_10.index t (0 : Fin 1) * 410 + 1 * o.val = o.val; omega

/-- Window 12's block at any point is the whole of its array. -/
theorem iblk12_apply (c : Dev nD) (t : Fin cfg0.N) (o : Fin 220) :
    iblk m c 12 t (ix1 o) = V m c main_v21 (ix1 o) := by
  obtain ⟨e0a, e0b, e13a, e13b, e1a, e1b, e3a, e3b, e5a, e5b, e7a, e7b, e9a, e9b, e11a, e11b, e2, e4, e6, e8, e10, e12⟩ := idx_facts t
  show V m c main_v21 (((cfg0.win 12).blk t).view.emb (ix1 o)) = V m c main_v21 (ix1 o)
  refine congrArg (V m c main_v21) (funext fun a => Fin.ext ?_)
  match a with
  | ⟨0, _⟩ => show win0_12.index t (0 : Fin 1) * 220 + 1 * o.val = o.val; omega

end Cert.KernelIdeal.Blocks

end
-- ==== Proof.KernelArray.lean ====
/-
  From the blocks to the whole result.

  Point t of the grid writes back rows 1024 t .. 1024 t + 1023 of a [262144, 220] array; every row lies in exactly one such
  block, so after the region the array holds, at (R, c), the result at (R, c / 22, c % 22). The program's last operation
  reshapes it to [262144, 10, 22], where entry (R, s, j) is entry (R, 22 s + j) of the flat array: the result at (R, s, j).
-/
import proofs.«147875_j429496729976_2_alg».proof.Proof.KernelBlocks
import Idealize.ShloMosaic.Lib.StableHlo.Run

set_option maxRecDepth 16384

noncomputable section

namespace Cert.KernelIdeal.Blocks

open Cert.KernelIdeal Cert.KernelIdeal.Gen Cert.KernelIdeal.Rows Idealize.ShloMosaic Idealize.ShloMosaic.ValueIdx Towers
open Idealize.ShloMosaic.TcCoe Idealize.SL.Sem
open Idealize.ShloMosaic.Pipeline (Dat Cfg Window)

variable (m : (ℓ : Loc nD τ sig) → Buf (Elt Ideal) ℓ)

/-- What the arrays the host builds before the region hold, entry by entry: the first-tower weights unchanged (their
    change of float format is the identity), the second-tower weights packed block-diagonally, the biases repeated. -/
structure PackedFacts : Prop where
  w1 : ∀ (c : Dev nD) (o i : Fin 40), V m c main_v22 (ix2 o i) = (m ((c : Thread nD τ).loc main_arg1)) (ix2 o i)
  w2 : ∀ (c : Dev nD) (o i : Fin 40), V m c main_v23 (ix2 o i) = (m ((c : Thread nD τ).loc main_arg3)) (ix2 o i)
  w3 : ∀ (c : Dev nD) (o : Fin 10) (i : Fin 40), V m c main_v24 (ix2 o i) = (m ((c : Thread nD τ).loc main_arg5)) (ix2 o i)
  s1a : ∀ (c : Dev nD) (s s' : Fin 10) (o : Fin 41) (i : Fin 40) (h : s.val * 41 + o.val < 410) (h' : s'.val * 40 + i.val < 410) (hi : i.val < 41),
    V m c main_v25 (ix2 ⟨s.val * 41 + o.val, h⟩ ⟨s'.val * 40 + i.val, h'⟩) = (if s = s' then (1 : EReal) else 0) * (m ((c : Thread nD τ).loc main_arg7)) (ix2 o ⟨i.val, hi⟩)
  s1b : ∀ (c : Dev nD) (s s' : Fin 10) (o : Fin 41) (h : s.val * 41 + o.val < 410) (h' : 400 + s'.val < 410),
    V m c main_v25 (ix2 ⟨s.val * 41 + o.val, h⟩ ⟨400 + s'.val, h'⟩) = (if s = s' then (1 : EReal) else 0) * (m ((c : Thread nD τ).loc main_arg7)) (ix2 o ⟨40, by omega⟩)
  s2 : ∀ (c : Dev nD) (s s' : Fin 10) (o i : Fin 41) (h : s.val * 41 + o.val < 410) (h' : s'.val * 41 + i.val < 410),
    V m c main_v26 (ix2 ⟨s.val * 41 + o.val, h⟩ ⟨s'.val * 41 + i.val, h'⟩) = (if s = s' then (1 : EReal) else 0) * (m ((c : Thread nD τ).loc main_arg9)) (ix2 o i)
  s3 : ∀ (c : Dev nD) (s s' : Fin 10) (o : Fin 22) (i : Fin 41) (h : s.val * 22 + o.val < 220) (h' : s'.val * 41 + i.val < 410),
    V m c main_v27 (ix2 ⟨s.val * 22 + o.val, h⟩ ⟨s'.val * 41 + i.val, h'⟩) = (if s = s' then (1 : EReal) else 0) * (m ((c : Thread nD τ).loc main_arg11)) (ix2 o i)
  t1 : ∀ (c : Dev nD) (s : Fin 10) (o : Fin 41) (h : s.val * 41 + o.val < 410), V m c main_v15 (ix1 ⟨s.val * 41 + o.val, h⟩) = (m ((c : Thread nD τ).loc main_arg8)) (ix1 o)
  t2 : ∀ (c : Dev nD) (s : Fin 10) (o : Fin 41) (h : s.val * 41 + o.val < 410), V m c main_v18 (ix1 ⟨s.val * 41 + o.val, h⟩) = (m ((c : Thread nD τ).loc main_arg10)) (ix1 o)
  t3 : ∀ (c : Dev nD) (s : Fin 10) (o : Fin 22) (h : s.val * 22 + o.val < 220), V m c main_v21 (ix1 ⟨s.val * 22 + o.val, h⟩) = (m ((c : Thread nD τ).loc main_arg12)) (ix1 o)

/-- The stored block with the first tower's staged weights replaced by the given ones. -/
theorem storedBlock_apply' (X : (⟨2, ![262144, 440]⟩ : Shape).Idx → EReal)
    (bW1 : (⟨2, ![40, 40]⟩ : Shape).Idx → EReal) (bb1 : (⟨1, ![40]⟩ : Shape).Idx → EReal)
    (bW2 : (⟨2, ![40, 40]⟩ : Shape).Idx → EReal) (bb2 : (⟨1, ![40]⟩ : Shape).Idx → EReal)
    (bW3 : (⟨2, ![10, 40]⟩ : Shape).Idx → EReal) (bb3 : (⟨1, ![10]⟩ : Shape).Idx → EReal)
    (sW1 : (⟨2, ![41, 41]⟩ : Shape).Idx → EReal) (sb1 : (⟨1, ![41]⟩ : Shape).Idx → EReal)
    (sW2 : (⟨2, ![41, 41]⟩ : Shape).Idx → EReal) (sb2 : (⟨1, ![41]⟩ : Shape).Idx → EReal)
    (sW3 : (⟨2, ![22, 41]⟩ : Shape).Idx → EReal) (sb3 : (⟨1, ![22]⟩ : Shape).Idx → EReal)
    (x0 : FVec Ideal S1024x440 .f32) (x1 : FVec Ideal S40x40 .bf16) (x2 : FVec Ideal S40 .f32) (x3 : FVec Ideal S40x40 .bf16)
    (x4 : FVec Ideal S40 .f32) (x5 : FVec Ideal S10x40 .bf16) (x6 : FVec Ideal S10 .f32) (x7 : FVec Ideal S410x410 .bf16) (x8 : FVec Ideal S410 .f32)
    (x9 : FVec Ideal S410x410 .bf16) (x10 : FVec Ideal S410 .f32) (x11 : FVec Ideal S220x410 .bf16) (x12 : FVec Ideal S220 .f32)
    (T : ℕ) (hT : T < 256)
    (hx : ∀ (r : Fin 1024) (k : Fin 440), x0 (ix2 r k) = X (ix2 (⟨T * 1024 + r.val, by omega⟩ : Fin 262144) k))
    (h1 : ∀ o i, x1 (ix2 o i) = bW1 (ix2 o i)) (h2 : ∀ o, x2 (ix1 o) = bb1 (ix1 o))
    (h3 : ∀ o i, x3 (ix2 o i) = bW2 (ix2 o i)) (h4 : ∀ o, x4 (ix1 o) = bb2 (ix1 o))
    (h5 : ∀ o i, x5 (ix2 o i) = bW3 (ix2 o i)) (h6 : ∀ o, x6 (ix1 o) = bb3 (ix1 o))
    (h7a : ∀ (s s' : Fin 10) (o : Fin 41) (i : Fin 40) (h : s.val * 41 + o.val < 410) (h' : s'.val * 40 + i.val < 410) (hi : i.val < 41),
      x7 (ix2 ⟨s.val * 41 + o.val, h⟩ ⟨s'.val * 40 + i.val, h'⟩) = (if s = s' then (1 : EReal) else 0) * sW1 (ix2 o ⟨i.val, hi⟩))
    (h7b : ∀ (s s' : Fin 10) (o : Fin 41) (h : s.val * 41 + o.val < 410) (h' : 400 + s'.val < 410),
      x7 (ix2 ⟨s.val * 41 + o.val, h⟩ ⟨400 + s'.val, h'⟩) = (if s = s' then (1 : EReal) else 0) * sW1 (ix2 o ⟨40, by omega⟩))
    (h9 : ∀ (s s' : Fin 10) (o i : Fin 41) (h : s.val * 41 + o.val < 410) (h' : s'.val * 41 + i.val < 410),
      x9 (ix2 ⟨s.val * 41 + o.val, h⟩ ⟨s'.val * 41 + i.val, h'⟩) = (if s = s' then (1 : EReal) else 0) * sW2 (ix2 o i))
    (h11 : ∀ (s s' : Fin 10) (o : Fin 22) (i : Fin 41) (h : s.val * 22 + o.val < 220) (h' : s'.val * 41 + i.val < 410),
      x11 (ix2 ⟨s.val * 22 + o.val, h⟩ ⟨s'.val * 41 + i.val, h'⟩) = (if s = s' then (1 : EReal) else 0) * sW3 (ix2 o i))
    (h8 : ∀ (s : Fin 10) (o : Fin 41) (h : s.val * 41 + o.val < 410), x8 (ix1 ⟨s.val * 41 + o.val, h⟩) = sb1 (ix1 o))
    (h10 : ∀ (s : Fin 10) (o : Fin 41) (h : s.val * 41 + o.val < 410), x10 (ix1 ⟨s.val * 41 + o.val, h⟩) = sb2 (ix1 o))
    (h12 : ∀ (s : Fin 10) (o : Fin 22) (h : s.val * 22 + o.val < 220), x12 (ix1 ⟨s.val * 22 + o.val, h⟩) = sb3 (ix1 o))
    (r : Fin 1024) (s : Fin 10) (j : Fin 22) (c : Fin 220) (hc : c.val = s.val * 22 + j.val) :
    storedBlock x0 x1 x2 x3 x4 x5 x6 x7 x8 x9 x10 x11 x12 (ix2 r c)
      = result X bW1 bb1 bW2 bb2 bW3 bb3 sW1 sb1 sW2 sb2 sW3 sb3 (⟨T * 1024 + r.val, by omega⟩ : Fin 262144) s j := by
  have e1 : x1 = bW1 := funext fun idx => by rw [eq_ix2 idx]; exact h1 _ _
  have e2 : x2 = bb1 := funext fun idx => by rw [eq_ix1 idx]; exact h2 _
  have e3 : x3 = bW2 := funext fun idx => by rw [eq_ix2 idx]; exact h3 _ _
  have e4 : x4 = bb2 := funext fun idx => by rw [eq_ix1 idx]; exact h4 _
  have e5 : x5 = bW3 := funext fun idx => by rw [eq_ix2 idx]; exact h5 _ _
  have e6 : x6 = bb3 := funext fun idx => by rw [eq_ix1 idx]; exact h6 _
  subst e1 e2 e3 e4 e5 e6
  exact storedBlock_apply X x1 x2 x3 x4 x5 x6 sW1 sb1 sW2 sb2 sW3 sb3 x0 x7 x8 x9 x10 x11 x12 T hT hx h7a h7b h9 h11 h8 h10 h12 r s j c hc

/-- The [262144, 220] array the region leaves: at (R, c) the result at (R, c / 22, c % 22). -/
def flat (c : Dev nD) : S262144x220.Idx → Elt Ideal .f32 := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (i 0) (⟨(i 1).val / 22, by have := idx2_lt1 i; omega⟩ : Fin 10) (⟨(i 1).val % 22, by omega⟩ : Fin 22)

variable (hp : PackedFacts m)
include hp

/-- An entry of the block point t leaves, under the packed-weight facts. -/
theorem stored_point (c : Dev nD) (t : Fin cfg0.N) (r : Fin 1024) (col : Fin 220) (R : Fin 262144) (hR : R.val = t.val * 1024 + r.val) :
    storedBlock (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r col)
      = flat m c (ix2 R col) := by
  have hN : cfg0.N = 256 := N_0
  have hT : t.val < 256 := by have := t.isLt; omega
  have hb : t.val * 1024 + r.val < 262144 := by clear hR; omega
  have hRR : R = (⟨t.val * 1024 + r.val, hb⟩ : Fin 262144) := Fin.ext hR
  subst hRR
  exact storedBlock_apply' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) t.val hT
    (fun r k => (iblk0_apply m c t r k _ rfl).trans (congrFun (V_main_arg0 m c) _))
    (fun o i => (iblk1_apply m c t o i).trans (hp.w1 c o i)) (fun o => (iblk2_apply m c t o).trans (congrFun (V_main_arg2 m c) _))
    (fun o i => (iblk3_apply m c t o i).trans (hp.w2 c o i)) (fun o => (iblk4_apply m c t o).trans (congrFun (V_main_arg4 m c) _))
    (fun o i => (iblk5_apply m c t o i).trans (hp.w3 c o i)) (fun o => (iblk6_apply m c t o).trans (congrFun (V_main_arg6 m c) _))
    (fun s s' o i h h' hi => (iblk7_apply m c t _ _).trans (hp.s1a c s s' o i h h' hi))
    (fun s s' o h h' => (iblk7_apply m c t _ _).trans (hp.s1b c s s' o h h'))
    (fun s s' o i h h' => (iblk9_apply m c t _ _).trans (hp.s2 c s s' o i h h'))
    (fun s s' o i h h' => (iblk11_apply m c t _ _).trans (hp.s3 c s s' o i h h'))
    (fun s o h => (iblk8_apply m c t _).trans (hp.t1 c s o h))
    (fun s o h => (iblk10_apply m c t _).trans (hp.t2 c s o h))
    (fun s o h => (iblk12_apply m c t _).trans (hp.t3 c s o h))
    r (⟨col.val / 22, by omega⟩ : Fin 10) (⟨col.val % 22, by omega⟩ : Fin 22) col (by show col.val = col.val / 22 * 22 + col.val % 22; omega)

/-- What point t writes back is block t of the flat array. -/
theorem flushed_eq (c : Dev nD) (t : Fin cfg0.N) :
    (dats m 0 c).flushed 13 t = ((cfg0.win 13).blk t).view.read (Elt Ideal) (flat m c) := by
  show (cfg0.win 13).cut (grid0.coords t) ((dats m 0 c).after 13 t) = _
  rw [after0_13, out_eq]
  obtain ⟨e0a, e0b, e13a, e13b, e1a, e1b, e3a, e3b, e5a, e5b, e7a, e7b, e9a, e9b, e11a, e11b, e2, e4, e6, e8, e10, e12⟩ := idx_facts t
  funext y
  have hN : cfg0.N = 256 := N_0
  have hy0 : (y 0).val < 1024 := (y 0).isLt
  have hy1 : (y 1).val < 220 := (y 1).isLt
  have ht : t.val < 256 := by have := t.isLt; omega
  refine ((congrArg _ (eq_ix2 y)).trans (stored_point m hp c t ⟨(y 0).val, hy0⟩ ⟨(y 1).val, hy1⟩ ⟨t.val * 1024 + (y 0).val, by omega⟩ rfl)).trans ?_
  show flat m c _ = flat m c (((cfg0.win 13).blk t).view.emb y)
  refine congrArg (flat m c) (funext fun a => Fin.ext ?_)
  match a with
  | ⟨0, _⟩ => show t.val * 1024 + (y 0).val = win0_13.index t (0 : Fin 2) * 1024 + 1 * (y 0).val; omega
  | ⟨1, _⟩ => show (y 1).val = win0_13.index t (1 : Fin 2) * 220 + 1 * (y 1).val; omega

omit hp in
/-- An index of the flat array is in point t's block iff each coordinate is in the block's range on its axis. -/
theorem mem_blk (t : Fin cfg0.N) (i : S262144x220.Idx) :
    i ∈ ((cfg0.win 13).blk t).view.set ↔ ∀ a : Fin 2, win0_13.index t a * S1024x220.size a ≤ (i a).val ∧ (i a).val < win0_13.index t a * S1024x220.size a + S1024x220.size a := by
  show i ∈ ((View.whole main_v28).slice (win0_13.rect t)).set ↔ _
  rw [View.set_slice_whole, Rect.mem_set_unit]
  exact Iff.rfl

/-- The flat array after the region. -/
theorem final (c : Dev nD) : (dats m 0 c).arrAt 13 cfg0.N = flat m c :=
  (dats m 0 c).arrAt_eq_of_cover 13 (flat m c) (fun t _ => flushed_eq m hp c t) fun i => by
    have hN : cfg0.N = 256 := N_0
    have hi0 : (i 0).val < 262144 := (i 0).isLt
    have hi1 : (i 1).val < 220 := (i 1).isLt
    refine ⟨⟨(i 0).val / 1024, by omega⟩, flush0_13 _, ?_⟩
    rw [mem_blk]
    obtain ⟨e0a, e0b, e13a, e13b, e1a, e1b, e3a, e3b, e5a, e5b, e7a, e7b, e9a, e9b, e11a, e11b, e2, e4, e6, e8, e10, e12⟩ := idx_facts ⟨(i 0).val / 1024, by omega⟩
    intro a
    match a with
    | ⟨0, _⟩ => show win0_13.index _ (0 : Fin 2) * 1024 ≤ (i 0).val ∧ (i 0).val < win0_13.index _ (0 : Fin 2) * 1024 + 1024; rw [e13a]; show (i 0).val / 1024 * 1024 ≤ (i 0).val ∧ (i 0).val < (i 0).val / 1024 * 1024 + 1024; omega
    | ⟨1, _⟩ => show win0_13.index _ (1 : Fin 2) * 220 ≤ (i 1).val ∧ (i 1).val < win0_13.index _ (1 : Fin 2) * 220 + 220; rw [e13b]; omega

/-- The program's result: the flat array reshaped to [262144, 10, 22] is the specification's array. -/
theorem tail_eq (c : Dev nD) :
    Pipeline.afterTail₀ cfgs (dats m) 0 (V0 m) [hostOps1] c main_v29 = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v29) = _
  after_results
  rw [Pipeline.withArrays_arr spec0 launch0.win.arr_inj c _ _ 13, final m hp c]
  funext idx
  have h0 : (idx 0).val < 262144 := (idx 0).isLt
  have h1 : (idx 1).val < 10 := (idx 1).isLt
  have h2 : (idx 2).val < 22 := (idx 2).isLt
  refine (shapeCast_apply (flat m c) _ idx (ix2 (⟨(idx 0).val, h0⟩ : Fin 262144) (⟨(idx 1).val * 22 + (idx 2).val, by omega⟩ : Fin 220)) ?_).trans ?_
  · show ((⟨2, ![262144, 220]⟩ : Shape).rowMajor _).val = ((⟨3, ![262144, 10, 22]⟩ : Shape).rowMajor idx).val
    rw [Shape.rowMajor_val_two, Shape.rowMajor_val_three]
    show (idx 0).val * 220 + ((idx 1).val * 22 + (idx 2).val) = ((idx 0).val * 10 + (idx 1).val) * 22 + (idx 2).val
    omega
  · show result _ _ _ _ _ _ _ _ _ _ _ _ _ _ _ _ = result _ _ _ _ _ _ _ _ _ _ _ _ _ (idx 0) (idx 1) (idx 2)
    congr 1
    · exact Fin.ext (by show ((idx 1).val * 22 + (idx 2).val) / 22 = (idx 1).val; omega)
    · exact Fin.ext (by show ((idx 1).val * 22 + (idx 2).val) % 22 = (idx 2).val; omega)

end Cert.KernelIdeal.Blocks

end
-- ==== Proof.KernelRun.lean ====
/-
  The idealized kernel's run with its result named.

  Every weakly fair execution of the program ends with the result buffer at the specification's array of the argument
  arrays, and the arguments unchanged: the frame run's post, read through the program's last operation (the reshape of
  the flat array the region leaves) and, for each argument, through the fact that no operation writes it.
-/
import proofs.«147875_j429496729976_2_alg».proof.Proof.KernelArray

set_option maxRecDepth 16384

noncomputable section

namespace Cert.KernelIdeal.Blocks

open Cert.KernelIdeal Cert.KernelIdeal.Gen Idealize.ShloMosaic Idealize.ShloMosaic.ValueIdx Towers
open Idealize.ShloMosaic.TcCoe Idealize.SL.Sem
open Idealize.ShloMosaic.Pipeline (Dat Cfg Window)

variable (m : (ℓ : Loc nD τ sig) → Buf (Elt Ideal) ℓ) (ρ : Dev nD → PrngReg)

theorem kernel_run (hp : PackedFacts m) :
    θ_run defs (onTc (τ := τ) (main (F := Ideal))) ⟨m, fun _ => 0, ρ⟩ (fun r => ∀ c : Dev nD,
      r.2.mem ((c.tc : Thread nD τ).loc main_v29) = resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v29 (Pipeline.mem_restRefs_of main_v29 (by decide) (by decide))).trans (tail_eq m hp c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Blocks

end
-- ==== Proof.LibKronecker.lean ====
/-
  Block-diagonal ("Kronecker") weight matrices and tiled biases, read at an index.

  For an identity matrix I (10 × 10) and a weight matrix W (a × b), the array
  reshape(I[s, ·, s', ·] * W[·, o, ·, i]) of shape (10 a) × (10 b) holds, in row s a + o and
  column s' b + i, the product I(s, s') · W(o, i): the weight block W on the diagonal, zero elsewhere.
  The identity matrix is written as the conversion to a float of the bit "row number = column number".
  A bias of length a tiled 10 times holds b(o) at position s a + o.
-/
import Idealize.ShloMosaic.Lib.ValueLayout
import Idealize.ShloMosaic.Lib.IdealHost

noncomputable section

namespace Cert.KernelIdeal.Packed

open Idealize.ShloMosaic Idealize.ShloMosaic.ValueIdx

/-- Kronecker's delta as an extended real. -/
def kdelta {n : Nat} (s s' : Fin n) : EReal := if s = s' then 1 else 0

theorem kdelta_self {n : Nat} (s : Fin n) : kdelta s s = 1 := if_pos rfl
theorem kdelta_ne {n : Nat} {s s' : Fin n} (h : s ≠ s') : kdelta s s' = 0 := if_neg h

/-- The bit "a + 0 = b" on 32-bit words of two small naturals, read as a natural number. -/
theorem cmpi_eq_toNat (a b : Nat) (ha : a < 2 ^ 32) (hb : b < 2 ^ 32) :
    (IntOp.cmpi .eq (IntOp.addi (BitVec.ofNat 32 a) 0#32) (BitVec.ofNat 32 b)).toNat = if a = b then 1 else 0 := by
  have h0 : IntOp.addi (BitVec.ofNat 32 a) 0#32 = BitVec.ofNat 32 a := by
    show BitVec.ofNat 32 a + 0#32 = _
    exact BitVec.add_zero _
  rw [h0]
  by_cases h : a = b
  · subst h
    rw [if_pos rfl]
    simp [IntOp.cmpi]
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    simp [IntOp.cmpi, hne]

/-- The 10 × 10 identity matrix as the program writes it: the float of the bit (row number + 0 = column number). -/
abbrev eyeT (h : (⟨0, ![]⟩ : Shape).BroadcastsInDim ⟨2, ![10, 10]⟩ ![]) : FVec Ideal ⟨2, ![10, 10]⟩ .f32 :=
  uitofp (F := Ideal) .f32 (cmpi .eq (addi (iotaInDim ⟨2, ![10, 10]⟩ 32 0)
    (broadcastInDim ⟨2, ![10, 10]⟩ ![] h (constantI ⟨0, ![]⟩ 32 0#32))) (iotaInDim ⟨2, ![10, 10]⟩ 32 1))

/-- It is Kronecker's delta. -/
theorem eye_apply (h : (⟨0, ![]⟩ : Shape).BroadcastsInDim ⟨2, ![10, 10]⟩ ![]) (s s' : Fin 10) :
    eyeT h (ix2 s s') = kdelta s s' := by
  show (((IntOp.cmpi .eq (IntOp.addi (BitVec.ofNat 32 s.val) 0#32) (BitVec.ofNat 32 s'.val)).toNat : ℝ) : EReal) = _
  rw [cmpi_eq_toNat s.val s'.val (by have := s.isLt; omega) (by have := s'.isLt; omega)]
  unfold kdelta
  by_cases e : s = s'
  · subst e; simp
  · have : s.val ≠ s'.val := fun hh => e (Fin.ext hh)
    rw [if_neg this, if_neg e]; simp

/-! ## The block-diagonal matrix at (s a + o, s' b + i) -/

/-- reshape(I[s, ·, s', ·] * W[·, o, ·, i]) at row s a + o, column s' b + i is I(s, s') · W(o, i), the factors
    in the order the product is computed. -/
theorem kron_apply {a b A B : Nat} (hB : B = 10 * b)
    (E : FVec Ideal ⟨2, ![10, 10]⟩ .f32) (W : FVec Ideal ⟨2, ![a, b]⟩ .f32)
    (h0 : (⟨2, ![10, 10]⟩ : Shape).BroadcastsInDim ⟨4, ![10, 1, 10, 1]⟩ ![0, 2])
    (h1 : (⟨2, ![a, b]⟩ : Shape).BroadcastsInDim ⟨4, ![1, a, 1, b]⟩ ![1, 3])
    (h2 : (⟨4, ![10, 1, 10, 1]⟩ : Shape).BroadcastsInDim ⟨4, ![10, a, 10, b]⟩ ![0, 1, 2, 3])
    (h3 : (⟨4, ![1, a, 1, b]⟩ : Shape).BroadcastsInDim ⟨4, ![10, a, 10, b]⟩ ![0, 1, 2, 3])
    (hc : (⟨4, ![10, a, 10, b]⟩ : Shape).ShapeCasts ⟨2, ![A, B]⟩)
    (s : Fin 10) (o : Fin a) (s' : Fin 10) (i : Fin b) (r : Fin A) (cc : Fin B)
    (hr : r.val = s.val * a + o.val) (hcc : cc.val = s'.val * b + i.val) :
    shapeCast ⟨2, ![A, B]⟩
        (mulf (broadcastInDim ⟨4, ![10, a, 10, b]⟩ ![0, 1, 2, 3] h2 (broadcastInDim ⟨4, ![10, 1, 10, 1]⟩ ![0, 2] h0 E))
          (broadcastInDim ⟨4, ![10, a, 10, b]⟩ ![0, 1, 2, 3] h3 (broadcastInDim ⟨4, ![1, a, 1, b]⟩ ![1, 3] h1 W))) hc
        (ix2 r cc)
      = E (ix2 s s') * W (ix2 o i) := by
  have ho : ∀ x : Fin a, x.val = if a = 1 then 0 else x.val := fun x => by
    split
    · have := x.isLt; omega
    · rfl
  have hi : ∀ x : Fin b, x.val = if b = 1 then 0 else x.val := fun x => by
    split
    · have := x.isLt; omega
    · rfl
  -- the reshape: the same row-major position
  refine (shapeCast_apply _ hc (ix2 r cc) (ix4 s o s' i) ?_).trans ?_
  · rw [Shape.rowMajor_val_four, Shape.rowMajor_val_two]
    show ((s.val * a + o.val) * 10 + s'.val) * b + i.val = r.val * B + cc.val
    rw [hr, hcc, hB]; ring
  rw [mulf_apply]
  congr 1
  · -- the identity factor
    refine (broadcastInDim_apply _ h2 _ (ix4 s o s' i) (ix4 s (0 : Fin 1) s' (0 : Fin 1)) fun ax => ?_).trans ?_
    · match ax with
      | ⟨0, _⟩ => rfl
      | ⟨1, _⟩ => rfl
      | ⟨2, _⟩ => rfl
      | ⟨3, _⟩ => rfl
    refine broadcastInDim_apply _ h0 E _ (ix2 s s') fun ax => ?_
    match ax with
    | ⟨0, _⟩ => rfl
    | ⟨1, _⟩ => rfl
  · -- the weight factor
    refine (broadcastInDim_apply _ h3 _ (ix4 s o s' i) (ix4 (0 : Fin 1) o (0 : Fin 1) i) fun ax => ?_).trans ?_
    · match ax with
      | ⟨0, _⟩ => rfl
      | ⟨1, _⟩ => exact ho o
      | ⟨2, _⟩ => rfl
      | ⟨3, _⟩ => exact hi i
    refine broadcastInDim_apply _ h1 W _ (ix2 o i) fun ax => ?_
    match ax with
    | ⟨0, _⟩ => exact ho o
    | ⟨1, _⟩ => exact hi i

/-! ## A bias tiled ten times -/

/-- reshape(broadcast(reshape(v) : 1 × a) : 10 × a) at position s a + o is v(o). -/
theorem tile_apply {a A : Nat} (v : FVec Ideal ⟨1, ![a]⟩ .f32)
    (h0 : (⟨1, ![a]⟩ : Shape).ShapeCasts ⟨2, ![1, a]⟩)
    (h1 : (⟨2, ![1, a]⟩ : Shape).BroadcastsInDim ⟨2, ![10, a]⟩ ![0, 1])
    (h2 : (⟨2, ![10, a]⟩ : Shape).ShapeCasts ⟨1, ![A]⟩)
    (s : Fin 10) (o : Fin a) (r : Fin A) (hr : r.val = s.val * a + o.val) :
    shapeCast ⟨1, ![A]⟩ (broadcastInDim ⟨2, ![10, a]⟩ ![0, 1] h1 (shapeCast ⟨2, ![1, a]⟩ v h0)) h2 (ix1 r) = v (ix1 o) := by
  refine (shapeCast_apply _ h2 (ix1 r) (ix2 s o) ?_).trans ?_
  · rw [Shape.rowMajor_val_two, Shape.rowMajor_val_one]
    exact hr.symm
  refine (broadcastInDim_apply _ h1 _ (ix2 s o) (ix2 (0 : Fin 1) o) fun ax => ?_).trans ?_
  · match ax with
    | ⟨0, _⟩ => rfl
    | ⟨1, _⟩ =>
      show o.val = if a = 1 then 0 else o.val
      split
      · have := o.isLt; omega
      · rfl
  exact shapeCast_a_1a_apply v h0 0 o

end Cert.KernelIdeal.Packed

end
-- ==== Proof.PackedWeights.lean ====
/-
  The second network's packed weights, read at an index.

  The idealized kernel's host program builds, before its one region, a block-diagonal matrix for each dense layer of
  the second network — the Kronecker product of the 10 × 10 identity matrix with the layer's weight — so that one
  matrix product applies the layer to ten groups of features at once. Here each of those arrays, as the region finds it,
  is read at a row and a column written as (group, position in the group); array entries are extended reals.
-/
import proofs.«147875_j429496729976_2_alg».proof.Proof.Gen.KernelIdeal.Frame
import proofs.«147875_j429496729976_2_alg».proof.Proof.LibKronecker

noncomputable section
namespace Cert.KernelIdeal.Packed
open Idealize.ShloMosaic Idealize.ShloMosaic.ValueIdx Idealize.ShloMosaic.StableHlo
open Cert.KernelIdeal.Gen
open Idealize.ShloMosaic.TcCoe

variable (m : (ℓ : Loc nD τ sig) → Buf (Elt Ideal) ℓ)

/-- Reads a buffer as the region finds it down to the launch memory: unfolds the host operations before the region and
    computes what each leaves at the buffer asked for. -/
macro "host_read" : tactic => `(tactic| (
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  simp only [TRef.unary, TRef.binary, TRef.reshape]
  after_results_simp))

/-! ## The block-diagonal weight matrices

Before the region the program builds, for each dense layer of the second network, the matrix that applies the layer
to ten groups of features at once: the Kronecker product of the 10 × 10 identity with the layer's weight. Below, each
such array is read at an index split into (group, position in the group): entry (s·a + o, s'·b + i) is
δ(s, s') · W(o, i), the identity's entry first, as the product is computed. The conversion of the finished f32 array
to bf16 is the identity on extended reals.

The first layer's matrix is assembled from two products laid side by side: the weight's first 40 columns (the
features of each group, columns s'·40 + i) and its last column (the shared extra feature of each group, columns
400 + s'). -/

/-- First layer, the 400 feature columns: entry (s·41 + o, s'·40 + i) is δ(s, s') · W₁(o, i). -/
theorem V25_left (c : Dev nD) (s s' : Fin 10) (o : Fin 41) (i : Fin 40)
    (h : s.val * 41 + o.val < 410) (h' : s'.val * 40 + i.val < 410) (hi : i.val < 41) :
    V m c main_v25 (ix2 ⟨s.val * 41 + o.val, h⟩ ⟨s'.val * 40 + i.val, h'⟩)
      = (if s = s' then (1 : EReal) else 0) * (m ((c : Thread nD τ).loc main_arg7)) (ix2 o ⟨i.val, hi⟩) := by
  suffices hh : ∀ X, V m c main_v25 = X → X (ix2 (⟨s.val * 41 + o.val, h⟩ : Fin 410) (⟨s'.val * 40 + i.val, h'⟩ : Fin 410))
      = (if s = s' then (1 : EReal) else 0) * (m ((c : Thread nD τ).loc main_arg7)) (ix2 o (⟨i.val, hi⟩ : Fin 41)) from hh _ rfl
  intro X
  host_read
  intro hX
  subst hX
  have hc : s'.val * 40 + i.val < 400 := by have := s'.isLt; have := i.isLt; omega
  -- the column falls in the first piece of the concatenation
  refine (concatenate_pair_apply_left (t := S410x410) (s₁ := S410x400) (s₂ := S410x10) (1 : Fin 2) _ _
    concatenates_S410x400_S410x10_S410x410_d1
    (ix2 (⟨s.val * 41 + o.val, h⟩ : Fin 410) (⟨s'.val * 40 + i.val, h'⟩ : Fin 410)) rfl
    (ix2 (⟨s.val * 41 + o.val, h⟩ : Fin 410) (⟨s'.val * 40 + i.val, hc⟩ : Fin 400)) (fun b => ?_)).trans ?_
  · match b with
    | ⟨0, _⟩ => rfl
    | ⟨1, _⟩ => rfl
  after_results_simp
  refine (kron_apply (a := 41) (b := 40) (A := 410) (B := 400) rfl (eyeT bcast_S_S10x10)
    (extractStridedSlice S41x40 ![0, 0] (m ((c : Thread nD τ).loc main_arg7)) slices_S41x41_S41x40_0_0)
    bcast_S10x10_S10x1x10x1_0_2 bcast_S41x40_S1x41x1x40_1_3 bcast_S10x1x10x1_S10x41x10x40_0_1_2_3
    bcast_S1x41x1x40_S10x41x10x40_0_1_2_3 shapeCasts_S10x41x10x40_S410x400 s o s' i
    (⟨s.val * 41 + o.val, h⟩ : Fin 410) (⟨s'.val * 40 + i.val, hc⟩ : Fin 400) rfl rfl).trans ?_
  rw [eye_apply]
  refine congrArg (kdelta s s' * ·) ?_
  exact slice2_axis1_apply 0 _ _ o i _ (Nat.zero_add _).symm

/-- First layer, the 10 extra-feature columns: entry (s·41 + o, 400 + s') is δ(s, s') · W₁(o, 40). -/
theorem V25_right (c : Dev nD) (s s' : Fin 10) (o : Fin 41)
    (h : s.val * 41 + o.val < 410) (h' : 400 + s'.val < 410) :
    V m c main_v25 (ix2 ⟨s.val * 41 + o.val, h⟩ ⟨400 + s'.val, h'⟩)
      = (if s = s' then (1 : EReal) else 0) * (m ((c : Thread nD τ).loc main_arg7)) (ix2 o ⟨40, by omega⟩) := by
  suffices hh : ∀ X, V m c main_v25 = X → X (ix2 (⟨s.val * 41 + o.val, h⟩ : Fin 410) (⟨400 + s'.val, h'⟩ : Fin 410))
      = (if s = s' then (1 : EReal) else 0) * (m ((c : Thread nD τ).loc main_arg7)) (ix2 o (⟨40, by omega⟩ : Fin 41)) from hh _ rfl
  intro X
  host_read
  intro hX
  subst hX
  -- the column falls in the second piece of the concatenation, 400 columns in
  refine (concatenate_pair_apply_right (t := S410x410) (s₁ := S410x400) (s₂ := S410x10) (1 : Fin 2) _ _
    concatenates_S410x400_S410x10_S410x410_d1
    (ix2 (⟨s.val * 41 + o.val, h⟩ : Fin 410) (⟨400 + s'.val, h'⟩ : Fin 410)) rfl rfl
    (ix2 (⟨s.val * 41 + o.val, h⟩ : Fin 410) (⟨s'.val, s'.isLt⟩ : Fin 10)) (fun b => ?_) ?_).trans ?_
  · match b with
    | ⟨0, _⟩ => exact fun _ => rfl
    | ⟨1, _⟩ => exact fun hne => absurd rfl hne
  · show s'.val + 400 = 400 + s'.val
    omega
  after_results_simp
  refine (kron_apply (a := 41) (b := 1) (A := 410) (B := 10) rfl (eyeT bcast_S_S10x10)
    (extractStridedSlice S41x1 ![0, 40] (m ((c : Thread nD τ).loc main_arg7)) slices_S41x41_S41x1_0_40)
    bcast_S10x10_S10x1x10x1_0_2 bcast_S41x1_S1x41x1x1_1_3 bcast_S10x1x10x1_S10x41x10x1_0_1_2_3
    bcast_S1x41x1x1_S10x41x10x1_0_1_2_3 shapeCasts_S10x41x10x1_S410x10 s o s' (0 : Fin 1)
    (⟨s.val * 41 + o.val, h⟩ : Fin 410) (⟨s'.val, s'.isLt⟩ : Fin 10) rfl
    (by show s'.val = s'.val * 1 + 0; omega)).trans ?_
  rw [eye_apply]
  refine congrArg (kdelta s s' * ·) ?_
  exact slice2_axis1_apply 40 _ _ o (0 : Fin 1) _ rfl

/-- Second layer: entry (s·41 + o, s'·41 + i) is δ(s, s') · W₂(o, i). -/
theorem V26_apply (c : Dev nD) (s s' : Fin 10) (o i : Fin 41)
    (h : s.val * 41 + o.val < 410) (h' : s'.val * 41 + i.val < 410) :
    V m c main_v26 (ix2 ⟨s.val * 41 + o.val, h⟩ ⟨s'.val * 41 + i.val, h'⟩)
      = (if s = s' then (1 : EReal) else 0) * (m ((c : Thread nD τ).loc main_arg9)) (ix2 o i) := by
  suffices hh : ∀ X, V m c main_v26 = X → X (ix2 (⟨s.val * 41 + o.val, h⟩ : Fin 410) (⟨s'.val * 41 + i.val, h'⟩ : Fin 410))
      = (if s = s' then (1 : EReal) else 0) * (m ((c : Thread nD τ).loc main_arg9)) (ix2 o i) from hh _ rfl
  intro X
  host_read
  intro hX
  subst hX
  refine (kron_apply (a := 41) (b := 41) (A := 410) (B := 410) rfl (eyeT bcast_S_S10x10) (m ((c : Thread nD τ).loc main_arg9))
    bcast_S10x10_S10x1x10x1_0_2 bcast_S41x41_S1x41x1x41_1_3 bcast_S10x1x10x1_S10x41x10x41_0_1_2_3
    bcast_S1x41x1x41_S10x41x10x41_0_1_2_3 shapeCasts_S10x41x10x41_S410x410 s o s' i
    (⟨s.val * 41 + o.val, h⟩ : Fin 410) (⟨s'.val * 41 + i.val, h'⟩ : Fin 410) rfl rfl).trans ?_
  rw [eye_apply]
  rfl

/-- Third layer: entry (s·22 + o, s'·41 + i) is δ(s, s') · W₃(o, i). -/
theorem V27_apply (c : Dev nD) (s s' : Fin 10) (o : Fin 22) (i : Fin 41)
    (h : s.val * 22 + o.val < 220) (h' : s'.val * 41 + i.val < 410) :
    V m c main_v27 (ix2 ⟨s.val * 22 + o.val, h⟩ ⟨s'.val * 41 + i.val, h'⟩)
      = (if s = s' then (1 : EReal) else 0) * (m ((c : Thread nD τ).loc main_arg11)) (ix2 o i) := by
  suffices hh : ∀ X, V m c main_v27 = X → X (ix2 (⟨s.val * 22 + o.val, h⟩ : Fin 220) (⟨s'.val * 41 + i.val, h'⟩ : Fin 410))
      = (if s = s' then (1 : EReal) else 0) * (m ((c : Thread nD τ).loc main_arg11)) (ix2 o i) from hh _ rfl
  intro X
  host_read
  intro hX
  subst hX
  refine (kron_apply (a := 22) (b := 41) (A := 220) (B := 410) rfl (eyeT bcast_S_S10x10) (m ((c : Thread nD τ).loc main_arg11))
    bcast_S10x10_S10x1x10x1_0_2 bcast_S22x41_S1x22x1x41_1_3 bcast_S10x1x10x1_S10x22x10x41_0_1_2_3
    bcast_S1x22x1x41_S10x22x10x41_0_1_2_3 shapeCasts_S10x22x10x41_S220x410 s o s' i
    (⟨s.val * 22 + o.val, h⟩ : Fin 220) (⟨s'.val * 41 + i.val, h'⟩ : Fin 410) rfl rfl).trans ?_
  rw [eye_apply]
  rfl

end Cert.KernelIdeal.Packed

end
-- ==== Proof.PackedBias.lean ====
/-
  The kernel's host-side bias vectors and converted weight matrices, read at an index.

  Each packed bias is the group's bias repeated ten times (reshape [n] to [1, n], broadcast to [10, n], reshape to
  [10 * n]): at index s * n + o it is the bias at o. The conversion of a float array to the narrower format is the
  identity on the extended reals.
-/
import proofs.«147875_j429496729976_2_alg».proof.Proof.Gen.KernelIdeal.Frame
import Idealize.ShloMosaic.Lib.ValueLayout
import Idealize.ShloMosaic.Lib.IdealHost

noncomputable section

namespace Cert.KernelIdeal.Packed

open Cert.KernelIdeal Cert.KernelIdeal.Gen Idealize.ShloMosaic Idealize.ShloMosaic.ValueIdx Idealize.ShloMosaic.StableHlo
  Idealize.ShloMosaic.TcCoe

variable (m : (ℓ : Loc nD τ sig) → Buf (Elt Ideal) ℓ)

omit m in
/-- A vector of n entries repeated ten times (reshape to one row, broadcast to ten rows, reshape to one vector of
    10 * n entries) reads, at s * n + o, the vector at o. -/
theorem tiledTen_apply {α : Type} {n : ℕ} (x : (⟨1, ![n]⟩ : Shape).Idx → α)
    (h1 : (⟨1, ![n]⟩ : Shape).ShapeCasts ⟨2, ![1, n]⟩)
    (hb : (⟨2, ![1, n]⟩ : Shape).BroadcastsInDim ⟨2, ![10, n]⟩ (![0, 1] : Fin 2 → Fin 2))
    (h2 : (⟨2, ![10, n]⟩ : Shape).ShapeCasts ⟨1, ![10 * n]⟩)
    (s : Fin 10) (o : Fin n) (h : s.val * n + o.val < 10 * n) :
    shapeCast ⟨1, ![10 * n]⟩ (broadcastInDim ⟨2, ![10, n]⟩ ![0, 1] hb (shapeCast ⟨2, ![1, n]⟩ x h1)) h2
      (ix1 ⟨s.val * n + o.val, h⟩) = x (ix1 o) := by
  rw [shapeCast_apply _ h2 (ix1 ⟨s.val * n + o.val, h⟩) (ix2 s o)
    (by rw [Shape.rowMajor_val_two, Shape.rowMajor_val_one]; rfl)]
  rw [broadcastInDim_apply ![0, 1] hb _ (ix2 s o) (ix2 (0 : Fin 1) o) (fun a => by
    match a with
    | ⟨0, _⟩ => rfl
    | ⟨1, _⟩ =>
      show o.val = if n = 1 then 0 else o.val
      split
      · have := o.isLt; omega
      · rfl)]
  exact shapeCast_a_1a_apply x h1 0 o

/-- The packed bias main_v15 at s * 41 + o is the bias main_arg8 at o. -/
theorem t1 (c : Dev nD) (s : Fin 10) (o : Fin 41) (h : s.val * 41 + o.val < 410) :
    V m c main_v15 (ix1 ⟨s.val * 41 + o.val, h⟩) = (m ((c : Thread nD τ).loc main_arg8)) (ix1 o) := by
  have e : (V m c main_v15 : S410.Idx → EReal)
      = shapeCast S410 (broadcastInDim S10x41 ![0, 1] bcast_S1x41_S10x41_0_1
          (shapeCast S1x41 (m ((c : Thread nD τ).loc main_arg8) : S41.Idx → EReal) shapeCasts_S41_S1x41)) shapeCasts_S10x41_S410 := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
    rfl
  exact (congrFun e _).trans (tiledTen_apply (n := 41) _ shapeCasts_S41_S1x41 bcast_S1x41_S10x41_0_1 shapeCasts_S10x41_S410 s o h)

/-- The packed bias main_v18 at s * 41 + o is the bias main_arg10 at o. -/
theorem t2 (c : Dev nD) (s : Fin 10) (o : Fin 41) (h : s.val * 41 + o.val < 410) :
    V m c main_v18 (ix1 ⟨s.val * 41 + o.val, h⟩) = (m ((c : Thread nD τ).loc main_arg10)) (ix1 o) := by
  have e : (V m c main_v18 : S410.Idx → EReal)
      = shapeCast S410 (broadcastInDim S10x41 ![0, 1] bcast_S1x41_S10x41_0_1
          (shapeCast S1x41 (m ((c : Thread nD τ).loc main_arg10) : S41.Idx → EReal) shapeCasts_S41_S1x41)) shapeCasts_S10x41_S410 := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
    rfl
  exact (congrFun e _).trans (tiledTen_apply (n := 41) _ shapeCasts_S41_S1x41 bcast_S1x41_S10x41_0_1 shapeCasts_S10x41_S410 s o h)

/-- The packed bias main_v21 at s * 22 + o is the bias main_arg12 at o. -/
theorem t3 (c : Dev nD) (s : Fin 10) (o : Fin 22) (h : s.val * 22 + o.val < 220) :
    V m c main_v21 (ix1 ⟨s.val * 22 + o.val, h⟩) = (m ((c : Thread nD τ).loc main_arg12)) (ix1 o) := by
  have e : (V m c main_v21 : S220.Idx → EReal)
      = shapeCast S220 (broadcastInDim S10x22 ![0, 1] bcast_S1x22_S10x22_0_1
          (shapeCast S1x22 (m ((c : Thread nD τ).loc main_arg12) : S22.Idx → EReal) shapeCasts_S22_S1x22)) shapeCasts_S10x22_S220 := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
    rfl
  exact (congrFun e _).trans (tiledTen_apply (n := 22) _ shapeCasts_S22_S1x22 bcast_S1x22_S10x22_0_1 shapeCasts_S10x22_S220 s o h)

/-- The converted weight matrix main_v22 is main_arg1, entry by entry. -/
theorem w1 (c : Dev nD) (o : Fin 40) (i : Fin 40) :
    V m c main_v22 (ix2 o i) = (m ((c : Thread nD τ).loc main_arg1)) (ix2 o i) := by
  have e : @Eq (FVec Ideal S40x40 .bf16) (V m c main_v22)
      (truncf .bf16 (m ((c : Thread nD τ).loc main_arg1) : FVec Ideal S40x40 .f32) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
  exact congrFun e _

/-- The converted weight matrix main_v23 is main_arg3, entry by entry. -/
theorem w2 (c : Dev nD) (o : Fin 40) (i : Fin 40) :
    V m c main_v23 (ix2 o i) = (m ((c : Thread nD τ).loc main_arg3)) (ix2 o i) := by
  have e : @Eq (FVec Ideal S40x40 .bf16) (V m c main_v23)
      (truncf .bf16 (m ((c : Thread nD τ).loc main_arg3) : FVec Ideal S40x40 .f32) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
  exact congrFun e _

/-- The converted weight matrix main_v24 is main_arg5, entry by entry. -/
theorem w3 (c : Dev nD) (o : Fin 10) (i : Fin 40) :
    V m c main_v24 (ix2 o i) = (m ((c : Thread nD τ).loc main_arg5)) (ix2 o i) := by
  have e : @Eq (FVec Ideal S10x40 .bf16) (V m c main_v24)
      (truncf .bf16 (m ((c : Thread nD τ).loc main_arg5) : FVec Ideal S10x40 .f32) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, List.flatten_cons,
      List.flatten_nil, List.append_nil, List.cons_append, List.nil_append]
    after_results_simp
  exact congrFun e _

end Cert.KernelIdeal.Packed

end
-- ==== Proof.PackedAll.lean ====
/-
  The arrays the host builds before the region, entry by entry, gathered: the first tower's weights unchanged, the second
  tower's weights packed block-diagonally, its biases repeated ten times.
-/
import proofs.«147875_j429496729976_2_alg».proof.Proof.PackedWeights
import proofs.«147875_j429496729976_2_alg».proof.Proof.PackedBias
import proofs.«147875_j429496729976_2_alg».proof.Proof.KernelArray

noncomputable section

namespace Cert.KernelIdeal.Packed

open Cert.KernelIdeal Cert.KernelIdeal.Gen Idealize.ShloMosaic

theorem facts (m : (ℓ : Loc nD τ sig) → Buf (Elt Ideal) ℓ) : Cert.KernelIdeal.Blocks.PackedFacts m :=
  ⟨w1 m, w2 m, w3 m, V25_left m, V25_right m, V26_apply m, V27_apply m, t1 m, t2 m, t3 m⟩

end Cert.KernelIdeal.Packed

end
-- ==== Proof.RefGate.lean ====
/-
  The reference program's first tower, read one operation at a time: its three dense layers are the specification's
  tower on the leading 40 features, and its softmax gives the specification's gate weights.
-/
import proofs.«147875_j429496729976_2_alg».proof.Proof.RefReadP
import proofs.«147875_j429496729976_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo

/-- Two indices with equal coordinates are equal. -/
macro "idx_eq" : tactic => `(tactic| (funext c; apply Fin.ext; fin_cases c <;> rfl))

/-- The gate tower's first layer at (row r, unit q). -/
theorem gate_layer1 (x0 : (⟨S262144x440, .f32⟩ : BufTy).Contents (Elt Ideal)) (x1 : (⟨S40x40, .f32⟩ : BufTy).Contents (Elt Ideal))
    (x2 : (⟨S40, .f32⟩ : BufTy).Contents (Elt Ideal)) (r : Fin 262144) (q : Fin 40) :
    val_main_v8 (F := Ideal) x0 x1 x2 (ix2 r q)
      = Towers.relu (Towers.dense (Towers.lead x0 r) (Towers.mat x1) (Towers.vec x2) q) := by
  rw [val_main_v8_apply, val_main_v7_apply, val_main_v4_apply, val_main_v6_apply, val_main_v5_apply,
    val_main_call0_v0_apply, val_main_call0_cst_apply]
  simp only [val_main_v0_apply, val_main_v3_apply]
  simp only [Ideal.maximumf_def, Ideal.addf_def, Ideal.ofBits_def]
  unfold Towers.relu Towers.dense Towers.lead
  refine congrArg₂ max (congrArg₂ (· + ·) (Finset.sum_congr rfl fun k _ => congrArg₂ (· * ·) (congrArg x0 ?_) (congrArg x1 ?_))
    (congrArg x2 ?_)) rfl
  all_goals idx_eq

/-- The gate tower's second layer at (row r, unit p). -/
theorem gate_layer2 (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (r : Fin 262144) (p : Fin 40) :
    val_main_v14 (F := Ideal) x0 x1 x2 x3 x4 (ix2 r p)
      = Towers.relu (Towers.dense (fun q => Towers.relu (Towers.dense (Towers.lead x0 r) (Towers.mat x1) (Towers.vec x2) q))
          (Towers.mat x3) (Towers.vec x4) p) := by
  rw [val_main_v14_apply, val_main_v13_apply, val_main_v10_apply, val_main_v12_apply, val_main_v11_apply,
    val_main_call1_v0_apply, val_main_call1_cst_apply]
  simp only [val_main_v9_apply]
  simp only [Ideal.maximumf_def, Ideal.addf_def, Ideal.ofBits_def]
  have h8 : ∀ k : Fin 40, val_main_v8 (F := Ideal) x0 x1 x2 (lidx_main_v10 (ix2 r p) k)
      = Towers.relu (Towers.dense (Towers.lead x0 r) (Towers.mat x1) (Towers.vec x2) k) := fun k => by
    rw [show lidx_main_v10 (ix2 r p) k = ix2 r k by idx_eq]
    exact gate_layer1 x0 x1 x2 r k
  simp only [h8]
  unfold Towers.relu Towers.dense
  refine congrArg₂ max (congrArg₂ (· + ·) (Finset.sum_congr rfl fun k _ => congrArg₂ (· * ·) rfl (congrArg x3 ?_))
    (congrArg x4 ?_)) rfl
  all_goals idx_eq

/-- The gate tower's logits at (row r, group o). -/
theorem gate_logits (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) (o : Fin 10) :
    val_main_v19 (F := Ideal) x0 x1 x2 x3 x4 x5 x6 (ix2 r o)
      = Towers.mlp (Towers.lead x0 r) (Towers.mat x1) (Towers.vec x2) (Towers.mat x3) (Towers.vec x4) (Towers.mat x5) (Towers.vec x6) o := by
  rw [val_main_v19_apply, val_main_v16_apply, val_main_v18_apply, val_main_v17_apply]
  simp only [val_main_v15_apply]
  simp only [Ideal.addf_def]
  have h14 : ∀ k : Fin 40, val_main_v14 (F := Ideal) x0 x1 x2 x3 x4 (lidx_main_v16 (ix2 r o) k)
      = Towers.relu (Towers.dense (fun q => Towers.relu (Towers.dense (Towers.lead x0 r) (Towers.mat x1) (Towers.vec x2) q))
          (Towers.mat x3) (Towers.vec x4) k) := fun k => by
    rw [show lidx_main_v16 (ix2 r o) k = ix2 r k by idx_eq]
    exact gate_layer2 x0 x1 x2 x3 x4 r k
  simp only [h14]
  unfold Towers.mlp
  show _ = (∑ k : Fin 40, _ * _) + _
  refine congrArg₂ (· + ·) (Finset.sum_congr rfl fun k _ => congrArg₂ (· * ·) rfl (congrArg x5 ?_)) (congrArg x6 ?_)
  all_goals idx_eq

/-- The reduced index (r) with coordinate k put back on the last axis is (r, k). -/
theorem lift_last2 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The reduced index (r, s) with coordinate k put back on the last axis is (r, s, k). -/
theorem lift_last3 {a b d : ℕ} (h : (⟨3, ![a, b, d]⟩ : Shape).Reduces [2] (⟨2, ![a, b]⟩ : Shape)) (r : Fin a) (s : Fin b)
    (k : Fin ((⟨3, ![a, b, d]⟩ : Shape).size 2)) : h.lift (ix2 r s) k = ix3 r s (⟨k.val, k.isLt⟩ : Fin d) := by
  funext c; apply Fin.ext
  fin_cases c <;> rfl

/-- The host's reduce with a maximum body over the last axis of an [a, b] array, at row r: the fold of max from the
    initial value over that row's entries. -/
theorem hostMax_last2 {a b : ℕ} (x : FVec Ideal ⟨2, ![a, b]⟩ .f32) (init : FVec Ideal ⟨0, ![]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_last2 h r k)
  exact congrArg (fun f => Finset.fold max (init (Shape.Idx.first hu)) f (Finset.univ : Finset (Fin b))) hf

/-- The same over the last axis of an [a, b, d] array, at (r, s). -/
theorem hostMax_last3 {a b d : ℕ} (x : FVec Ideal ⟨3, ![a, b, d]⟩ .f32) (init : FVec Ideal ⟨0, ![]⟩ .f32)
    (h' : (⟨3, ![a, b, d]⟩ : Shape).ReducesTo [2] (⟨2, ![a, b]⟩ : Shape))
    (h : (⟨3, ![a, b, d]⟩ : Shape).Reduces [2] (⟨2, ![a, b]⟩ : Shape))
    (hu : 0 < (⟨0, ![]⟩ : Shape).numel) (r : Fin a) (s : Fin b) :
    Host.reduce FloatOps.maximumf x init h' hu (ix2 r s)
      = (Finset.univ : Finset (Fin d)).fold max (init (Shape.Idx.first hu)) (fun k => x (ix3 r s k)) := by
  rw [Host.reduce_eq_fold_single FloatOps.maximumf x _ h' h hu]
  have hf : (x ∘ h.lift (ix2 r s)) = fun k : Fin d => x (ix3 r s k) := funext fun k => congrArg x (lift_last3 h r s k)
  exact congrArg (fun f => Finset.fold max (init (Shape.Idx.first hu)) f (Finset.univ : Finset (Fin d))) hf

/-- The shift of the gate's softmax at row r. -/
theorem gate_shift (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) :
    val_main_v22 (F := Ideal) x0 x1 x2 x3 x4 x5 x6 (ix1 r) = Towers.shift (fun k : Fin 10 => val_main_v19 (F := Ideal) x0 x1 x2 x3 x4 x5 x6 (ix2 r k)) := by
  rw [val_main_v22_apply, val_main_v21_apply, val_main_cst_0_apply]
  simp only [Ideal.maximumf_def, Ideal.ofBits_def]
  unfold val_main_v20
  rw [hostMax_last2 (a := 262144) (b := 10) (val_main_v19 (F := Ideal) x0 x1 x2 x3 x4 x5 x6) (val_main_cst (F := Ideal)) reducesTo_S262144x10_S262144_d1
    (by decide) h_S_ r]
  rfl

/-- The exponential under the gate's softmax at (r, s). -/
theorem gate_exp (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) (s : Fin 10) :
    val_main_v26 (F := Ideal) x0 x1 x2 x3 x4 x5 x6 (ix2 r s)
      = Ideal.exp (val_main_v19 (F := Ideal) x0 x1 x2 x3 x4 x5 x6 (ix2 r s) - Towers.shift (fun k : Fin 10 => val_main_v19 (F := Ideal) x0 x1 x2 x3 x4 x5 x6 (ix2 r k))) := by
  rw [val_main_v26_apply, val_main_v25_apply, val_main_v24_apply, val_main_v23_apply,
    show idx_main_v23 (idx_main_v24 (ix2 r s)) = ix1 r by idx_eq, gate_shift]
  rfl

/-- The denominator of the gate's softmax at row r. -/
theorem gate_sum (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) :
    val_main_v27 (F := Ideal) x0 x1 x2 x3 x4 x5 x6 (ix1 r)
      = ∑ j : Fin 10, Ideal.exp (val_main_v19 (F := Ideal) x0 x1 x2 x3 x4 x5 x6 (ix2 r j) - Towers.shift (fun k : Fin 10 => val_main_v19 (F := Ideal) x0 x1 x2 x3 x4 x5 x6 (ix2 r k))) := by
  rw [val_main_v27_apply, val_main_cst_1_apply]
  simp only [Ideal.ofBits_def, Ideal.ofBits_zero_f32, zero_add]
  refine Finset.sum_congr rfl fun j _ => ?_
  rw [show idx_main_v27 (ix1 r) j = ix2 r j by idx_eq, gate_exp]

/-- The gate weights at (row r, group s). -/
theorem gate_weights (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) (s : Fin 10) :
    val_main_v30 (F := Ideal) x0 x1 x2 x3 x4 x5 x6 (ix2 r s) = Towers.gate x0 x1 x2 x3 x4 x5 x6 r s := by
  rw [val_main_v30_apply, val_main_v29_apply, val_main_v28_apply,
    show idx_main_v28 (idx_main_v29 (ix2 r s)) = ix1 r by idx_eq, gate_sum, gate_exp]
  simp only [gate_logits, Ideal.hostDivf_def]
  rfl

end Cert.ReferenceIdeal.RefValue

end
-- ==== Proof.RefIsSpec.lean ====
/-
  The reference program is the specification.

  The gate weights (the first tower and its softmax) are read in the imported module. Here: the second tower's input is a
  group's 40 features with its gate weight appended; its three dense layers are the specification's tower; the softmax
  over the 22 outputs, scaled by the gate weight, is the specification's result.
-/
import proofs.«147875_j429496729976_2_alg».proof.Proof.RefGate

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo

/-- The second tower's input at (row r, group s, feature i): the group's features, then its gate weight. -/
theorem tower_input (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (r : Fin 262144) (s : Fin 10) (i : Fin 41) :
    val_main_v32 (F := Ideal) x0 x1 x2 x3 x4 x5 x6 (ix3 r s i) = Towers.withGate (Towers.group x0 r s) (Towers.gate x0 x1 x2 x3 x4 x5 x6 r s) i := by
  have hr := r.isLt
  have hs := s.isLt
  unfold val_main_v32 Towers.withGate
  by_cases h : i.val < 40
  · rw [dif_pos h]
    refine (concatenate_pair_apply_left _ (val_main_v2 (F := Ideal) x0) (val_main_v31 (F := Ideal) x0 x1 x2 x3 x4 x5 x6)
      concatenates_S262144x10x40_S262144x10x1_S262144x10x41_d2 (ix3 r s i) rfl (ix3 r s (⟨i.val, h⟩ : Fin 40)) ?_).trans ?_
    · intro b; fin_cases b <;> rfl
    · rw [val_main_v2_apply, val_main_v1_apply]
      unfold Towers.group
      refine congrArg x0 ?_
      funext c; apply Fin.ext; fin_cases c
      · show ((r.val * 10 + s.val) * 40 + i.val) / 400 = r.val
        omega
      · show 40 + ((r.val * 10 + s.val) * 40 + i.val) % 400 = 40 + (s.val * 40 + i.val)
        omega
  · rw [dif_neg h]
    have hi : i.val = 40 := by have := i.isLt; omega
    refine (concatenate_pair_apply_right _ (val_main_v2 (F := Ideal) x0) (val_main_v31 (F := Ideal) x0 x1 x2 x3 x4 x5 x6)
      concatenates_S262144x10x40_S262144x10x1_S262144x10x41_d2 (ix3 r s i) rfl rfl (ix3 r s (0 : Fin 1)) ?_ ?_).trans ?_
    · intro b hb
      fin_cases b
      · rfl
      · rfl
      · exact absurd rfl hb
    · show 0 + 40 = i.val
      omega
    · rw [val_main_v31_apply, show idx_main_v31 (ix3 r s (0 : Fin 1)) = ix2 r s by idx_eq, gate_weights]

/-- The second tower's first layer at (r, s, unit q). -/
theorem tower_layer1 (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (r : Fin 262144) (s : Fin 10) (q : Fin 41) :
    val_main_v37 (F := Ideal) x0 x1 x2 x3 x4 x5 x6 x7 x8 (ix3 r s q)
      = Towers.relu (Towers.dense (Towers.withGate (Towers.group x0 r s) (Towers.gate x0 x1 x2 x3 x4 x5 x6 r s)) (Towers.mat x7) (Towers.vec x8) q) := by
  rw [val_main_v37_apply, val_main_v36_apply, val_main_v33_apply, val_main_v35_apply, val_main_v34_apply,
    val_main_call2_v0_apply, val_main_call2_cst_apply]
  simp only [Ideal.maximumf_def, Ideal.addf_def, Ideal.ofBits_def]
  have h32 : ∀ k : Fin 41, val_main_v32 (F := Ideal) x0 x1 x2 x3 x4 x5 x6 (lidx_main_v33 (ix3 r s q) k) = (Towers.withGate (Towers.group x0 r s) (Towers.gate x0 x1 x2 x3 x4 x5 x6 r s)) k := fun k => by
    rw [show lidx_main_v33 (ix3 r s q) k = ix3 r s k by idx_eq]
    exact tower_input x0 x1 x2 x3 x4 x5 x6 r s k
  simp only [h32]
  unfold Towers.relu Towers.dense
  refine congrArg₂ max (congrArg₂ (· + ·) (Finset.sum_congr rfl fun k _ => congrArg₂ (· * ·) rfl (congrArg x7 ?_))
    (congrArg x8 ?_)) rfl
  all_goals idx_eq

/-- The second tower's second layer at (r, s, unit p). -/
theorem tower_layer2 (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (r : Fin 262144) (s : Fin 10) (p : Fin 41) :
    val_main_v42 (F := Ideal) x0 x1 x2 x3 x4 x5 x6 x7 x8 x9 x10 (ix3 r s p)
      = Towers.relu (Towers.dense (fun q => Towers.relu (Towers.dense (Towers.withGate (Towers.group x0 r s) (Towers.gate x0 x1 x2 x3 x4 x5 x6 r s)) (Towers.mat x7) (Towers.vec x8) q)) (Towers.mat x9) (Towers.vec x10) p) := by
  rw [val_main_v42_apply, val_main_v41_apply, val_main_v38_apply, val_main_v40_apply, val_main_v39_apply,
    val_main_call3_v0_apply, val_main_call3_cst_apply]
  simp only [Ideal.maximumf_def, Ideal.addf_def, Ideal.ofBits_def]
  have h37 : ∀ k : Fin 41, val_main_v37 (F := Ideal) x0 x1 x2 x3 x4 x5 x6 x7 x8 (lidx_main_v38 (ix3 r s p) k)
      = (fun q => Towers.relu (Towers.dense (Towers.withGate (Towers.group x0 r s) (Towers.gate x0 x1 x2 x3 x4 x5 x6 r s)) (Towers.mat x7) (Towers.vec x8) q)) k := fun k => by
    rw [show lidx_main_v38 (ix3 r s p) k = ix3 r s k by idx_eq]
    exact tower_layer1 x0 x1 x2 x3 x4 x5 x6 x7 x8 r s k
  simp only [h37]
  unfold Towers.relu Towers.dense
  refine congrArg₂ max (congrArg₂ (· + ·) (Finset.sum_congr rfl fun k _ => congrArg₂ (· * ·) rfl (congrArg x9 ?_))
    (congrArg x10 ?_)) rfl
  all_goals idx_eq

/-- The second tower's logits at (r, s, output o). -/
theorem tower_logits (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (r : Fin 262144) (s : Fin 10) (o : Fin 22) :
    val_main_v46 (F := Ideal) x0 x1 x2 x3 x4 x5 x6 x7 x8 x9 x10 x11 x12 (ix3 r s o)
      = Towers.mlp (Towers.withGate (Towers.group x0 r s) (Towers.gate x0 x1 x2 x3 x4 x5 x6 r s)) (Towers.mat x7) (Towers.vec x8) (Towers.mat x9) (Towers.vec x10) (Towers.mat x11) (Towers.vec x12) o := by
  rw [val_main_v46_apply, val_main_v43_apply, val_main_v45_apply, val_main_v44_apply]
  simp only [Ideal.addf_def]
  have h42 : ∀ k : Fin 41, val_main_v42 (F := Ideal) x0 x1 x2 x3 x4 x5 x6 x7 x8 x9 x10 (lidx_main_v43 (ix3 r s o) k)
      = (fun p => Towers.relu (Towers.dense (fun q => Towers.relu (Towers.dense (Towers.withGate (Towers.group x0 r s) (Towers.gate x0 x1 x2 x3 x4 x5 x6 r s)) (Towers.mat x7) (Towers.vec x8) q)) (Towers.mat x9) (Towers.vec x10) p)) k := fun k => by
    rw [show lidx_main_v43 (ix3 r s o) k = ix3 r s k by idx_eq]
    exact tower_layer2 x0 x1 x2 x3 x4 x5 x6 x7 x8 x9 x10 r s k
  simp only [h42]
  unfold Towers.mlp
  show _ = (∑ k : Fin 41, _ * _) + _
  refine congrArg₂ (· + ·) (Finset.sum_congr rfl fun k _ => congrArg₂ (· * ·) rfl (congrArg x11 ?_)) (congrArg x12 ?_)
  all_goals idx_eq

/-- The shift of the second softmax at (r, s). -/
theorem tower_shift (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (r : Fin 262144) (s : Fin 10) :
    val_main_v49 (F := Ideal) x0 x1 x2 x3 x4 x5 x6 x7 x8 x9 x10 x11 x12 (ix2 r s) = Towers.shift (fun k : Fin 22 => val_main_v46 (F := Ideal) x0 x1 x2 x3 x4 x5 x6 x7 x8 x9 x10 x11 x12 (ix3 r s k)) := by
  rw [val_main_v49_apply, val_main_v48_apply, val_main_cst_3_apply]
  simp only [Ideal.maximumf_def, Ideal.ofBits_def]
  unfold val_main_v47
  rw [hostMax_last3 (a := 262144) (b := 10) (d := 22) (val_main_v46 (F := Ideal) x0 x1 x2 x3 x4 x5 x6 x7 x8 x9 x10 x11 x12) (val_main_cst_2 (F := Ideal))
    reducesTo_S262144x10x22_S262144x10_d2 (by decide) h_S_ r s]
  rfl

/-- The exponential under the second softmax at (r, s, j). -/
theorem tower_exp (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (r : Fin 262144) (s : Fin 10) (j : Fin 22) :
    val_main_v53 (F := Ideal) x0 x1 x2 x3 x4 x5 x6 x7 x8 x9 x10 x11 x12 (ix3 r s j)
      = Ideal.exp (val_main_v46 (F := Ideal) x0 x1 x2 x3 x4 x5 x6 x7 x8 x9 x10 x11 x12 (ix3 r s j) - Towers.shift (fun k : Fin 22 => val_main_v46 (F := Ideal) x0 x1 x2 x3 x4 x5 x6 x7 x8 x9 x10 x11 x12 (ix3 r s k))) := by
  rw [val_main_v53_apply, val_main_v52_apply, val_main_v51_apply, val_main_v50_apply,
    show idx_main_v50 (idx_main_v51 (ix3 r s j)) = ix2 r s by idx_eq, tower_shift]
  rfl

/-- The denominator of the second softmax at (r, s). -/
theorem tower_sum (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (r : Fin 262144) (s : Fin 10) :
    val_main_v54 (F := Ideal) x0 x1 x2 x3 x4 x5 x6 x7 x8 x9 x10 x11 x12 (ix2 r s)
      = ∑ j : Fin 22, Ideal.exp (val_main_v46 (F := Ideal) x0 x1 x2 x3 x4 x5 x6 x7 x8 x9 x10 x11 x12 (ix3 r s j) - Towers.shift (fun k : Fin 22 => val_main_v46 (F := Ideal) x0 x1 x2 x3 x4 x5 x6 x7 x8 x9 x10 x11 x12 (ix3 r s k))) := by
  rw [val_main_v54_apply, val_main_cst_4_apply]
  simp only [Ideal.ofBits_def, Ideal.ofBits_zero_f32, zero_add]
  refine Finset.sum_congr rfl fun j _ => ?_
  rw [show idx_main_v54 (ix2 r s) j = ix3 r s j by idx_eq, tower_exp]

/-- The reference's result at (row r, group s, output j) is the specification's. -/
theorem ref_at (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (r : Fin 262144) (s : Fin 10) (j : Fin 22) :
    val_main_v60 (F := Ideal) x0 x1 x2 x3 x4 x5 x6 x7 x8 x9 x10 x11 x12 (ix3 r s j) = Towers.result x0 x1 x2 x3 x4 x5 x6 x7 x8 x9 x10 x11 x12 r s j := by
  rw [val_main_v60_apply, val_main_v57_apply, val_main_v56_apply, val_main_v55_apply,
    show idx_main_v55 (idx_main_v56 (ix3 r s j)) = ix2 r s by idx_eq, tower_sum, tower_exp,
    val_main_v59_apply, val_main_v58_apply, show idx_main_v58 (idx_main_v59 (ix3 r s j)) = ix2 r s by idx_eq, gate_weights]
  simp only [tower_logits, Ideal.hostDivf_def, Ideal.mulf_def]
  rfl

/-- The reference program's result is the specification's array. -/
theorem ref_eq (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) :
    Cert.ReferenceIdeal.ReadP.val_main_v60 (F := Ideal) x0 x1 x2 x3 x4 x5 x6 x7 x8 x9 x10 x11 x12 = Towers.resultArr x0 x1 x2 x3 x4 x5 x6 x7 x8 x9 x10 x11 x12 := by
  funext idx
  obtain ⟨r, s, j, rfl⟩ : ∃ (r : Fin 262144) (s : Fin 10) (j : Fin 22), idx = ix3 r s j := ⟨idx 0, idx 1, idx 2, eq_ix3 idx⟩
  exact ref_at x0 x1 x2 x3 x4 x5 x6 x7 x8 x9 x10 x11 x12 r s j

end Cert.ReferenceIdeal.RefValue

end
-- ==== Proof.RefRun.lean ====
/-
  The idealized reference's run at the specification.

  Every weakly fair execution of the reference ends with its result buffer at the specification's array of the argument
  arrays, and the arguments unchanged: the run read back operation by operation gives the composed term of the
  arguments, which is the specification index by index.
-/
import proofs.«147875_j429496729976_2_alg».proof.Proof.RefValEq
import proofs.«147875_j429496729976_2_alg».proof.Proof.RefIsSpec

noncomputable section

namespace Cert.ReferenceIdeal.RefValue

open Cert.ReferenceIdeal Cert.ReferenceIdeal.Gen Idealize.ShloMosaic Idealize.ShloMosaic.TcCoe Idealize.SL.Sem Towers

variable (m : (ℓ : Loc nD τ sig) → Buf (Elt Ideal) ℓ) (ρ : Dev nD → PrngReg)

theorem run_spec :
    θ_run defs (onTc (τ := τ) (main (F := Ideal))) ⟨m, fun _ => 0, ρ⟩ (fun r => ∀ c : Dev nD,
      r.2.mem ((c.tc : Thread nD τ).loc main_v60) = resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans ((Cert.ReferenceIdeal.ReadEq.val_main_v60_eq (F := Ideal) m c).trans (ref_eq _ _ _ _ _ _ _ _ _ _ _ _ _)), (h c).2⟩)
    (Cert.ReferenceIdeal.ValueP.run (F := Ideal) m ρ)

end Cert.ReferenceIdeal.RefValue

end
-- ==== Proof.lean ====
/-
  The kernel computes the reference's function.

  Both programs send each row of the input through two small perceptrons: the first gives ten gate weights from the row's
  40 leading features; the second is applied to each of the row's ten groups of 40 features with the group's gate weight
  appended, ends in a softmax over 22 outputs, and is scaled by the group's gate weight. The reference applies the second
  perceptron group by group with the weights as given. The kernel packs the ten groups into one row of 410 numbers and
  the weights into block-diagonal matrices (built on the host from an identity matrix and the given weights), so that
  three matrix products handle all groups at once; since a product with a block-diagonal matrix only meets the other groups
  at a zero factor, each packed layer acts on each group as the plain layer does (0 * x = 0 and 1 * w = w hold for every
  extended real, and the sums are only regrouped, so no finiteness of the inputs is used). The kernel works on blocks
  of 1024 rows; the blocks tile the rows, and the program's last operation only reshapes [262144, 220] to [262144, 10, 22].

  The three frames are the generated ones (the reference's is its run with the result dropped); the idealization
  rewrote nothing, so that conjunct is trivial; for the last conjunct both runs end with the result buffer at the same
  array of the argument arrays, the specification Towers.resultArr.
-/
import proofs.«147875_j429496729976_2_alg».proof.Defs
import proofs.«147875_j429496729976_2_alg».proof.Proof.Gen.Kernel
import proofs.«147875_j429496729976_2_alg».proof.Proof.Gen.Kernel.Skeleton
import proofs.«147875_j429496729976_2_alg».proof.Proof.Gen.Kernel.Launch
import proofs.«147875_j429496729976_2_alg».proof.Proof.Gen.Kernel.Points
import proofs.«147875_j429496729976_2_alg».proof.Proof.Gen.Kernel.Frame
import proofs.«147875_j429496729976_2_alg».proof.Proof.Gen.KernelIdeal
import proofs.«147875_j429496729976_2_alg».proof.Proof.Gen.KernelIdeal.Skeleton
import proofs.«147875_j429496729976_2_alg».proof.Proof.Gen.KernelIdeal.Launch
import proofs.«147875_j429496729976_2_alg».proof.Proof.Gen.KernelIdeal.Points
import proofs.«147875_j429496729976_2_alg».proof.Proof.Gen.KernelIdeal.Frame
import proofs.«147875_j429496729976_2_alg».proof.Proof.Gen.ReferenceIdeal
import proofs.«147875_j429496729976_2_alg».proof.Proof.Gen.Pre_finite_inputs
import proofs.«147875_j429496729976_2_alg».proof.Proof.KernelRun
import proofs.«147875_j429496729976_2_alg».proof.Proof.PackedAll
import proofs.«147875_j429496729976_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the result at the specification's array of the (agreeing) argument arrays. -/
theorem algebraic : Cert.algebraic_KernelIdeal_ReferenceIdeal := by
  intro m ρ m' ρ' _ hagree
  refine ⟨_, Cert.KernelIdeal.Blocks.kernel_run m ρ (Cert.KernelIdeal.Packed.facts m), ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
